-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x8192 : Shape := ⟨2, ![8192, 8192]⟩
abbrev S128x128 : Shape := ⟨2, ![128, 128]⟩
abbrev S128 : Shape := ⟨1, ![128]⟩
abbrev S_ : Shape := ⟨0, ![]⟩
abbrev S8192 : Shape := ⟨1, ![8192]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_

variable [Facts]

def fn_part1 {F : FTy → Type} [FloatOps F] (main_arg1 : FVec F S8192x8192 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : IVec S8192x8192 32 := iotaInDim S8192x8192 32 0
  let main_v20 : IVec S8192x8192 32 := iotaInDim S8192x8192 32 1
  let main_c_6 : IVec S_ 32 := constantI S_ 32 0#32
  let main_v21 : IVec S8192x8192 32 := broadcastInDim S8192x8192 ![] bcast_S_S8192x8192 main_c_6
  let main_v22 : IVec S8192x8192 32 := addi main_v19 main_v21
  let main_v23 : IVec S8192x8192 1 := cmpi .eq main_v22 main_v20
  let main_v24 : FVec F S8192x8192 .f32 := uitofp .f32 main_v23
  let main_v25 : FVec F S8192x8192 .f32 := addf main_arg1 main_v24
  let main_cst_7 : FVec F S_ .f32 := constant S_ .f32 0x00000000#32
  let main_v26 : FVec F S8192 .f32 := (fun x v => Host.reduceAdd x v reducesTo_S8192x8192_S8192_d1 h_S_) main_v25 main_cst_7
  let main_cst_8 : FVec F S_ .f32 := constant S_ .f32 0x00000000#32
  let main_v27 : FVec F S8192 .f32 := broadcastInDim S8192 ![] bcast_S_S8192 main_cst_8
  let main_v28 : IVec S8192 1 := cmpf .ogt main_v26 main_v27
  let main_c_9 : IVec S_ 1 := constantI S_ 1 1#1
  let main_v29 : IVec S_ 1 := (fun x v => Host.reduce IntOp.andi x v reducesTo_S8192_S_d0 h_S_) main_v28 main_c_9
  let main_v30 : IVec S_ 1 := andi main_v18 main_v29
  main_v30

def fn {F : FTy → Type} [FloatOps F] (main_arg0 : FVec F S8192x128 .f32) (main_arg1 : FVec F S8192x8192 .f32) (main_arg2 : FVec F S128x128 .f32) (main_arg3 : FVec F S128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_v13 main_v16
-- ==== Kernel.lean ====
abbrev S8192x128 : Shape := ⟨2, ![8192, 128]⟩
abbrev S8192x8192 : Shape := ⟨2, ![8192, 8192]⟩
abbrev S128x128 : Shape := ⟨2, ![128, 128]⟩
abbrev S128 : Shape := ⟨1, ![128]⟩
abbrev S8192x1 : Shape := ⟨2, ![8192, 1]⟩
abbrev S1024x1024 : Shape := ⟨2, ![1024, 1024]⟩
abbrev S1024x1 : Shape := ⟨2, ![1024, 1]⟩
abbrev S1024 : Shape := ⟨1, ![1024]⟩
abbrev S1x128 : Shape := ⟨2, ![1, 128]⟩
abbrev S1024x128 : Shape := ⟨2, ![1024, 128]⟩

abbrev nBuf : Space → Nat
  | .hbm => 9
  | .vmem => 17
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S128x128, .f32⟩
  | .hbm, ⟨3, _⟩ => ⟨S128, .f32⟩
  | .hbm, ⟨4, _⟩ => ⟨S8192x1, .f32⟩
  | .hbm, ⟨5, _⟩ => ⟨S8192x128, .f32⟩
  | .hbm, ⟨6, _⟩ => ⟨S8192x128, .f32⟩
  | .hbm, ⟨7, _⟩ => ⟨S1x128, .f32⟩
  | .hbm, ⟨8, _⟩ => ⟨S8192x128, .f32⟩
  | .local _ .vmem, ⟨0, _⟩ => ⟨S1024x1024, .f32⟩
  | .local _ .vmem, ⟨1, _⟩ => ⟨S1024x1024, .f32⟩
  | .local _ .vmem, ⟨2, _⟩ => ⟨S1024x1, .f32⟩
  | .local _ .vmem, ⟨3, _⟩ => ⟨S1024x1, .f32⟩
  | .local _ .vmem, ⟨4, _⟩ => ⟨S1024x1, .f32⟩
  | .local _ .vmem, ⟨5, _⟩ => ⟨S1024x1024, .f32⟩
  | .local _ .vmem, ⟨6, _⟩ => ⟨S1024x1024, .f32⟩
  | .local _ .vmem, ⟨7, _⟩ => ⟨S8192x128, .f32⟩
  | .local _ .vmem, ⟨8, _⟩ => ⟨S1024x128, .f32⟩
  | .local _ .vmem, ⟨9, _⟩ => ⟨S1024x128, .f32⟩
  | .local _ .vmem, ⟨10, _⟩ => ⟨S1024x1, .f32⟩
  | .local _ .vmem, ⟨11, _⟩ => ⟨S1024x1, .f32⟩
  | .local _ .vmem, ⟨12, _⟩ => ⟨S128x128, .f32⟩
  | .local _ .vmem, ⟨13, _⟩ => ⟨S1x128, .f32⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8
abbrev cc1_sem3_0 : DmaSem sig := 9
abbrev cc1_sem3_1 : DmaSem sig := 10
abbrev cc1_sem4_0 : DmaSem sig := 11
abbrev cc1_sem5_0 : DmaSem sig := 12
abbrev cc1_sem6_0 : DmaSem sig := 13
abbrev cc1_sem6_1 : DmaSem sig := 14

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![8, 8], ![false, false]⟩

def k1_mult1 (i : grid1.Coords) : BitVec 32 :=
  let arg1 : BitVec 32 := BitVec.ofNat 32 (i 1).val
  let c1024_i32 : BitVec 32 := 1024#32
  let v3 : BitVec 32 := Scalar.muli arg1 c1024_i32
  v3
def k1_off1 (i : grid1.Coords) : Fin 2 → Nat :=
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  let c0 : Index := 0#32
  ![v5.toNat, 0]
def k1_cond2 (i : grid1.Coords) : BitVec 1 :=
  let arg1 : BitVec 32 := BitVec.ofNat 32 (i 1).val
  let c7_i32 : BitVec 32 := 7#32
  let v17 : BitVec 1 := Scalar.cmpi .eq arg1 c7_i32
  let v18 : BitVec 32 := Scalar.extui v17
  let c0_i32_7 : BitVec 32 := 0#32
  let v19 : BitVec 1 := Scalar.cmpi .ne v18 c0_i32_7
  v19

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S8192x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1024x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

class Facts₀ : Prop where
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  shapeCasts_S1024_S1024x1 : S1024.ShapeCasts S1024x1
  bcast_S8192x1_S8192x128_0_1 : S8192x1.BroadcastsInDim S8192x128 (![0, 1] : Fin 2 → Fin S8192x128.rank)
  shapeCasts_S128_S1x128 : S128.ShapeCasts S1x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  bitsLt_bf16_f32 : FTy.bits .bf16 < FTy.bits .f32
  broadcasts_S1024x1_S1024x128 : S1024x1.Broadcasts S1024x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  dot_S1024x1024_S1024x128_S1024x128_1_0_0_1_n_n_wf : DotDims.WF S1024x1024 S1024x128 S1024x128 [1] [0] [0] [1] [] []
  dot_S1024x128_S128x128_S1024x128_1_0_0_1_n_n_wf : DotDims.WF S1024x128 S128x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x8192.size a
  hwx0_0 : ∀ i : grid0.Coords, EltTy.bits .f32 = 32 ∨ (Rect.block (s := S8192x8192) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S8192x1.size a
  hwx0_1 : ∀ i : grid0.Coords, EltTy.bits .f32 = 32 ∨ (Rect.block (s := S8192x1) S1024x1.size (cc0_transform_1 i) (hinb0_1 i)).WholeWords (EltTy.packing .f32)
  hrank1 : 0 < grid1.rank
  k1_mult1_dvd : ∀ i : grid1.Coords, 1024 ∣ (k1_mult1 i).toNat
  k1_off1_inb : ∀ i : grid1.Coords, ∀ a, (k1_off1 i) a + S1024x128.size a ≤ S8192x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x8192.size a
  hwx1_0 : ∀ i : grid1.Coords, EltTy.bits .f32 = 32 ∨ (Rect.block (s := S8192x8192) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x128.size a ≤ S8192x128.size a
  hwx1_1 : ∀ i : grid1.Coords, EltTy.bits .f32 = 32 ∨ (Rect.block (s := S8192x128) S8192x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S8192x128.size a
  hwx1_2 : ∀ i : grid1.Coords, EltTy.bits .f32 = 32 ∨ (Rect.block (s := S8192x128) S1024x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1.size a ≤ S8192x1.size a
  hwx1_3 : ∀ i : grid1.Coords, EltTy.bits .f32 = 32 ∨ (Rect.block (s := S8192x1) S1024x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1024x128.size a ≤ S8192x128.size a
  hwx1_6 : ∀ i : grid1.Coords, EltTy.bits .f32 = 32 ∨ (Rect.block (s := S8192x128) S1024x128.size (cc1_transform_6 i) (hinb1_6 i)).WholeWords (EltTy.packing .f32)

variable [Facts₀]

def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

abbrev win0_0 : Pipeline.Window sig grid0 :=
  Pipeline.Window.ofSpec (Memref.whole main_arg1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_arg1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S8192x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S1024x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0) S1024x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg2) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v3) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v4) S1024x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

class Facts : Prop extends Facts₀ where

variable [Facts]
-- ==== ReferenceIdeal.lean ====
abbrev S8192x128 : Shape := ⟨2, ![8192, 128]⟩
abbrev S8192x8192 : Shape := ⟨2, ![8192, 8192]⟩
abbrev S128x128 : Shape := ⟨2, ![128, 128]⟩
abbrev S128 : Shape := ⟨1, ![128]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S1x128 : Shape := ⟨2, ![1, 128]⟩

abbrev nBuf : Space → Nat
  | .hbm => 29
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S128x128, .f32⟩
  | .hbm, ⟨3, _⟩ => ⟨S128, .f32⟩
  | .hbm, ⟨4, _⟩ => ⟨S8192x8192, .i32⟩
  | .hbm, ⟨5, _⟩ => ⟨S8192x8192, .i32⟩
  | .hbm, ⟨6, _⟩ => ⟨S_, .i32⟩
  | .hbm, ⟨7, _⟩ => ⟨S8192x8192, .i32⟩
  | .hbm, ⟨8, _⟩ => ⟨S8192x8192, .i32⟩
  | .hbm, ⟨9, _⟩ => ⟨S8192x8192, .i1⟩
  | .hbm, ⟨10, _⟩ => ⟨S8192x8192, .f32⟩
  | .hbm, ⟨11, _⟩ => ⟨S8192x8192, .f32⟩
  | .hbm, ⟨12, _⟩ => ⟨S_, .f32⟩
  | .hbm, ⟨13, _⟩ => ⟨S8192, .f32⟩
  | .hbm, ⟨14, _⟩ => ⟨S8192, .f32⟩
  | .hbm, ⟨15, _⟩ => ⟨S8192x1, .f32⟩
  | .hbm, ⟨16, _⟩ => ⟨S8192x8192, .f32⟩
  | .hbm, ⟨17, _⟩ => ⟨S8192x8192, .f32⟩
  | .hbm, ⟨18, _⟩ => ⟨S1x8192, .f32⟩
  | .hbm, ⟨19, _⟩ => ⟨S8192x8192, .f32⟩
  | .hbm, ⟨20, _⟩ => ⟨S8192x8192, .f32⟩
  | .hbm, ⟨21, _⟩ => ⟨S8192x128, .f32⟩
  | .hbm, ⟨22, _⟩ => ⟨S8192x128, .f32⟩
  | .hbm, ⟨23, _⟩ => ⟨S1x128, .f32⟩
  | .hbm, ⟨24, _⟩ => ⟨S8192x128, .f32⟩
  | .hbm, ⟨25, _⟩ => ⟨S8192x128, .f32⟩
  | .hbm, ⟨26, _⟩ => ⟨S_, .f32⟩
  | .hbm, ⟨27, _⟩ => ⟨S8192x128, .f32⟩
  | .hbm, ⟨28, _⟩ => ⟨S8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_call0_cst : Ref sig .tc := ⟨.hbm, 26, rfl⟩
abbrev main_call0_v0 : Ref sig .tc := ⟨.hbm, 27, rfl⟩
abbrev main_v20 : Ref sig .tc := ⟨.hbm, 28, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  dot_S8192x8192_S8192x128_S8192x128_1_0_0_1_n_n_wf : DotDims.WF S8192x8192 S8192x128 S8192x128 [1] [0] [0] [1] [] []
  dot_S8192x128_S128x128_S8192x128_1_0_0_1_n_n_wf : DotDims.WF S8192x128 S128x128 S8192x128 [1] [0] [0] [1] [] []

variable [Facts₀]

def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

class Facts : Prop extends Facts₀ where

variable [Facts]
-- ==== Proof.K.DegShared.lean ====
/-
  The degree pass, part one: what its three control cases share.

  The grid is 8 x 8 points, point t = 8 i + k with i the row block and k the column block of the adjacency matrix.
  At every point the body adds the lane sums of the 1024 x 1024 block (i, k) to a 1024 x 1 accumulator kept between
  points; the accumulator is zeroed first when k = 0, and when k = 7 the output block i receives
  rsqrt (accumulator + 1). So a point is in one of three cases: k = 0 (zero, then add), 0 < k < 7 (add), k = 7 (add,
  then write the output block). The output block is written back only after the points with k = 7 and is left alone at
  the others. Everything here is stated for the contents `V` the buffers hold when the pass is entered, at any float
  instance.
-/
import proofs.«179909_j2903397893032_1_alg».proof.Proof.Gen.Kernel.Launch
import proofs.«179909_j2903397893032_1_alg».proof.Proof.Gen.Kernel.Skeleton
import proofs.«179909_j2903397893032_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Deg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks -/

/-- Window `w`'s block at point `t`, read off its array as the pass finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The adjacency window's staging buffer holds block (i, k) at every point, for any proof data whose array is the
    entry contents and whose body leaves the block in place. -/
theorem before_adj_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The two conditions, in closed form over the grid -/

/-- "k = 0": the accumulator is zeroed first. -/
abbrev isFirst (i : grid0.Coords) : Prop := (Scalar.cmpi .ne (Scalar.extui (Scalar.cmpi .eq (BitVec.ofNat 32 (i 1).val) 0#32)) 0#32) = 1#1
theorem isFirst_iff : ∀ t : Fin cfg0.N, isFirst (grid0.coords t) ↔ t.val % 8 = 0 :=
  (by decide +kernel : ∀ t : Fin grid0.N, isFirst (grid0.coords t) ↔ t.val % 8 = 0)

/-- "k = 7": the output block is written. -/
abbrev isLast (i : grid0.Coords) : Prop := k0_cond2 i = 1#1
theorem isLast_iff : ∀ t : Fin cfg0.N, isLast (grid0.coords t) ↔ t.val % 8 = 7 :=
  (by decide +kernel : ∀ t : Fin grid0.N, isLast (grid0.coords t) ↔ t.val % 8 = 7)

/-! ## Where the output window is idle -/

theorem adj_live : ∀ t : Fin cfg0.N, cfg0.idle 0 (grid0.coords t) = false := by decide +kernel
theorem out_idle : ∀ t : Fin cfg0.N, ¬isLast (grid0.coords t) → cfg0.idle 1 (grid0.coords t) = true := by decide +kernel
theorem out_noFlush : ∀ t : Fin cfg0.N, ¬isLast (grid0.coords t) → (cfg0.win 1).flush t = false := by decide +kernel
theorem out_live : ∀ t : Fin cfg0.N, isLast (grid0.coords t) → cfg0.idle 1 (grid0.coords t) = false := by decide +kernel

/-! ## The memrefs the body is called with -/

abbrev VO : View sig .tc .vmem S1024x1 .f32 := (Memref.whole cc0_stg1_0 : Memref sig .tc .vmem S1024x1 .f32).view
abbrev ms0 (t : Fin cfg0.N) : Memref sig .tc .vmem S1024x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x1 .f32 := win0_1.stage (cfg0.slots t 1)
abbrev hs1 (t : Fin cfg0.N) : (ms1 t).IsWhole := hstage0_1 ((cfg0.slots t 1).cast nbuf0_1)
/-- The accumulator: a whole scoped buffer of the pass's own. -/
abbrev accM : Memref sig .tc .vmem S1024x1 .f32 := Memref.whole cc0_scratch0
abbrev VS : View sig .tc .vmem S1024x1 .f32 := accM.view

/-- The second pass's own scoped buffers, each whole at some contents: they ride through this pass untouched. -/
def others (c : Dev nD) : sProp 𝕄 :=
  iprop((∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg2_1), ((c : Thread nD τ).loc cc1_stg2_1) ↦{fullShare} f)
      ∗ (∃ f : Buf (Elt F) ((c : Thread nD τ).loc cc1_stg3_0), ((c : Thread nD τ).loc cc1_stg3_0) ↦{fullShare} f)
      ∗ (∃ f : Buf (Elt F) ((c : Thread nD τ).loc cc1_stg3_1), ((c : Thread nD τ).loc cc1_stg3_1) ↦{fullShare} f)
      ∗ (∃ f : Buf (Elt F) ((c : Thread nD τ).loc cc1_stg4_0), ((c : Thread nD τ).loc cc1_stg4_0) ↦{fullShare} f)
      ∗ (∃ f : Buf (Elt F) ((c : Thread nD τ).loc cc1_stg5_0), ((c : Thread nD τ).loc cc1_stg5_0) ↦{fullShare} f)
      ∗ (∃ f : Buf (Elt F) ((c : Thread nD τ).loc cc1_stg6_0), ((c : Thread nD τ).loc cc1_stg6_0) ↦{fullShare} f)
      ∗ (∃ f : Buf (Elt F) ((c : Thread nD τ).loc cc1_stg6_1), ((c : Thread nD τ).loc cc1_stg6_1) ↦{fullShare} f)
      ∗ (∃ f : Buf (Elt F) ((c : Thread nD τ).loc cc1_scratch0), ((c : Thread nD τ).loc cc1_scratch0) ↦{fullShare} f))

/-- Before the first point nothing is known of the accumulator: it is owned at some contents, beside the second pass's
    buffers and the random-number register at some state. -/
theorem PhiA_eq (c : Dev nD) :
    (Pipeline.ΦA spec0 c : sProp 𝕄)
      = iprop(iprop((∃ d, owns (c : Thread nD τ) accM fullShare d) ∗ others (F := F) c) ∗ (∃ r, prngReg c r)) := by
  unfold Pipeline.ΦA others; rw [scopedRest0_eq]; simp only [accM, owns_whole]; try rfl

end Cert.Kernel.Deg

end
-- ==== Proof.K.DegRuns.lean ====
/-
  The degree pass, part two: the body run in each of its three cases.

  On whole staging buffers -- the adjacency block at contents x0 -- the body runs to the end, and what it leaves is
  recorded as the list of pieces it stored, last first: in the accumulator always, in the output block only when
  k = 7. When k = 0 the accumulator may hold anything on entry (it is zeroed before it is read for the sum); otherwise
  it holds what the point before left, xs. When k < 7 the output block is handed back as it came, xi.
-/
import proofs.«179909_j2903397893032_1_alg».proof.Proof.K.DegShared

set_option maxRecDepth 16384

noncomputable section

namespace Cert.Kernel.Deg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- k = 0: zero the accumulator, add the block's lane sums. -/
noncomputable def runFirst (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1 .f32) (harg4 : arg4.IsWhole) (hF : isFirst i) (hL : ¬isLast i)
    (x0 : Vec F S1024x1024 .f32) :
    Σ' (L1 : List (View.Piece (Elt F) S1024x1 .f32)), { LS : List (View.Piece (Elt F) S1024x1 .f32) //
      ∀ (xi : Vec F S1024x1 .f32) (E : Set ℕ) (K : PUnit → sProp 𝕄),
        iprop(owns (c : Thread nD τ) arg2 fullShare x0 ∗ owns (c : Thread nD τ) arg3 fullShare xi ∗ (∃ d, owns (c : Thread nD τ) arg4 fullShare d)
            ∗ (iprop(owns (c : Thread nD τ) arg2 fullShare x0 ∗ owns (c : Thread nD τ) arg3 fullShare xi ∗ (∃ f, arg4.view.loc (c : Thread nD τ) ↦[arg4.view.set]{fullShare} arg4.view.writes (Elt F) f LS)) -∗ K ⟨⟩))
          ⊢ wp frame (wpE (defs₀ (F := F)) Variants.none c none) E (cc0__degree_kernel i arg2 harg2 arg3 harg3 arg4 harg4) K } := by
  refine ⟨[], ?_, fun xi E K => ?run⟩
  case run =>
    simp only [cc0__degree_kernel_eq_skeleton]; unfold cc0__degree_kernel_skel
    unfold owns
    iintro ⟨⟨%f0, %hf0, H0⟩, ⟨%f1, %hf1, H1⟩, ⟨%ds, %fs, -, HS⟩, Hk⟩
    obtain rfl := harg2.eq_unread hf0; obtain rfl := harg3.eq_unread hf1
    sl_exec (disch := first | exact hF | exact hL)
    sl_step
    iapply Hk
    isplitl [H0]
    · iexists _; isplitr; · ipureintro; exact harg2.read_unread _
      iexact H0
    isplitl [H1]
    · iexists _; isplitr; · ipureintro; exact harg3.read_unread _
      iexact H1
    iexists _; iexact HS

set_option maxHeartbeats 1000000 in
/-- 0 < k < 7: add the block's lane sums to what the point before left. -/
noncomputable def runMid (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1 .f32) (harg4 : arg4.IsWhole) (hF : ¬isFirst i) (hL : ¬isLast i)
    (x0 : Vec F S1024x1024 .f32) (xs : Vec F S1024x1 .f32) :
    Σ' (L1 : List (View.Piece (Elt F) S1024x1 .f32)), { LS : List (View.Piece (Elt F) S1024x1 .f32) //
      ∀ (xi : Vec F S1024x1 .f32) (E : Set ℕ) (K : PUnit → sProp 𝕄),
        iprop(owns (c : Thread nD τ) arg2 fullShare x0 ∗ owns (c : Thread nD τ) arg3 fullShare xi ∗ owns (c : Thread nD τ) arg4 fullShare xs
            ∗ (iprop(owns (c : Thread nD τ) arg2 fullShare x0 ∗ owns (c : Thread nD τ) arg3 fullShare xi ∗ (∃ f, arg4.view.loc (c : Thread nD τ) ↦[arg4.view.set]{fullShare} arg4.view.writes (Elt F) f LS)) -∗ K ⟨⟩))
          ⊢ wp frame (wpE (defs₀ (F := F)) Variants.none c none) E (cc0__degree_kernel i arg2 harg2 arg3 harg3 arg4 harg4) K } := by
  refine ⟨[], ?_, fun xi E K => ?run⟩
  case run =>
    simp only [cc0__degree_kernel_eq_skeleton]; unfold cc0__degree_kernel_skel
    unfold owns
    iintro ⟨⟨%f0, %hf0, H0⟩, ⟨%f1, %hf1, H1⟩, ⟨%fs, %hfs, HS⟩, Hk⟩
    obtain rfl := harg2.eq_unread hf0; obtain rfl := harg3.eq_unread hf1; obtain rfl := harg4.eq_unread hfs
    sl_exec (disch := first | exact hF | exact hL)
    sl_step
    iapply Hk
    isplitl [H0]
    · iexists _; isplitr; · ipureintro; exact harg2.read_unread _
      iexact H0
    isplitl [H1]
    · iexists _; isplitr; · ipureintro; exact harg3.read_unread _
      iexact H1
    iexists _; iexact HS

set_option maxHeartbeats 1000000 in
/-- k = 7: add the block's lane sums, then store rsqrt (sum + 1) into the output block. -/
noncomputable def runLast (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1 .f32) (harg4 : arg4.IsWhole) (hF : ¬isFirst i) (hL : isLast i)
    (x0 : Vec F S1024x1024 .f32) (xs : Vec F S1024x1 .f32) :
    Σ' (L1 : List (View.Piece (Elt F) S1024x1 .f32)), { LS : List (View.Piece (Elt F) S1024x1 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS)) -∗ K ⟨⟩))
          ⊢ wp frame (wpE (defs₀ (F := F)) Variants.none c none) E (cc0__degree_kernel i arg2 harg2 arg3 harg3 arg4 harg4) K } := by
  refine ⟨?_, ?_, fun E K => ?run⟩
  case run =>
    simp only [cc0__degree_kernel_eq_skeleton]; unfold cc0__degree_kernel_skel
    unfold owns
    iintro ⟨⟨%f0, %hf0, H0⟩, ⟨%d1, %f1, -, H1⟩, ⟨%fs, %hfs, HS⟩, Hk⟩
    obtain rfl := harg2.eq_unread hf0; obtain rfl := harg4.eq_unread hfs
    sl_exec (disch := first | exact hF | exact hL)
    sl_step
    iapply Hk
    isplitl [H0]
    · iexists _; isplitr; · ipureintro; exact harg2.read_unread _
      iexact H0
    isplitl [H1]; · iexists _; iexact H1
    iexists _; iexact HS

end Cert.Kernel.Deg

end
-- ==== Proof.K.DegFrame.lean ====
/-
  The degree pass, part three: the accumulator point by point, and the pass's proof data.

  `outsAt V c n` is the pair (output block, accumulator) after the body at point n: the accumulator is the case's pieces
  read back -- over the point before's accumulator unless k = 0 --, and the output block is the last case's pieces
  when k = 7 (at the other points it is a placeholder nobody reads: the block is neither written back nor read there).
  The pass's invariant before point n > 0 holds the accumulator at the point before's contents, beside the second
  pass's buffers and the random-number register; before point 0 it holds the accumulator at anything.
-/
import proofs.«179909_j2903397893032_1_alg».proof.Proof.K.DegRuns

set_option maxRecDepth 16384

noncomputable section

namespace Cert.Kernel.Deg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The pieces cover their buffers -/

theorem accCover_first (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1 .f32) (harg4 : arg4.IsWhole) (hF : isFirst i) (hL : ¬isLast i) (x0 : Vec F S1024x1024 .f32) (y : S1024x1.Idx) :
    ∃ pc ∈ (runFirst c i arg2 harg2 arg3 harg3 arg4 harg4 hF hL x0).2.1, y ∈ pc.1.set :=
  View.cover_of_tiledL (runFirst c i arg2 harg2 arg3 harg3 arg4 harg4 hF hL x0).2.1 S1024x1.size (by sl_kernel_rfl) y
theorem accCover_mid (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1 .f32) (harg4 : arg4.IsWhole) (hF : ¬isFirst i) (hL : ¬isLast i) (x0 : Vec F S1024x1024 .f32) (xs : Vec F S1024x1 .f32) (y : S1024x1.Idx) :
    ∃ pc ∈ (runMid c i arg2 harg2 arg3 harg3 arg4 harg4 hF hL x0 xs).2.1, y ∈ pc.1.set :=
  View.cover_of_tiledL (runMid c i arg2 harg2 arg3 harg3 arg4 harg4 hF hL x0 xs).2.1 S1024x1.size (by sl_kernel_rfl) y
theorem accCover_last (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1 .f32) (harg4 : arg4.IsWhole) (hF : ¬isFirst i) (hL : isLast i) (x0 : Vec F S1024x1024 .f32) (xs : Vec F S1024x1 .f32) (y : S1024x1.Idx) :
    ∃ pc ∈ (runLast c i arg2 harg2 arg3 harg3 arg4 harg4 hF hL x0 xs).2.1, y ∈ pc.1.set :=
  View.cover_of_tiledL (runLast c i arg2 harg2 arg3 harg3 arg4 harg4 hF hL x0 xs).2.1 S1024x1.size (by sl_kernel_rfl) y
theorem outCover_last (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1 .f32) (harg4 : arg4.IsWhole) (hF : ¬isFirst i) (hL : isLast i) (x0 : Vec F S1024x1024 .f32) (xs : Vec F S1024x1 .f32) (y : S1024x1.Idx) :
    ∃ pc ∈ (runLast c i arg2 harg2 arg3 harg3 arg4 harg4 hF hL x0 xs).1, y ∈ pc.1.set :=
  View.cover_of_tiledL (runLast c i arg2 harg2 arg3 harg3 arg4 harg4 hF hL x0 xs).1 S1024x1.size (by sl_kernel_rfl) y

/-! ## What each case leaves -/

def accFirst (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1 .f32) (harg4 : arg4.IsWhole) (hF : isFirst i) (hL : ¬isLast i) (x0 : Vec F S1024x1024 .f32) : Vec F S1024x1 .f32 :=
  VS.read (Elt F) (VS.writes (Elt F) VS.junk (runFirst c i arg2 harg2 arg3 harg3 arg4 harg4 hF hL x0).2.1)
def accMid (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1 .f32) (harg4 : arg4.IsWhole) (hF : ¬isFirst i) (hL : ¬isLast i) (x0 : Vec F S1024x1024 .f32) (xs : Vec F S1024x1 .f32) : Vec F S1024x1 .f32 :=
  VS.read (Elt F) (VS.writes (Elt F) VS.junk (runMid c i arg2 harg2 arg3 harg3 arg4 harg4 hF hL x0 xs).2.1)
def accLast (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1 .f32) (harg4 : arg4.IsWhole) (hF : ¬isFirst i) (hL : isLast i) (x0 : Vec F S1024x1024 .f32) (xs : Vec F S1024x1 .f32) : Vec F S1024x1 .f32 :=
  VS.read (Elt F) (VS.writes (Elt F) VS.junk (runLast c i arg2 harg2 arg3 harg3 arg4 harg4 hF hL x0 xs).2.1)
def outLast (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1 .f32) (harg4 : arg4.IsWhole) (hF : ¬isFirst i) (hL : isLast i) (x0 : Vec F S1024x1024 .f32) (xs : Vec F S1024x1 .f32) : Vec F S1024x1 .f32 :=
  VO.read (Elt F) (VO.writes (Elt F) VO.junk (runLast c i arg2 harg2 arg3 harg3 arg4 harg4 hF hL x0 xs).1)
/-- The output component at a point with k < 7: read by nobody. -/
def outIdle : Vec F S1024x1 .f32 := VO.read (Elt F) (VO.writes (Elt F) VO.junk [])

/-! ## Point by point -/

def outsAt (c : Dev nD) : (n : ℕ) → n < cfg0.N → Vec F S1024x1 .f32 × Vec F S1024x1 .f32
  | 0, hn => (outIdle, accFirst c (grid0.coords ⟨0, hn⟩) (ms0 ⟨0, hn⟩) (hs0 ⟨0, hn⟩) (ms1 ⟨0, hn⟩) (hs1 ⟨0, hn⟩) accM (Memref.isWhole_whole _) ((isFirst_iff ⟨0, hn⟩).mpr (Nat.zero_mod _)) (fun h => (fun h => by (try dsimp only at h); omega) ((isLast_iff ⟨0, hn⟩).mp h)) (iblk V c 0 ⟨0, hn⟩))
  | n + 1, hn =>
    if h0 : (n + 1) % 8 = 0 then
      if h7 : (n + 1) % 8 = 7 then False.elim (by omega)
      else (outIdle, accFirst c (grid0.coords ⟨n + 1, hn⟩) (ms0 ⟨n + 1, hn⟩) (hs0 ⟨n + 1, hn⟩) (ms1 ⟨n + 1, hn⟩) (hs1 ⟨n + 1, hn⟩) accM (Memref.isWhole_whole _) ((isFirst_iff ⟨n + 1, hn⟩).mpr h0) (fun h => h7 ((isLast_iff ⟨n + 1, hn⟩).mp h)) (iblk V c 0 ⟨n + 1, hn⟩))
    else
      if h7 : (n + 1) % 8 = 7 then
        (outLast c (grid0.coords ⟨n + 1, hn⟩) (ms0 ⟨n + 1, hn⟩) (hs0 ⟨n + 1, hn⟩) (ms1 ⟨n + 1, hn⟩) (hs1 ⟨n + 1, hn⟩) accM (Memref.isWhole_whole _) (fun h => h0 ((isFirst_iff ⟨n + 1, hn⟩).mp h)) ((isLast_iff ⟨n + 1, hn⟩).mpr h7) (iblk V c 0 ⟨n + 1, hn⟩) (outsAt c n (Nat.lt_of_succ_lt hn)).2,
         accLast c (grid0.coords ⟨n + 1, hn⟩) (ms0 ⟨n + 1, hn⟩) (hs0 ⟨n + 1, hn⟩) (ms1 ⟨n + 1, hn⟩) (hs1 ⟨n + 1, hn⟩) accM (Memref.isWhole_whole _) (fun h => h0 ((isFirst_iff ⟨n + 1, hn⟩).mp h)) ((isLast_iff ⟨n + 1, hn⟩).mpr h7) (iblk V c 0 ⟨n + 1, hn⟩) (outsAt c n (Nat.lt_of_succ_lt hn)).2)
      else
        (outIdle, accMid c (grid0.coords ⟨n + 1, hn⟩) (ms0 ⟨n + 1, hn⟩) (hs0 ⟨n + 1, hn⟩) (ms1 ⟨n + 1, hn⟩) (hs1 ⟨n + 1, hn⟩) accM (Memref.isWhole_whole _) (fun h => h0 ((isFirst_iff ⟨n + 1, hn⟩).mp h)) (fun h => h7 ((isLast_iff ⟨n + 1, hn⟩).mp h)) (iblk V c 0 ⟨n + 1, hn⟩) (outsAt c n (Nat.lt_of_succ_lt hn)).2)

theorem outsAt_first (c : Dev nD) (t : Fin cfg0.N) (h0 : t.val % 8 = 0) (h7 : ¬t.val % 8 = 7) :
    outsAt V c t.val t.isLt = (outIdle, accFirst c (grid0.coords t) (ms0 t) (hs0 t) (ms1 t) (hs1 t) accM (Memref.isWhole_whole _) ((isFirst_iff t).mpr h0) (fun h => h7 ((isLast_iff t).mp h)) (iblk V c 0 t)) := by
  obtain ⟨n, hn⟩ := t
  cases n with
  | zero => exact rfl
  | succ n => exact (dif_pos h0).trans ((dif_neg h7).trans rfl)

theorem outsAt_mid (c : Dev nD) (t : Fin cfg0.N) (h0 : ¬t.val % 8 = 0) (h7 : ¬t.val % 8 = 7) :
    outsAt V c t.val t.isLt = (outIdle, accMid c (grid0.coords t) (ms0 t) (hs0 t) (ms1 t) (hs1 t) accM (Memref.isWhole_whole _) (fun h => h0 ((isFirst_iff t).mp h)) (fun h => h7 ((isLast_iff t).mp h)) (iblk V c 0 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h7).trans rfl)

theorem outsAt_last (c : Dev nD) (t : Fin cfg0.N) (h0 : ¬t.val % 8 = 0) (h7 : t.val % 8 = 7) :
    outsAt V c t.val t.isLt = (outLast c (grid0.coords t) (ms0 t) (hs0 t) (ms1 t) (hs1 t) accM (Memref.isWhole_whole _) (fun h => h0 ((isFirst_iff t).mp h)) ((isLast_iff t).mpr h7) (iblk V c 0 t) (outsAt V c (t.val - 1) (Nat.lt_of_le_of_lt (Nat.sub_le _ _) t.isLt)).2,
      accLast c (grid0.coords t) (ms0 t) (hs0 t) (ms1 t) (hs1 t) accM (Memref.isWhole_whole _) (fun h => h0 ((isFirst_iff t).mp h)) ((isLast_iff t).mpr h7) (iblk V c 0 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h7).trans rfl)

/-! ## The invariant that carries the accumulator -/

def PhiS (c : Dev nD) : (n : ℕ) → n ≤ cfg0.N → sProp 𝕄
  | 0, _ => Pipeline.ΦA spec0 c
  | n + 1, hn => iprop(iprop(owns (c : Thread nD τ) accM fullShare ((outsAt V c n hn).2) ∗ others (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) accM fullShare ((outsAt V c n hn).2) ∗ others (F := F) c) ∗ (∃ r, prngReg c r)) := rfl
theorem PhiS_pos (c : Dev nD) (n : ℕ) (h : n ≤ cfg0.N) (hz : n ≠ 0) :
    PhiS V c n h = iprop(iprop(owns (c : Thread nD τ) accM fullShare ((outsAt V c (n - 1) (by omega)).2) ∗ others (F := F) c) ∗ (∃ r, prngReg c r)) := by
  cases n with
  | zero => exact absurd rfl hz
  | succ n => rfl

/-! ## The proof data -/

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => (outsAt V c t.val t.isLt).1
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]
theorem PhiS_castSucc (c : Dev nD) (t : Fin cfg0.N) :
    (dat V c).Φ t.castSucc = PhiS V c t.val (Nat.le_of_lt t.isLt) := by
  dsimp only [dat]; simp only [Fin.coe_castSucc]
theorem after_adj (c : Dev nD) (t : Fin cfg0.N) : (dat V c).after 0 t = iblk V c 0 t := by dsimp only [dat]
theorem after_out (c : Dev nD) (t : Fin cfg0.N) : (dat V c).after 1 t = (outsAt V c t.val t.isLt).1 := by dsimp only [dat]
theorem before_adj (c : Dev nD) (t : Fin cfg0.N) (d) : (dat V c).before 0 t d = iblk V c 0 t :=
  before_adj_of V (dat V c) (A_eq V c 0) (after_adj V c) t d

/-! ## The body obligation -/

def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t)

set_option maxHeartbeats 4800000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_adj]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms0 t) fullShare ((dat V c).after 0 t) from by
    unfold Dat.leavesExact; rw [adj_live t], after_adj]
  by_cases h0 : t.val % 8 = 0
  · have h7 : ¬t.val % 8 = 7 := by omega
    rw [Dat.leavesExact_idle (dat V c) 1 t (out_idle t (fun h => h7 ((isLast_iff t).mp h))) (out_noFlush t (fun h => h7 ((isLast_iff t).mp h)))]
    rw [outsAt_first V c t h0 h7]
    unfold accFirst; (try dsimp only)
    by_cases hz : t.val = 0
    · rw [PhiS_castSucc V c t, PhiS_zero V c _ _ hz, PhiA_eq]
      iintro ⟨⟨⟨HS, Hoth⟩, Hg⟩, Ho, ⟨%d0, H0⟩, ⟨%d1, H1⟩⟩
      iapply ((runFirst c (grid0.coords t) _ _ _ _ _ _ ((isFirst_iff t).mpr h0) (fun h => h7 ((isLast_iff t).mp h)) (iblk V c 0 t)).2.2 _ Set.univ _)
      isplitl [H0]; · iexact H0
      isplitl [H1]; · iexact H1
      isplitl [HS]; · iexact HS
      iintro ⟨H0, H1, ⟨%es, HS⟩⟩
      isplitl [HS Hoth Hg]
      · isplitl [HS Hoth]
        · isplitl [HS]
          · unfold owns; iexists _; isplitr
            swap; · iexact HS
            ipureintro; exact View.read_writes_of_cover _ _ _ _ _ (accCover_first c _ _ _ _ _ _ _ _ _ _)
          iexact Hoth
        iexact Hg
      isplitl [Ho]; · iexact Ho
      isplitl [H0]; · iexact H0
      iexists _; iexact H1
    · rw [PhiS_castSucc V c t, PhiS_pos V c _ _ hz]
      iintro ⟨⟨⟨HS, Hoth⟩, Hg⟩, Ho, ⟨%d0, H0⟩, ⟨%d1, H1⟩⟩
      iapply ((runFirst c (grid0.coords t) _ _ _ _ _ _ ((isFirst_iff t).mpr h0) (fun h => h7 ((isLast_iff t).mp h)) (iblk V c 0 t)).2.2 _ Set.univ _)
      isplitl [H0]; · iexact H0
      isplitl [H1]; · iexact H1
      isplitl [HS]; · iexists _; iexact HS
      iintro ⟨H0, H1, ⟨%es, HS⟩⟩
      isplitl [HS Hoth Hg]
      · isplitl [HS Hoth]
        · isplitl [HS]
          · unfold owns; iexists _; isplitr
            swap; · iexact HS
            ipureintro; exact View.read_writes_of_cover _ _ _ _ _ (accCover_first c _ _ _ _ _ _ _ _ _ _)
          iexact Hoth
        iexact Hg
      isplitl [Ho]; · iexact Ho
      isplitl [H0]; · iexact H0
      iexists _; iexact H1
  · have hz : t.val ≠ 0 := fun h => h0 (by rw [h])
    by_cases h7 : t.val % 8 = 7
    · rw [show (dat V c).leavesExact 1 t = owns (c : Thread nD τ) (ms1 t) fullShare ((dat V c).after 1 t) from by
        unfold Dat.leavesExact; rw [out_live t ((isLast_iff t).mpr h7)], after_out]
      rw [outsAt_last V c t h0 h7]
      unfold outLast accLast; (try dsimp only)
      rw [PhiS_castSucc V c t, PhiS_pos V c _ _ hz]
      iintro ⟨⟨⟨HS, Hoth⟩, Hg⟩, Ho, ⟨%d0, H0⟩, ⟨%d1, H1⟩⟩
      iapply ((runLast c (grid0.coords t) _ _ _ _ _ _ (fun h => h0 ((isFirst_iff t).mp h)) ((isLast_iff t).mpr h7) (iblk V c 0 t) _).2.2 Set.univ _)
      isplitl [H0]; · iexact H0
      isplitl [H1]; · iexists _; iexact H1
      isplitl [HS]; · iexact HS
      iintro ⟨H0, ⟨%e1, H1⟩, ⟨%es, HS⟩⟩
      isplitl [HS Hoth Hg]
      · isplitl [HS Hoth]
        · isplitl [HS]
          · unfold owns; iexists _; isplitr
            swap; · iexact HS
            ipureintro; exact View.read_writes_of_cover _ _ _ _ _ (accCover_last c _ _ _ _ _ _ _ _ _ _ _)
          iexact Hoth
        iexact Hg
      isplitl [Ho]; · iexact Ho
      isplitl [H0]; · iexact H0
      unfold owns; iexists _; isplitr
      swap; · iexact H1
      ipureintro; exact View.read_writes_of_cover _ _ _ _ _ (outCover_last c _ _ _ _ _ _ _ _ _ _ _)
    · rw [Dat.leavesExact_idle (dat V c) 1 t (out_idle t (fun h => h7 ((isLast_iff t).mp h))) (out_noFlush t (fun h => h7 ((isLast_iff t).mp h)))]
      rw [outsAt_mid V c t h0 h7]
      unfold accMid; (try dsimp only)
      rw [PhiS_castSucc V c t, PhiS_pos V c _ _ hz]
      iintro ⟨⟨⟨HS, Hoth⟩, Hg⟩, Ho, ⟨%d0, H0⟩, ⟨%d1, H1⟩⟩
      iapply ((runMid c (grid0.coords t) _ _ _ _ _ _ (fun h => h0 ((isFirst_iff t).mp h)) (fun h => h7 ((isLast_iff t).mp h)) (iblk V c 0 t) _).2.2 _ Set.univ _)
      isplitl [H0]; · iexact H0
      isplitl [H1]; · iexact H1
      isplitl [HS]; · iexact HS
      iintro ⟨H0, H1, ⟨%es, HS⟩⟩
      isplitl [HS Hoth Hg]
      · isplitl [HS Hoth]
        · isplitl [HS]
          · unfold owns; iexists _; isplitr
            swap; · iexact HS
            ipureintro; exact View.read_writes_of_cover _ _ _ _ _ (accCover_mid c _ _ _ _ _ _ _ _ _ _ _)
          iexact Hoth
        iexact Hg
      isplitl [Ho]; · iexact Ho
      isplitl [H0]; · iexact H0
      iexists _; iexact H1

theorem body_obligation (c : Dev nD) : BodyObligation (dat (F := F) V c) (defs₀ (F := F)) Variants.none () Set.univ := fun t => by
  rw [bigSep_W0, bigSep_W0]
  exact sound_body V c t

/-! ## The invariant's two ends -/

theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

theorem hout (c : Dev nD) : (dat V c).Φ (Fin.last cfg0.N) ⊢ Pipeline.ΦA spec0 c := by
  have hN : (Fin.last cfg0.N).val ≠ 0 := by rw [Fin.val_last]; have : cfg0.N = 64 := N_0; omega
  rw [show (dat V c).Φ (Fin.last cfg0.N) = PhiS V c (Fin.last cfg0.N).val (Nat.le_of_lt_succ (Fin.last cfg0.N).isLt) from rfl, PhiS_pos V c _ _ hN, PhiA_eq]
  iintro ⟨⟨HS, Hoth⟩, Hg⟩
  isplitl [HS Hoth]
  · isplitl [HS]
    · iexists _; iexact HS
    iexact Hoth
  iexact Hg

end Cert.Kernel.Deg

end
-- ==== Proof.K.AggShared.lean ====
/-
  The aggregation pass, part one: what its three control cases share.

  The grid is again 8 x 8 points, t = 8 i + k. At every point the body adds the product of the adjacency block (i, k)
  with rows 1024 k .. 1024 k + 1023 of y to a 1024 x 128 accumulator kept between points (zeroed first when k = 0);
  when k = 7 the output block i receives max (h W + b, 0) with h = d * accumulator + (d * d) * x, d the block's
  inverse square-root degrees. The output block is written back only after the points with k = 7. Everything is stated
  for the contents `V` the buffers hold when the pass is entered, at any float instance.
-/
import proofs.«179909_j2903397893032_1_alg».proof.Proof.Gen.Kernel.Launch
import proofs.«179909_j2903397893032_1_alg».proof.Proof.Gen.Kernel.Skeleton
import proofs.«179909_j2903397893032_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Agg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks -/

/-- Window `w`'s block at point `t`, read off its array as the pass finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's staging buffer holds its block at every point, fetched there or not. -/
theorem before_in0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5_of {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The two conditions, in closed form over the grid -/

abbrev isFirst (i : grid1.Coords) : Prop := (Scalar.cmpi .ne (Scalar.extui (Scalar.cmpi .eq (BitVec.ofNat 32 (i 1).val) 0#32)) 0#32) = 1#1
theorem isFirst_iff : ∀ t : Fin cfg1.N, isFirst (grid1.coords t) ↔ t.val % 8 = 0 :=
  (by decide +kernel : ∀ t : Fin grid1.N, isFirst (grid1.coords t) ↔ t.val % 8 = 0)
abbrev isLast (i : grid1.Coords) : Prop := k1_cond2 i = 1#1
theorem isLast_iff : ∀ t : Fin cfg1.N, isLast (grid1.coords t) ↔ t.val % 8 = 7 :=
  (by decide +kernel : ∀ t : Fin grid1.N, isLast (grid1.coords t) ↔ t.val % 8 = 7)

/-! ## Where the windows are idle -/

theorem in0_live : ∀ t : Fin cfg1.N, cfg1.idle 0 (grid1.coords t) = false := by decide +kernel
theorem in1_live : ∀ t : Fin cfg1.N, cfg1.idle 1 (grid1.coords t) = false := by decide +kernel
theorem in2_live : ∀ t : Fin cfg1.N, cfg1.idle 2 (grid1.coords t) = false := by decide +kernel
theorem in3_live : ∀ t : Fin cfg1.N, cfg1.idle 3 (grid1.coords t) = false := by decide +kernel
theorem in4_live : ∀ t : Fin cfg1.N, cfg1.idle 4 (grid1.coords t) = false := by decide +kernel
theorem in5_live : ∀ t : Fin cfg1.N, cfg1.idle 5 (grid1.coords t) = false := by decide +kernel
theorem out_idle : ∀ t : Fin cfg1.N, ¬isLast (grid1.coords t) → cfg1.idle 6 (grid1.coords t) = true := by decide +kernel
theorem out_noFlush : ∀ t : Fin cfg1.N, ¬isLast (grid1.coords t) → (cfg1.win 6).flush t = false := by decide +kernel
theorem out_live : ∀ t : Fin cfg1.N, isLast (grid1.coords t) → cfg1.idle 6 (grid1.coords t) = false := by decide +kernel

/-! ## The memrefs the body is called with -/

abbrev VO : View sig .tc .vmem S1024x128 .f32 := (Memref.whole cc1_stg6_0 : Memref sig .tc .vmem S1024x128 .f32).view
abbrev ms0 (t : Fin cfg1.N) : Memref sig .tc .vmem S1024x1024 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S8192x128 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S1024x128 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1024x1 .f32 := win1_3.stage (cfg1.slots t 3)
abbrev hs3 (t : Fin cfg1.N) : (ms3 t).IsWhole := hstage1_3 ((cfg1.slots t 3).cast nbuf1_3)
abbrev ms4 (t : Fin cfg1.N) : Memref sig .tc .vmem S128x128 .f32 := win1_4.stage (cfg1.slots t 4)
abbrev hs4 (t : Fin cfg1.N) : (ms4 t).IsWhole := hstage1_4 ((cfg1.slots t 4).cast nbuf1_4)
abbrev ms5 (t : Fin cfg1.N) : Memref sig .tc .vmem S1x128 .f32 := win1_5.stage (cfg1.slots t 5)
abbrev hs5 (t : Fin cfg1.N) : (ms5 t).IsWhole := hstage1_5 ((cfg1.slots t 5).cast nbuf1_5)
abbrev ms6 (t : Fin cfg1.N) : Memref sig .tc .vmem S1024x128 .f32 := win1_6.stage (cfg1.slots t 6)
abbrev hs6 (t : Fin cfg1.N) : (ms6 t).IsWhole := hstage1_6 ((cfg1.slots t 6).cast nbuf1_6)
/-- The accumulator: a whole scoped buffer of the pass's own. -/
abbrev accM : Memref sig .tc .vmem S1024x128 .f32 := Memref.whole cc1_scratch0
abbrev VS : View sig .tc .vmem S1024x128 .f32 := accM.view

/-- The first pass's own scoped buffers, each whole at some contents, then `Q`: they ride through this pass untouched. -/
def withOthers (c : Dev nD) (Q : sProp 𝕄) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_scratch0), ((c : Thread nD τ).loc cc0_scratch0) ↦{fullShare} f)
      ∗ Q)

/-- Before the first point nothing is known of the accumulator. -/
theorem PhiA_eq (c : Dev nD) :
    (Pipeline.ΦA spec1 c : sProp 𝕄)
      = iprop(withOthers (F := F) c iprop(∃ d, owns (c : Thread nD τ) accM fullShare d) ∗ (∃ r, prngReg c r)) := by
  unfold Pipeline.ΦA withOthers; rw [scopedRest1_eq]; simp only [accM, owns_whole]; try rfl

end Cert.Kernel.Agg

end
-- ==== Proof.K.AggRuns.lean ====
/-
  The aggregation pass, part two: the body run in each of its three cases.

  On whole staging buffers -- the six input blocks at contents x0 .. x5 -- the body runs to the end, and what it leaves
  is recorded as the list of pieces it stored, last first: in the accumulator always, in the output block only when
  k = 7. When k = 0 the accumulator may hold anything on entry; otherwise it holds what the point before left, xs.
  When k < 7 the output block is handed back as it came, xi.
-/
import proofs.«179909_j2903397893032_1_alg».proof.Proof.K.AggShared

set_option maxRecDepth 16384

noncomputable section

namespace Cert.Kernel.Agg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- k = 0: zero the accumulator, add the block product. -/
noncomputable def runFirst (c : Dev nD) (i : grid1.Coords) (arg2 : Memref sig .tc .vmem S1024x1024 .f32) (harg2 : arg2.IsWhole) (arg3 : Memref sig .tc .vmem S8192x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hF : isFirst i) (hL : ¬isLast i)
    (x0 : Vec F S1024x1024 .f32) (x1 : Vec F S8192x128 .f32) (x2 : Vec F S1024x128 .f32) (x3 : Vec F S1024x1 .f32) (x4 : Vec F S128x128 .f32) (x5 : Vec F S1x128 .f32) :
    Σ' (L1 : List (View.Piece (Elt F) S1024x128 .f32)), { LS : List (View.Piece (Elt F) S1024x128 .f32) //
      ∀ (xi : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi ∗ (∃ f, arg9.view.loc (c : Thread nD τ) ↦[arg9.view.set]{fullShare} arg9.view.writes (Elt F) f LS)) -∗ K ⟨⟩))
          ⊢ wp frame (wpE (defs₀ (F := F)) Variants.none c none) E (cc1__gcn_kernel i arg2 harg2 arg3 harg3 arg4 harg4 arg5 harg5 arg6 harg6 arg7 harg7 arg8 harg8 arg9 harg9) K } := by
  refine ⟨[], ?_, fun xi E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hF | exact hL)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS

set_option maxHeartbeats 2000000 in
/-- 0 < k < 7: add the block product to what the point before left. -/
noncomputable def runMid (c : Dev nD) (i : grid1.Coords) (arg2 : Memref sig .tc .vmem S1024x1024 .f32) (harg2 : arg2.IsWhole) (arg3 : Memref sig .tc .vmem S8192x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hF : ¬isFirst i) (hL : ¬isLast i)
    (x0 : Vec F S1024x1024 .f32) (x1 : Vec F S8192x128 .f32) (x2 : Vec F S1024x128 .f32) (x3 : Vec F S1024x1 .f32) (x4 : Vec F S128x128 .f32) (x5 : Vec F S1x128 .f32) (xs : Vec F S1024x128 .f32) :
    Σ' (L1 : List (View.Piece (Elt F) S1024x128 .f32)), { LS : List (View.Piece (Elt F) S1024x128 .f32) //
      ∀ (xi : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi ∗ owns (c : Thread nD τ) arg9 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi ∗ (∃ f, arg9.view.loc (c : Thread nD τ) ↦[arg9.view.set]{fullShare} arg9.view.writes (Elt F) f LS)) -∗ K ⟨⟩))
          ⊢ wp frame (wpE (defs₀ (F := F)) Variants.none c none) E (cc1__gcn_kernel i arg2 harg2 arg3 harg3 arg4 harg4 arg5 harg5 arg6 harg6 arg7 harg7 arg8 harg8 arg9 harg9) K } := by
  refine ⟨[], ?_, fun xi E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs
    sl_exec (disch := first | exact hF | exact hL)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS

set_option maxHeartbeats 2000000 in
/-- k = 7: add the block product, then store max (h W + b, 0) into the output block. -/
noncomputable def runLast (c : Dev nD) (i : grid1.Coords) (arg2 : Memref sig .tc .vmem S1024x1024 .f32) (harg2 : arg2.IsWhole) (arg3 : Memref sig .tc .vmem S8192x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hF : ¬isFirst i) (hL : isLast i)
    (x0 : Vec F S1024x1024 .f32) (x1 : Vec F S8192x128 .f32) (x2 : Vec F S1024x128 .f32) (x3 : Vec F S1024x1 .f32) (x4 : Vec F S128x128 .f32) (x5 : Vec F S1x128 .f32) (xs : Vec F S1024x128 .f32) :
    Σ' (L1 : List (View.Piece (Elt F) S1024x128 .f32)), { LS : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L1) ∗ (∃ f, arg9.view.loc (c : Thread nD τ) ↦[arg9.view.set]{fullShare} arg9.view.writes (Elt F) f LS)) -∗ K ⟨⟩))
          ⊢ wp frame (wpE (defs₀ (F := F)) Variants.none c none) E (cc1__gcn_kernel i arg2 harg2 arg3 harg3 arg4 harg4 arg5 harg5 arg6 harg6 arg7 harg7 arg8 harg8 arg9 harg9) K } := by
  refine ⟨?_, ?_, fun E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs
    sl_exec (disch := first | exact hF | exact hL)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS

end Cert.Kernel.Agg

end
-- ==== Proof.K.AggFrame.lean ====
/-
  The aggregation pass, part three: the accumulator point by point, and the pass's proof data.

  `outsAt V c n` is the pair (output block, accumulator) after the body at point n: the accumulator is the case's pieces
  read back -- over the point before's accumulator unless k = 0 --, and the output block is the last case's pieces
  when k = 7 (a placeholder nobody reads at the other points). The pass's invariant before point n > 0 holds the
  accumulator at the point before's contents, beside the first pass's buffers and the random-number register; before
  point 0 it holds the accumulator at anything.
-/
import proofs.«179909_j2903397893032_1_alg».proof.Proof.K.AggRuns

set_option maxRecDepth 16384

noncomputable section

namespace Cert.Kernel.Agg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The pieces cover their buffers -/

theorem accCover_first (c : Dev nD) (i : grid1.Coords) (arg2 : Memref sig .tc .vmem S1024x1024 .f32) (harg2 : arg2.IsWhole) (arg3 : Memref sig .tc .vmem S8192x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hF : isFirst i) (hL : ¬isLast i) (x0 : Vec F S1024x1024 .f32) (x1 : Vec F S8192x128 .f32) (x2 : Vec F S1024x128 .f32) (x3 : Vec F S1024x1 .f32) (x4 : Vec F S128x128 .f32) (x5 : Vec F S1x128 .f32) (y : S1024x128.Idx) :
    ∃ pc ∈ (runFirst c i arg2 harg2 arg3 harg3 arg4 harg4 arg5 harg5 arg6 harg6 arg7 harg7 arg8 harg8 arg9 harg9 hF hL x0 x1 x2 x3 x4 x5).2.1, y ∈ pc.1.set :=
  View.cover_of_tiledL (runFirst c i arg2 harg2 arg3 harg3 arg4 harg4 arg5 harg5 arg6 harg6 arg7 harg7 arg8 harg8 arg9 harg9 hF hL x0 x1 x2 x3 x4 x5).2.1 S1024x128.size (by sl_kernel_rfl) y
theorem accCover_mid (c : Dev nD) (i : grid1.Coords) (arg2 : Memref sig .tc .vmem S1024x1024 .f32) (harg2 : arg2.IsWhole) (arg3 : Memref sig .tc .vmem S8192x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hF : ¬isFirst i) (hL : ¬isLast i) (x0 : Vec F S1024x1024 .f32) (x1 : Vec F S8192x128 .f32) (x2 : Vec F S1024x128 .f32) (x3 : Vec F S1024x1 .f32) (x4 : Vec F S128x128 .f32) (x5 : Vec F S1x128 .f32) (xs : Vec F S1024x128 .f32) (y : S1024x128.Idx) :
    ∃ pc ∈ (runMid c i arg2 harg2 arg3 harg3 arg4 harg4 arg5 harg5 arg6 harg6 arg7 harg7 arg8 harg8 arg9 harg9 hF hL x0 x1 x2 x3 x4 x5 xs).2.1, y ∈ pc.1.set :=
  View.cover_of_tiledL (runMid c i arg2 harg2 arg3 harg3 arg4 harg4 arg5 harg5 arg6 harg6 arg7 harg7 arg8 harg8 arg9 harg9 hF hL x0 x1 x2 x3 x4 x5 xs).2.1 S1024x128.size (by sl_kernel_rfl) y
theorem accCover_last (c : Dev nD) (i : grid1.Coords) (arg2 : Memref sig .tc .vmem S1024x1024 .f32) (harg2 : arg2.IsWhole) (arg3 : Memref sig .tc .vmem S8192x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hF : ¬isFirst i) (hL : isLast i) (x0 : Vec F S1024x1024 .f32) (x1 : Vec F S8192x128 .f32) (x2 : Vec F S1024x128 .f32) (x3 : Vec F S1024x1 .f32) (x4 : Vec F S128x128 .f32) (x5 : Vec F S1x128 .f32) (xs : Vec F S1024x128 .f32) (y : S1024x128.Idx) :
    ∃ pc ∈ (runLast c i arg2 harg2 arg3 harg3 arg4 harg4 arg5 harg5 arg6 harg6 arg7 harg7 arg8 harg8 arg9 harg9 hF hL x0 x1 x2 x3 x4 x5 xs).2.1, y ∈ pc.1.set :=
  View.cover_of_tiledL (runLast c i arg2 harg2 arg3 harg3 arg4 harg4 arg5 harg5 arg6 harg6 arg7 harg7 arg8 harg8 arg9 harg9 hF hL x0 x1 x2 x3 x4 x5 xs).2.1 S1024x128.size (by sl_kernel_rfl) y
theorem outCover_last (c : Dev nD) (i : grid1.Coords) (arg2 : Memref sig .tc .vmem S1024x1024 .f32) (harg2 : arg2.IsWhole) (arg3 : Memref sig .tc .vmem S8192x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hF : ¬isFirst i) (hL : isLast i) (x0 : Vec F S1024x1024 .f32) (x1 : Vec F S8192x128 .f32) (x2 : Vec F S1024x128 .f32) (x3 : Vec F S1024x1 .f32) (x4 : Vec F S128x128 .f32) (x5 : Vec F S1x128 .f32) (xs : Vec F S1024x128 .f32) (y : S1024x128.Idx) :
    ∃ pc ∈ (runLast c i arg2 harg2 arg3 harg3 arg4 harg4 arg5 harg5 arg6 harg6 arg7 harg7 arg8 harg8 arg9 harg9 hF hL x0 x1 x2 x3 x4 x5 xs).1, y ∈ pc.1.set :=
  View.cover_of_tiledL (runLast c i arg2 harg2 arg3 harg3 arg4 harg4 arg5 harg5 arg6 harg6 arg7 harg7 arg8 harg8 arg9 harg9 hF hL x0 x1 x2 x3 x4 x5 xs).1 S1024x128.size (by sl_kernel_rfl) y

/-! ## What each case leaves -/

def accFirst (c : Dev nD) (i : grid1.Coords) (arg2 : Memref sig .tc .vmem S1024x1024 .f32) (harg2 : arg2.IsWhole) (arg3 : Memref sig .tc .vmem S8192x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hF : isFirst i) (hL : ¬isLast i) (x0 : Vec F S1024x1024 .f32) (x1 : Vec F S8192x128 .f32) (x2 : Vec F S1024x128 .f32) (x3 : Vec F S1024x1 .f32) (x4 : Vec F S128x128 .f32) (x5 : Vec F S1x128 .f32) : Vec F S1024x128 .f32 :=
  VS.read (Elt F) (VS.writes (Elt F) VS.junk (runFirst c i arg2 harg2 arg3 harg3 arg4 harg4 arg5 harg5 arg6 harg6 arg7 harg7 arg8 harg8 arg9 harg9 hF hL x0 x1 x2 x3 x4 x5).2.1)
def accMid (c : Dev nD) (i : grid1.Coords) (arg2 : Memref sig .tc .vmem S1024x1024 .f32) (harg2 : arg2.IsWhole) (arg3 : Memref sig .tc .vmem S8192x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hF : ¬isFirst i) (hL : ¬isLast i) (x0 : Vec F S1024x1024 .f32) (x1 : Vec F S8192x128 .f32) (x2 : Vec F S1024x128 .f32) (x3 : Vec F S1024x1 .f32) (x4 : Vec F S128x128 .f32) (x5 : Vec F S1x128 .f32) (xs : Vec F S1024x128 .f32) : Vec F S1024x128 .f32 :=
  VS.read (Elt F) (VS.writes (Elt F) VS.junk (runMid c i arg2 harg2 arg3 harg3 arg4 harg4 arg5 harg5 arg6 harg6 arg7 harg7 arg8 harg8 arg9 harg9 hF hL x0 x1 x2 x3 x4 x5 xs).2.1)
def accLast (c : Dev nD) (i : grid1.Coords) (arg2 : Memref sig .tc .vmem S1024x1024 .f32) (harg2 : arg2.IsWhole) (arg3 : Memref sig .tc .vmem S8192x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hF : ¬isFirst i) (hL : isLast i) (x0 : Vec F S1024x1024 .f32) (x1 : Vec F S8192x128 .f32) (x2 : Vec F S1024x128 .f32) (x3 : Vec F S1024x1 .f32) (x4 : Vec F S128x128 .f32) (x5 : Vec F S1x128 .f32) (xs : Vec F S1024x128 .f32) : Vec F S1024x128 .f32 :=
  VS.read (Elt F) (VS.writes (Elt F) VS.junk (runLast c i arg2 harg2 arg3 harg3 arg4 harg4 arg5 harg5 arg6 harg6 arg7 harg7 arg8 harg8 arg9 harg9 hF hL x0 x1 x2 x3 x4 x5 xs).2.1)
def outLast (c : Dev nD) (i : grid1.Coords) (arg2 : Memref sig .tc .vmem S1024x1024 .f32) (harg2 : arg2.IsWhole) (arg3 : Memref sig .tc .vmem S8192x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hF : ¬isFirst i) (hL : isLast i) (x0 : Vec F S1024x1024 .f32) (x1 : Vec F S8192x128 .f32) (x2 : Vec F S1024x128 .f32) (x3 : Vec F S1024x1 .f32) (x4 : Vec F S128x128 .f32) (x5 : Vec F S1x128 .f32) (xs : Vec F S1024x128 .f32) : Vec F S1024x128 .f32 :=
  VO.read (Elt F) (VO.writes (Elt F) VO.junk (runLast c i arg2 harg2 arg3 harg3 arg4 harg4 arg5 harg5 arg6 harg6 arg7 harg7 arg8 harg8 arg9 harg9 hF hL x0 x1 x2 x3 x4 x5 xs).1)
/-- The output component at a point with k < 7: read by nobody. -/
def outIdle : Vec F S1024x128 .f32 := VO.read (Elt F) (VO.writes (Elt F) VO.junk [])

/-! ## Point by point -/

def outsAt (c : Dev nD) : (n : ℕ) → n < cfg1.N → Vec F S1024x128 .f32 × Vec F S1024x128 .f32
  | 0, hn => (outIdle, accFirst c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) accM (Memref.isWhole_whole _) ((isFirst_iff ⟨0, hn⟩).mpr (Nat.zero_mod _)) (fun h => (fun h => by (try dsimp only at h); omega) ((isLast_iff ⟨0, hn⟩).mp h)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩))
  | n + 1, hn =>
    if h0 : (n + 1) % 8 = 0 then
      if h7 : (n + 1) % 8 = 7 then False.elim (by omega)
      else (outIdle, accFirst c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) accM (Memref.isWhole_whole _) ((isFirst_iff ⟨n + 1, hn⟩).mpr h0) (fun h => h7 ((isLast_iff ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩))
    else
      if h7 : (n + 1) % 8 = 7 then
        (outLast c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) accM (Memref.isWhole_whole _) (fun h => h0 ((isFirst_iff ⟨n + 1, hn⟩).mp h)) ((isLast_iff ⟨n + 1, hn⟩).mpr h7) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (outsAt c n (Nat.lt_of_succ_lt hn)).2,
         accLast c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) accM (Memref.isWhole_whole _) (fun h => h0 ((isFirst_iff ⟨n + 1, hn⟩).mp h)) ((isLast_iff ⟨n + 1, hn⟩).mpr h7) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (outsAt c n (Nat.lt_of_succ_lt hn)).2)
      else
        (outIdle, accMid c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) accM (Memref.isWhole_whole _) (fun h => h0 ((isFirst_iff ⟨n + 1, hn⟩).mp h)) (fun h => h7 ((isLast_iff ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (outsAt c n (Nat.lt_of_succ_lt hn)).2)

theorem outsAt_first (c : Dev nD) (t : Fin cfg1.N) (h0 : t.val % 8 = 0) (h7 : ¬t.val % 8 = 7) :
    outsAt V c t.val t.isLt = (outIdle, accFirst c (grid1.coords t) (ms0 t) (hs0 t) (ms1 t) (hs1 t) (ms2 t) (hs2 t) (ms3 t) (hs3 t) (ms4 t) (hs4 t) (ms5 t) (hs5 t) (ms6 t) (hs6 t) accM (Memref.isWhole_whole _) ((isFirst_iff t).mpr h0) (fun h => h7 ((isLast_iff t).mp h)) (iblk V c 0 t) (iblk V c 1 t) (iblk V c 2 t) (iblk V c 3 t) (iblk V c 4 t) (iblk V c 5 t)) := by
  obtain ⟨n, hn⟩ := t
  cases n with
  | zero => exact rfl
  | succ n => exact (dif_pos h0).trans ((dif_neg h7).trans rfl)

theorem outsAt_mid (c : Dev nD) (t : Fin cfg1.N) (h0 : ¬t.val % 8 = 0) (h7 : ¬t.val % 8 = 7) :
    outsAt V c t.val t.isLt = (outIdle, accMid c (grid1.coords t) (ms0 t) (hs0 t) (ms1 t) (hs1 t) (ms2 t) (hs2 t) (ms3 t) (hs3 t) (ms4 t) (hs4 t) (ms5 t) (hs5 t) (ms6 t) (hs6 t) accM (Memref.isWhole_whole _) (fun h => h0 ((isFirst_iff t).mp h)) (fun h => h7 ((isLast_iff t).mp h)) (iblk V c 0 t) (iblk V c 1 t) (iblk V c 2 t) (iblk V c 3 t) (iblk V c 4 t) (iblk V c 5 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h7).trans rfl)

theorem outsAt_last (c : Dev nD) (t : Fin cfg1.N) (h0 : ¬t.val % 8 = 0) (h7 : t.val % 8 = 7) :
    outsAt V c t.val t.isLt = (outLast c (grid1.coords t) (ms0 t) (hs0 t) (ms1 t) (hs1 t) (ms2 t) (hs2 t) (ms3 t) (hs3 t) (ms4 t) (hs4 t) (ms5 t) (hs5 t) (ms6 t) (hs6 t) accM (Memref.isWhole_whole _) (fun h => h0 ((isFirst_iff t).mp h)) ((isLast_iff t).mpr h7) (iblk V c 0 t) (iblk V c 1 t) (iblk V c 2 t) (iblk V c 3 t) (iblk V c 4 t) (iblk V c 5 t) (outsAt V c (t.val - 1) (Nat.lt_of_le_of_lt (Nat.sub_le _ _) t.isLt)).2,
      accLast c (grid1.coords t) (ms0 t) (hs0 t) (ms1 t) (hs1 t) (ms2 t) (hs2 t) (ms3 t) (hs3 t) (ms4 t) (hs4 t) (ms5 t) (hs5 t) (ms6 t) (hs6 t) accM (Memref.isWhole_whole _) (fun h => h0 ((isFirst_iff t).mp h)) ((isLast_iff t).mpr h7) (iblk V c 0 t) (iblk V c 1 t) (iblk V c 2 t) (iblk V c 3 t) (iblk V c 4 t) (iblk V c 5 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h7).trans rfl)

/-! ## The invariant that carries the accumulator -/

def PhiS (c : Dev nD) : (n : ℕ) → n ≤ cfg1.N → sProp 𝕄
  | 0, _ => Pipeline.ΦA spec1 c
  | n + 1, hn => iprop(withOthers (F := F) c (owns (c : Thread nD τ) accM fullShare ((outsAt V c n hn).2)) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(withOthers (F := F) c (owns (c : Thread nD τ) accM fullShare ((outsAt V c n hn).2)) ∗ (∃ r, prngReg c r)) := rfl
theorem PhiS_pos (c : Dev nD) (n : ℕ) (h : n ≤ cfg1.N) (hz : n ≠ 0) :
    PhiS V c n h = iprop(withOthers (F := F) c (owns (c : Thread nD τ) accM fullShare ((outsAt V c (n - 1) (by omega)).2)) ∗ (∃ r, prngReg c r)) := by
  cases n with
  | zero => exact absurd rfl hz
  | succ n => rfl

/-! ## The proof data -/

def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => (outsAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]
theorem PhiS_castSucc (c : Dev nD) (t : Fin cfg1.N) :
    (dat V c).Φ t.castSucc = PhiS V c t.val (Nat.le_of_lt t.isLt) := by
  dsimp only [dat]; simp only [Fin.coe_castSucc]
theorem after_in0 (c : Dev nD) (t : Fin cfg1.N) : (dat V c).after 0 t = iblk V c 0 t := by dsimp only [dat]
theorem after_in1 (c : Dev nD) (t : Fin cfg1.N) : (dat V c).after 1 t = iblk V c 1 t := by dsimp only [dat]
theorem after_in2 (c : Dev nD) (t : Fin cfg1.N) : (dat V c).after 2 t = iblk V c 2 t := by dsimp only [dat]
theorem after_in3 (c : Dev nD) (t : Fin cfg1.N) : (dat V c).after 3 t = iblk V c 3 t := by dsimp only [dat]
theorem after_in4 (c : Dev nD) (t : Fin cfg1.N) : (dat V c).after 4 t = iblk V c 4 t := by dsimp only [dat]
theorem after_in5 (c : Dev nD) (t : Fin cfg1.N) : (dat V c).after 5 t = iblk V c 5 t := by dsimp only [dat]
theorem after_out (c : Dev nD) (t : Fin cfg1.N) : (dat V c).after 6 t = (outsAt V c t.val t.isLt).1 := by dsimp only [dat]
theorem before_in0 (c : Dev nD) (t : Fin cfg1.N) (d) : (dat V c).before 0 t d = iblk V c 0 t :=
  before_in0_of V (dat V c) (A_eq V c 0) (after_in0 V c) t d
theorem before_in1 (c : Dev nD) (t : Fin cfg1.N) (d) : (dat V c).before 1 t d = iblk V c 1 t :=
  before_in1_of V (dat V c) (A_eq V c 1) (after_in1 V c) t d
theorem before_in2 (c : Dev nD) (t : Fin cfg1.N) (d) : (dat V c).before 2 t d = iblk V c 2 t :=
  before_in2_of V (dat V c) (A_eq V c 2) (after_in2 V c) t d
theorem before_in3 (c : Dev nD) (t : Fin cfg1.N) (d) : (dat V c).before 3 t d = iblk V c 3 t :=
  before_in3_of V (dat V c) (A_eq V c 3) (after_in3 V c) t d
theorem before_in4 (c : Dev nD) (t : Fin cfg1.N) (d) : (dat V c).before 4 t d = iblk V c 4 t :=
  before_in4_of V (dat V c) (A_eq V c 4) (after_in4 V c) t d
theorem before_in5 (c : Dev nD) (t : Fin cfg1.N) (d) : (dat V c).before 5 t d = iblk V c 5 t :=
  before_in5_of V (dat V c) (A_eq V c 5) (after_in5 V c) t d

/-! ## The body obligation -/

def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t)

set_option maxHeartbeats 8000000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_in0, before_in1, before_in2, before_in3, before_in4, before_in5]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms0 t) fullShare ((dat V c).after 0 t) from by
    unfold Dat.leavesExact; rw [in0_live t], after_in0]
  rw [show (dat V c).leavesExact 1 t = owns (c : Thread nD τ) (ms1 t) fullShare ((dat V c).after 1 t) from by
    unfold Dat.leavesExact; rw [in1_live t], after_in1]
  rw [show (dat V c).leavesExact 2 t = owns (c : Thread nD τ) (ms2 t) fullShare ((dat V c).after 2 t) from by
    unfold Dat.leavesExact; rw [in2_live t], after_in2]
  rw [show (dat V c).leavesExact 3 t = owns (c : Thread nD τ) (ms3 t) fullShare ((dat V c).after 3 t) from by
    unfold Dat.leavesExact; rw [in3_live t], after_in3]
  rw [show (dat V c).leavesExact 4 t = owns (c : Thread nD τ) (ms4 t) fullShare ((dat V c).after 4 t) from by
    unfold Dat.leavesExact; rw [in4_live t], after_in4]
  rw [show (dat V c).leavesExact 5 t = owns (c : Thread nD τ) (ms5 t) fullShare ((dat V c).after 5 t) from by
    unfold Dat.leavesExact; rw [in5_live t], after_in5]
  by_cases h0 : t.val % 8 = 0
  · have h7 : ¬t.val % 8 = 7 := by omega
    rw [Dat.leavesExact_idle (dat V c) 6 t (out_idle t (fun h => h7 ((isLast_iff t).mp h))) (out_noFlush t (fun h => h7 ((isLast_iff t).mp h)))]
    rw [outsAt_first V c t h0 h7]
    unfold accFirst; (try dsimp only)
    by_cases hz : t.val = 0
    · rw [PhiS_castSucc V c t, PhiS_zero V c _ _ hz, PhiA_eq]
      unfold withOthers
      iintro ⟨⟨⟨A1, A2, A3, A4, A5, HS⟩, Hg⟩, Ho, ⟨%d0, H0⟩, ⟨%d1, H1⟩, ⟨%d2, H2⟩, ⟨%d3, H3⟩, ⟨%d4, H4⟩, ⟨%d5, H5⟩, ⟨%d6, H6⟩⟩
      iapply ((runFirst c (grid1.coords t) _ _ _ _ _ _ _ _ _ _ _ _ _ _ _ _ ((isFirst_iff t).mpr h0) (fun h => h7 ((isLast_iff t).mp h)) (iblk V c 0 t) (iblk V c 1 t) (iblk V c 2 t) (iblk V c 3 t) (iblk V c 4 t) (iblk V c 5 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, ⟨%es, HS⟩⟩
      isplitl [A1 A2 A3 A4 A5 HS Hg]
      · isplitl [A1 A2 A3 A4 A5 HS]
        · isplitl [A1]; · iexact A1
          isplitl [A2]; · iexact A2
          isplitl [A3]; · iexact A3
          isplitl [A4]; · iexact A4
          isplitl [A5]; · iexact A5
          unfold owns; iexists _; isplitr
          swap; · iexact HS
          ipureintro; exact View.read_writes_of_cover _ _ _ _ _ (accCover_first c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS_castSucc V c t, PhiS_pos V c _ _ hz]
      unfold withOthers
      iintro ⟨⟨⟨A1, A2, A3, A4, A5, HS⟩, Hg⟩, Ho, ⟨%d0, H0⟩, ⟨%d1, H1⟩, ⟨%d2, H2⟩, ⟨%d3, H3⟩, ⟨%d4, H4⟩, ⟨%d5, H5⟩, ⟨%d6, H6⟩⟩
      iapply ((runFirst c (grid1.coords t) _ _ _ _ _ _ _ _ _ _ _ _ _ _ _ _ ((isFirst_iff t).mpr h0) (fun h => h7 ((isLast_iff t).mp h)) (iblk V c 0 t) (iblk V c 1 t) (iblk V c 2 t) (iblk V c 3 t) (iblk V c 4 t) (iblk V c 5 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexists _; iexact HS
      iintro ⟨H0, H1, H2, H3, H4, H5, H6, ⟨%es, HS⟩⟩
      isplitl [A1 A2 A3 A4 A5 HS Hg]
      · isplitl [A1 A2 A3 A4 A5 HS]
        · isplitl [A1]; · iexact A1
          isplitl [A2]; · iexact A2
          isplitl [A3]; · iexact A3
          isplitl [A4]; · iexact A4
          isplitl [A5]; · iexact A5
          unfold owns; iexists _; isplitr
          swap; · iexact HS
          ipureintro; exact View.read_writes_of_cover _ _ _ _ _ (accCover_first c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun h => h0 (by rw [h])
    by_cases h7 : t.val % 8 = 7
    · rw [show (dat V c).leavesExact 6 t = owns (c : Thread nD τ) (ms6 t) fullShare ((dat V c).after 6 t) from by
        unfold Dat.leavesExact; rw [out_live t ((isLast_iff t).mpr h7)], after_out]
      rw [outsAt_last V c t h0 h7]
      unfold outLast accLast; (try dsimp only)
      rw [PhiS_castSucc V c t, PhiS_pos V c _ _ hz]
      unfold withOthers
      iintro ⟨⟨⟨A1, A2, A3, A4, A5, HS⟩, Hg⟩, Ho, ⟨%d0, H0⟩, ⟨%d1, H1⟩, ⟨%d2, H2⟩, ⟨%d3, H3⟩, ⟨%d4, H4⟩, ⟨%d5, H5⟩, ⟨%d6, H6⟩⟩
      iapply ((runLast c (grid1.coords t) _ _ _ _ _ _ _ _ _ _ _ _ _ _ _ _ (fun h => h0 ((isFirst_iff t).mp h)) ((isLast_iff t).mpr h7) (iblk V c 0 t) (iblk V c 1 t) (iblk V c 2 t) (iblk V c 3 t) (iblk V c 4 t) (iblk V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, ⟨%e6, H6⟩, ⟨%es, HS⟩⟩
      isplitl [A1 A2 A3 A4 A5 HS Hg]
      · isplitl [A1 A2 A3 A4 A5 HS]
        · isplitl [A1]; · iexact A1
          isplitl [A2]; · iexact A2
          isplitl [A3]; · iexact A3
          isplitl [A4]; · iexact A4
          isplitl [A5]; · iexact A5
          unfold owns; iexists _; isplitr
          swap; · iexact HS
          ipureintro; exact View.read_writes_of_cover _ _ _ _ _ (accCover_last c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (outCover_last c _ _ _ _ _ _ _ _ _ _ _ _ _ _ _ _ _ _ _ _ _ _ _ _ _ _)
    · rw [Dat.leavesExact_idle (dat V c) 6 t (out_idle t (fun h => h7 ((isLast_iff t).mp h))) (out_noFlush t (fun h => h7 ((isLast_iff t).mp h)))]
      rw [outsAt_mid V c t h0 h7]
      unfold accMid; (try dsimp only)
      rw [PhiS_castSucc V c t, PhiS_pos V c _ _ hz]
      unfold withOthers
      iintro ⟨⟨⟨A1, A2, A3, A4, A5, HS⟩, Hg⟩, Ho, ⟨%d0, H0⟩, ⟨%d1, H1⟩, ⟨%d2, H2⟩, ⟨%d3, H3⟩, ⟨%d4, H4⟩, ⟨%d5, H5⟩, ⟨%d6, H6⟩⟩
      iapply ((runMid c (grid1.coords t) _ _ _ _ _ _ _ _ _ _ _ _ _ _ _ _ (fun h => h0 ((isFirst_iff t).mp h)) (fun h => h7 ((isLast_iff t).mp h)) (iblk V c 0 t) (iblk V c 1 t) (iblk V c 2 t) (iblk V c 3 t) (iblk V c 4 t) (iblk V c 5 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, ⟨%es, HS⟩⟩
      isplitl [A1 A2 A3 A4 A5 HS Hg]
      · isplitl [A1 A2 A3 A4 A5 HS]
        · isplitl [A1]; · iexact A1
          isplitl [A2]; · iexact A2
          isplitl [A3]; · iexact A3
          isplitl [A4]; · iexact A4
          isplitl [A5]; · iexact A5
          unfold owns; iexists _; isplitr
          swap; · iexact HS
          ipureintro; exact View.read_writes_of_cover _ _ _ _ _ (accCover_mid c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

theorem body_obligation (c : Dev nD) : BodyObligation (dat (F := F) V c) (defs₀ (F := F)) Variants.none () Set.univ := fun t => by
  rw [bigSep_W1, bigSep_W1]
  exact sound_body V c t

/-! ## The invariant's two ends -/

theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

theorem hout (c : Dev nD) : (dat V c).Φ (Fin.last cfg1.N) ⊢ Pipeline.ΦA spec1 c := by
  have hN : (Fin.last cfg1.N).val ≠ 0 := by rw [Fin.val_last]; have : cfg1.N = 64 := N_1; omega
  rw [show (dat V c).Φ (Fin.last cfg1.N) = PhiS V c (Fin.last cfg1.N).val (Nat.le_of_lt_succ (Fin.last cfg1.N).isLt) from rfl, PhiS_pos V c _ _ hN, PhiA_eq]
  unfold withOthers
  iintro ⟨⟨A1, A2, A3, A4, A5, HS⟩, Hg⟩
  isplitl [A1 A2 A3 A4 A5 HS]
  · isplitl [A1]; · iexact A1
    isplitl [A2]; · iexact A2
    isplitl [A3]; · iexact A3
    isplitl [A4]; · iexact A4
    isplitl [A5]; · iexact A5
    iexists _; iexact HS
  iexact Hg

end Cert.Kernel.Agg

end
-- ==== Proof.K.Run.lean ====
/-
  The whole program as three items -- the degree pass, three host operations (y = d * x spread over the columns, the
  bias as a row), the aggregation pass -- and what every unscoped buffer holds at the end.

  The buffers' contents are followed from the launch: after the degree pass its two arrays hold what the pass's
  write-backs leave and everything else is as before; the host operations then act on that; after the aggregation pass
  its seven arrays hold what its write-backs leave. Each pass is entered with its arrays split out of the unscoped
  buffers and left with them put back; its invariant receives the pass's own scratch at anything and gives it back at
  anything. The run ends with every unscoped buffer at the last contents `W3`, so the four arguments are as launched.
-/
import proofs.«179909_j2903397893032_1_alg».proof.Proof.K.DegFrame
import proofs.«179909_j2903397893032_1_alg».proof.Proof.K.AggFrame
import Idealize.ShloMosaic.Lib.Pipeline.RegionsLoop
import Idealize.ShloMosaic.Lib.Pipeline.FrameSuffix

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary -/

/-- At launch (the degree pass's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the degree pass: its arrays at what its write-backs leave, the rest as entered. -/
def W1 (c : Dev nD) : Valuation τ sig (Elt F) :=
  Pipeline.withArrays spec0 c (W0 m ρ c) fun w => (Deg.dat (V0 m ρ) c).arrAt w cfg0.N
theorem W1_arr (c : Dev nD) (w : Fin cfg0.W) :
    W1 m ρ c (Proc.devRef .tc (Pipeline.arrRef spec0 w)) = (Deg.dat (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (Deg.dat (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the host operations (the aggregation pass's entry). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- After the aggregation pass. -/
def W3 (c : Dev nD) : Valuation τ sig (Elt F) :=
  Pipeline.withArrays spec1 c (W2 m ρ c) fun w => (Agg.dat (V2 m ρ) c).arrAt w cfg1.N
theorem W3_arr (c : Dev nD) (w : Fin cfg1.W) :
    W3 m ρ c (Proc.devRef .tc (Pipeline.arrRef spec1 w)) = (Agg.dat (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (Agg.dat (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The arguments end as launched -/

/-- x: an input of the aggregation pass only. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := (W3_arr m ρ c 2).trans (((Agg.dat (V2 m ρ) c).arrAt_in 2 rfl _).trans (Agg.A_eq (V2 m ρ) c 2))
    _ = W1 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := W1_of_ne m ρ c main_arg0 (by decide)
    _ = m ((c : Thread nD τ).loc main_arg0) := rfl
/-- The adjacency matrix: an input of both passes. -/
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := (W3_arr m ρ c 0).trans (((Agg.dat (V2 m ρ) c).arrAt_in 0 rfl _).trans (Agg.A_eq (V2 m ρ) c 0))
    _ = W1 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg1) := (W1_arr m ρ c 0).trans (((Deg.dat (V0 m ρ) c).arrAt_in 0 rfl _).trans (Deg.A_eq (V0 m ρ) c 0))
    _ = m ((c : Thread nD τ).loc main_arg1) := rfl
/-- W: an input of the aggregation pass only. -/
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := (W3_arr m ρ c 4).trans (((Agg.dat (V2 m ρ) c).arrAt_in 4 rfl _).trans (Agg.A_eq (V2 m ρ) c 4))
    _ = W1 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := W1_of_ne m ρ c main_arg2 (by decide)
    _ = m ((c : Thread nD τ).loc main_arg2) := rfl
/-- b: read by a host operation only. -/
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg3) := W1_of_ne m ρ c main_arg3 (by decide)
    _ = m ((c : Thread nD τ).loc main_arg3) := rfl
/-- The result: the aggregation pass's output array. -/
theorem W3_main_v4 (c : Dev nD) : W3 m ρ c (Proc.devRef .tc main_v4) = (Agg.dat (V2 m ρ) c).arrAt 6 cfg1.N :=
  W3_arr m ρ c 6

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => Deg.dat (V0 m ρ) c
  | ⟨1, _⟩ => fun c => Agg.dat (V2 m ρ) c
abbrev 𝒱₀ : Variants := Variants.none
abbrev L : GSem nD τ sig → Finset Unit := fun _ => ∅
abbrev lv : GSem nD τ sig → Unit → ℕ := fun _ _ => 0
/-- What rides beside the buffers through every item: the random-number register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The two passes as items -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Deg.body_obligation (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec0 c ⊢ (pdats m ρ 0 c).Φ 0 from Deg.hin (V0 m ρ) c)
    unfold Pipeline.ΦA
    iintro ⟨Hp, -, Hr⟩
    isplitl [Hr]; · iexact Hr
    iexact Hp
  hout c := by
    rw [Pipeline.ownSems0_none]
    refine BIBase.Entails.trans (show (pdats m ρ 0 c).Φ (Fin.last _) ⊢ Pipeline.ΦA spec0 c from Deg.hout (V0 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Agg.body_obligation (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec1 c ⊢ (pdats m ρ 1 c).Φ 0 from Agg.hin (V2 m ρ) c)
    unfold Pipeline.ΦA
    iintro ⟨Hp, -, Hr⟩
    isplitl [Hr]; · iexact Hr
    iexact Hp
  hout c := by
    rw [Pipeline.ownSems0_none]
    refine BIBase.Entails.trans (show (pdats m ρ 1 c).Φ (Fin.last _) ⊢ Pipeline.ΦA spec1 c from Agg.hout (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program is the three items in order -/

/-- No host operation allocates a buffer. -/
theorem hostOps1_fresh : (hostOps1 : List (HloOp τ sig (Elt F))).Forall fun op => op.fresh = ∅ := by
  simp only [List.Forall]; repeat' constructor

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ) ]
theorem main_run (c : Dev nD) : main (F := F) c = Pipeline.Seg.run (segs m ρ) := (main_chain c).trans (by chain_rfl)

set_option backward.isDefEq.respectTransparency.types false in
/-- Every weakly fair execution from memory `m` terminates without a fault, and at the end every unscoped buffer of
    every core holds the last contents `W3`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The frame: the four arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run m ρ)

end Cert.Kernel.Run

end
-- ==== Proof.KI.DegShared.lean ====
/-
  The degree pass, part one: what its three control cases share.

  The grid is 8 x 8 points, point t = 8 i + k with i the row block and k the column block of the adjacency matrix.
  At every point the body adds the lane sums of the 1024 x 1024 block (i, k) to a 1024 x 1 accumulator kept between
  points; the accumulator is zeroed first when k = 0, and when k = 7 the output block i receives
  rsqrt (accumulator + 1). So a point is in one of three cases: k = 0 (zero, then add), 0 < k < 7 (add), k = 7 (add,
  then write the output block). The output block is written back only after the points with k = 7 and is left alone at
  the others. Everything here is stated for the contents `V` the buffers hold when the pass is entered, at any float
  instance.
-/
import proofs.«179909_j2903397893032_1_alg».proof.Proof.Gen.KernelIdeal.Launch
import proofs.«179909_j2903397893032_1_alg».proof.Proof.Gen.KernelIdeal.Skeleton
import proofs.«179909_j2903397893032_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Deg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks -/

/-- Window `w`'s block at point `t`, read off its array as the pass finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The adjacency window's staging buffer holds block (i, k) at every point, for any proof data whose array is the
    entry contents and whose body leaves the block in place. -/
theorem before_adj_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The two conditions, in closed form over the grid -/

/-- "k = 0": the accumulator is zeroed first. -/
abbrev isFirst (i : grid0.Coords) : Prop := (Scalar.cmpi .ne (Scalar.extui (Scalar.cmpi .eq (BitVec.ofNat 32 (i 1).val) 0#32)) 0#32) = 1#1
theorem isFirst_iff : ∀ t : Fin cfg0.N, isFirst (grid0.coords t) ↔ t.val % 8 = 0 :=
  (by decide +kernel : ∀ t : Fin grid0.N, isFirst (grid0.coords t) ↔ t.val % 8 = 0)

/-- "k = 7": the output block is written. -/
abbrev isLast (i : grid0.Coords) : Prop := k0_cond2 i = 1#1
theorem isLast_iff : ∀ t : Fin cfg0.N, isLast (grid0.coords t) ↔ t.val % 8 = 7 :=
  (by decide +kernel : ∀ t : Fin grid0.N, isLast (grid0.coords t) ↔ t.val % 8 = 7)

/-! ## Where the output window is idle -/

theorem adj_live : ∀ t : Fin cfg0.N, cfg0.idle 0 (grid0.coords t) = false := by decide +kernel
theorem out_idle : ∀ t : Fin cfg0.N, ¬isLast (grid0.coords t) → cfg0.idle 1 (grid0.coords t) = true := by decide +kernel
theorem out_noFlush : ∀ t : Fin cfg0.N, ¬isLast (grid0.coords t) → (cfg0.win 1).flush t = false := by decide +kernel
theorem out_live : ∀ t : Fin cfg0.N, isLast (grid0.coords t) → cfg0.idle 1 (grid0.coords t) = false := by decide +kernel

/-! ## The memrefs the body is called with -/

abbrev VO : View sig .tc .vmem S1024x1 .f32 := (Memref.whole cc0_stg1_0 : Memref sig .tc .vmem S1024x1 .f32).view
abbrev ms0 (t : Fin cfg0.N) : Memref sig .tc .vmem S1024x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x1 .f32 := win0_1.stage (cfg0.slots t 1)
abbrev hs1 (t : Fin cfg0.N) : (ms1 t).IsWhole := hstage0_1 ((cfg0.slots t 1).cast nbuf0_1)
/-- The accumulator: a whole scoped buffer of the pass's own. -/
abbrev accM : Memref sig .tc .vmem S1024x1 .f32 := Memref.whole cc0_scratch0
abbrev VS : View sig .tc .vmem S1024x1 .f32 := accM.view

/-- The second pass's own scoped buffers, each whole at some contents: they ride through this pass untouched. -/
def others (c : Dev nD) : sProp 𝕄 :=
  iprop((∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg2_1), ((c : Thread nD τ).loc cc1_stg2_1) ↦{fullShare} f)
      ∗ (∃ f : Buf (Elt F) ((c : Thread nD τ).loc cc1_stg3_0), ((c : Thread nD τ).loc cc1_stg3_0) ↦{fullShare} f)
      ∗ (∃ f : Buf (Elt F) ((c : Thread nD τ).loc cc1_stg3_1), ((c : Thread nD τ).loc cc1_stg3_1) ↦{fullShare} f)
      ∗ (∃ f : Buf (Elt F) ((c : Thread nD τ).loc cc1_stg4_0), ((c : Thread nD τ).loc cc1_stg4_0) ↦{fullShare} f)
      ∗ (∃ f : Buf (Elt F) ((c : Thread nD τ).loc cc1_stg5_0), ((c : Thread nD τ).loc cc1_stg5_0) ↦{fullShare} f)
      ∗ (∃ f : Buf (Elt F) ((c : Thread nD τ).loc cc1_stg6_0), ((c : Thread nD τ).loc cc1_stg6_0) ↦{fullShare} f)
      ∗ (∃ f : Buf (Elt F) ((c : Thread nD τ).loc cc1_stg6_1), ((c : Thread nD τ).loc cc1_stg6_1) ↦{fullShare} f)
      ∗ (∃ f : Buf (Elt F) ((c : Thread nD τ).loc cc1_scratch0), ((c : Thread nD τ).loc cc1_scratch0) ↦{fullShare} f))

/-- Before the first point nothing is known of the accumulator: it is owned at some contents, beside the second pass's
    buffers and the random-number register at some state. -/
theorem PhiA_eq (c : Dev nD) :
    (Pipeline.ΦA spec0 c : sProp 𝕄)
      = iprop(iprop((∃ d, owns (c : Thread nD τ) accM fullShare d) ∗ others (F := F) c) ∗ (∃ r, prngReg c r)) := by
  unfold Pipeline.ΦA others; rw [scopedRest0_eq]; simp only [accM, owns_whole]; try rfl

end Cert.KernelIdeal.Deg

end
-- ==== Proof.KI.DegRuns.lean ====
/-
  The degree pass, part two: the body run in each of its three cases.

  On whole staging buffers -- the adjacency block at contents x0 -- the body runs to the end, and what it leaves is
  recorded as the list of pieces it stored, last first: in the accumulator always, in the output block only when
  k = 7. When k = 0 the accumulator may hold anything on entry (it is zeroed before it is read for the sum); otherwise
  it holds what the point before left, xs. When k < 7 the output block is handed back as it came, xi.
-/
import proofs.«179909_j2903397893032_1_alg».proof.Proof.KI.DegShared

set_option maxRecDepth 16384

noncomputable section

namespace Cert.KernelIdeal.Deg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- k = 0: zero the accumulator, add the block's lane sums. -/
noncomputable def runFirst (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1 .f32) (harg4 : arg4.IsWhole) (hF : isFirst i) (hL : ¬isLast i)
    (x0 : Vec F S1024x1024 .f32) :
    Σ' (L1 : List (View.Piece (Elt F) S1024x1 .f32)), { LS : List (View.Piece (Elt F) S1024x1 .f32) //
      ∀ (xi : Vec F S1024x1 .f32) (E : Set ℕ) (K : PUnit → sProp 𝕄),
        iprop(owns (c : Thread nD τ) arg2 fullShare x0 ∗ owns (c : Thread nD τ) arg3 fullShare xi ∗ (∃ d, owns (c : Thread nD τ) arg4 fullShare d)
            ∗ (iprop(owns (c : Thread nD τ) arg2 fullShare x0 ∗ owns (c : Thread nD τ) arg3 fullShare xi ∗ (∃ f, arg4.view.loc (c : Thread nD τ) ↦[arg4.view.set]{fullShare} arg4.view.writes (Elt F) f LS)) -∗ K ⟨⟩))
          ⊢ wp frame (wpE (defs₀ (F := F)) Variants.none c none) E (cc0__degree_kernel i arg2 harg2 arg3 harg3 arg4 harg4) K } := by
  refine ⟨[], ?_, fun xi E K => ?run⟩
  case run =>
    simp only [cc0__degree_kernel_eq_skeleton]; unfold cc0__degree_kernel_skel
    unfold owns
    iintro ⟨⟨%f0, %hf0, H0⟩, ⟨%f1, %hf1, H1⟩, ⟨%ds, %fs, -, HS⟩, Hk⟩
    obtain rfl := harg2.eq_unread hf0; obtain rfl := harg3.eq_unread hf1
    sl_exec (disch := first | exact hF | exact hL)
    sl_step
    iapply Hk
    isplitl [H0]
    · iexists _; isplitr; · ipureintro; exact harg2.read_unread _
      iexact H0
    isplitl [H1]
    · iexists _; isplitr; · ipureintro; exact harg3.read_unread _
      iexact H1
    iexists _; iexact HS

set_option maxHeartbeats 1000000 in
/-- 0 < k < 7: add the block's lane sums to what the point before left. -/
noncomputable def runMid (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1 .f32) (harg4 : arg4.IsWhole) (hF : ¬isFirst i) (hL : ¬isLast i)
    (x0 : Vec F S1024x1024 .f32) (xs : Vec F S1024x1 .f32) :
    Σ' (L1 : List (View.Piece (Elt F) S1024x1 .f32)), { LS : List (View.Piece (Elt F) S1024x1 .f32) //
      ∀ (xi : Vec F S1024x1 .f32) (E : Set ℕ) (K : PUnit → sProp 𝕄),
        iprop(owns (c : Thread nD τ) arg2 fullShare x0 ∗ owns (c : Thread nD τ) arg3 fullShare xi ∗ owns (c : Thread nD τ) arg4 fullShare xs
            ∗ (iprop(owns (c : Thread nD τ) arg2 fullShare x0 ∗ owns (c : Thread nD τ) arg3 fullShare xi ∗ (∃ f, arg4.view.loc (c : Thread nD τ) ↦[arg4.view.set]{fullShare} arg4.view.writes (Elt F) f LS)) -∗ K ⟨⟩))
          ⊢ wp frame (wpE (defs₀ (F := F)) Variants.none c none) E (cc0__degree_kernel i arg2 harg2 arg3 harg3 arg4 harg4) K } := by
  refine ⟨[], ?_, fun xi E K => ?run⟩
  case run =>
    simp only [cc0__degree_kernel_eq_skeleton]; unfold cc0__degree_kernel_skel
    unfold owns
    iintro ⟨⟨%f0, %hf0, H0⟩, ⟨%f1, %hf1, H1⟩, ⟨%fs, %hfs, HS⟩, Hk⟩
    obtain rfl := harg2.eq_unread hf0; obtain rfl := harg3.eq_unread hf1; obtain rfl := harg4.eq_unread hfs
    sl_exec (disch := first | exact hF | exact hL)
    sl_step
    iapply Hk
    isplitl [H0]
    · iexists _; isplitr; · ipureintro; exact harg2.read_unread _
      iexact H0
    isplitl [H1]
    · iexists _; isplitr; · ipureintro; exact harg3.read_unread _
      iexact H1
    iexists _; iexact HS

set_option maxHeartbeats 1000000 in
/-- k = 7: add the block's lane sums, then store rsqrt (sum + 1) into the output block. -/
noncomputable def runLast (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1 .f32) (harg4 : arg4.IsWhole) (hF : ¬isFirst i) (hL : isLast i)
    (x0 : Vec F S1024x1024 .f32) (xs : Vec F S1024x1 .f32) :
    Σ' (L1 : List (View.Piece (Elt F) S1024x1 .f32)), { LS : List (View.Piece (Elt F) S1024x1 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS)) -∗ K ⟨⟩))
          ⊢ wp frame (wpE (defs₀ (F := F)) Variants.none c none) E (cc0__degree_kernel i arg2 harg2 arg3 harg3 arg4 harg4) K } := by
  refine ⟨?_, ?_, fun E K => ?run⟩
  case run =>
    simp only [cc0__degree_kernel_eq_skeleton]; unfold cc0__degree_kernel_skel
    unfold owns
    iintro ⟨⟨%f0, %hf0, H0⟩, ⟨%d1, %f1, -, H1⟩, ⟨%fs, %hfs, HS⟩, Hk⟩
    obtain rfl := harg2.eq_unread hf0; obtain rfl := harg4.eq_unread hfs
    sl_exec (disch := first | exact hF | exact hL)
    sl_step
    iapply Hk
    isplitl [H0]
    · iexists _; isplitr; · ipureintro; exact harg2.read_unread _
      iexact H0
    isplitl [H1]; · iexists _; iexact H1
    iexists _; iexact HS

end Cert.KernelIdeal.Deg

end
-- ==== Proof.KI.DegFrame.lean ====
/-
  The degree pass, part three: the accumulator point by point, and the pass's proof data.

  `outsAt V c n` is the pair (output block, accumulator) after the body at point n: the accumulator is the case's pieces
  read back -- over the point before's accumulator unless k = 0 --, and the output block is the last case's pieces
  when k = 7 (at the other points it is a placeholder nobody reads: the block is neither written back nor read there).
  The pass's invariant before point n > 0 holds the accumulator at the point before's contents, beside the second
  pass's buffers and the random-number register; before point 0 it holds the accumulator at anything.
-/
import proofs.«179909_j2903397893032_1_alg».proof.Proof.KI.DegRuns

set_option maxRecDepth 16384

noncomputable section

namespace Cert.KernelIdeal.Deg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The pieces cover their buffers -/

theorem accCover_first (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1 .f32) (harg4 : arg4.IsWhole) (hF : isFirst i) (hL : ¬isLast i) (x0 : Vec F S1024x1024 .f32) (y : S1024x1.Idx) :
    ∃ pc ∈ (runFirst c i arg2 harg2 arg3 harg3 arg4 harg4 hF hL x0).2.1, y ∈ pc.1.set :=
  View.cover_of_tiledL (runFirst c i arg2 harg2 arg3 harg3 arg4 harg4 hF hL x0).2.1 S1024x1.size (by sl_kernel_rfl) y
theorem accCover_mid (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1 .f32) (harg4 : arg4.IsWhole) (hF : ¬isFirst i) (hL : ¬isLast i) (x0 : Vec F S1024x1024 .f32) (xs : Vec F S1024x1 .f32) (y : S1024x1.Idx) :
    ∃ pc ∈ (runMid c i arg2 harg2 arg3 harg3 arg4 harg4 hF hL x0 xs).2.1, y ∈ pc.1.set :=
  View.cover_of_tiledL (runMid c i arg2 harg2 arg3 harg3 arg4 harg4 hF hL x0 xs).2.1 S1024x1.size (by sl_kernel_rfl) y
theorem accCover_last (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1 .f32) (harg4 : arg4.IsWhole) (hF : ¬isFirst i) (hL : isLast i) (x0 : Vec F S1024x1024 .f32) (xs : Vec F S1024x1 .f32) (y : S1024x1.Idx) :
    ∃ pc ∈ (runLast c i arg2 harg2 arg3 harg3 arg4 harg4 hF hL x0 xs).2.1, y ∈ pc.1.set :=
  View.cover_of_tiledL (runLast c i arg2 harg2 arg3 harg3 arg4 harg4 hF hL x0 xs).2.1 S1024x1.size (by sl_kernel_rfl) y
theorem outCover_last (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1 .f32) (harg4 : arg4.IsWhole) (hF : ¬isFirst i) (hL : isLast i) (x0 : Vec F S1024x1024 .f32) (xs : Vec F S1024x1 .f32) (y : S1024x1.Idx) :
    ∃ pc ∈ (runLast c i arg2 harg2 arg3 harg3 arg4 harg4 hF hL x0 xs).1, y ∈ pc.1.set :=
  View.cover_of_tiledL (runLast c i arg2 harg2 arg3 harg3 arg4 harg4 hF hL x0 xs).1 S1024x1.size (by sl_kernel_rfl) y

/-! ## What each case leaves -/

def accFirst (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1 .f32) (harg4 : arg4.IsWhole) (hF : isFirst i) (hL : ¬isLast i) (x0 : Vec F S1024x1024 .f32) : Vec F S1024x1 .f32 :=
  VS.read (Elt F) (VS.writes (Elt F) VS.junk (runFirst c i arg2 harg2 arg3 harg3 arg4 harg4 hF hL x0).2.1)
def accMid (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1 .f32) (harg4 : arg4.IsWhole) (hF : ¬isFirst i) (hL : ¬isLast i) (x0 : Vec F S1024x1024 .f32) (xs : Vec F S1024x1 .f32) : Vec F S1024x1 .f32 :=
  VS.read (Elt F) (VS.writes (Elt F) VS.junk (runMid c i arg2 harg2 arg3 harg3 arg4 harg4 hF hL x0 xs).2.1)
def accLast (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1 .f32) (harg4 : arg4.IsWhole) (hF : ¬isFirst i) (hL : isLast i) (x0 : Vec F S1024x1024 .f32) (xs : Vec F S1024x1 .f32) : Vec F S1024x1 .f32 :=
  VS.read (Elt F) (VS.writes (Elt F) VS.junk (runLast c i arg2 harg2 arg3 harg3 arg4 harg4 hF hL x0 xs).2.1)
def outLast (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1 .f32) (harg4 : arg4.IsWhole) (hF : ¬isFirst i) (hL : isLast i) (x0 : Vec F S1024x1024 .f32) (xs : Vec F S1024x1 .f32) : Vec F S1024x1 .f32 :=
  VO.read (Elt F) (VO.writes (Elt F) VO.junk (runLast c i arg2 harg2 arg3 harg3 arg4 harg4 hF hL x0 xs).1)
/-- The output component at a point with k < 7: read by nobody. -/
def outIdle : Vec F S1024x1 .f32 := VO.read (Elt F) (VO.writes (Elt F) VO.junk [])

/-! ## Point by point -/

def outsAt (c : Dev nD) : (n : ℕ) → n < cfg0.N → Vec F S1024x1 .f32 × Vec F S1024x1 .f32
  | 0, hn => (outIdle, accFirst c (grid0.coords ⟨0, hn⟩) (ms0 ⟨0, hn⟩) (hs0 ⟨0, hn⟩) (ms1 ⟨0, hn⟩) (hs1 ⟨0, hn⟩) accM (Memref.isWhole_whole _) ((isFirst_iff ⟨0, hn⟩).mpr (Nat.zero_mod _)) (fun h => (fun h => by (try dsimp only at h); omega) ((isLast_iff ⟨0, hn⟩).mp h)) (iblk V c 0 ⟨0, hn⟩))
  | n + 1, hn =>
    if h0 : (n + 1) % 8 = 0 then
      if h7 : (n + 1) % 8 = 7 then False.elim (by omega)
      else (outIdle, accFirst c (grid0.coords ⟨n + 1, hn⟩) (ms0 ⟨n + 1, hn⟩) (hs0 ⟨n + 1, hn⟩) (ms1 ⟨n + 1, hn⟩) (hs1 ⟨n + 1, hn⟩) accM (Memref.isWhole_whole _) ((isFirst_iff ⟨n + 1, hn⟩).mpr h0) (fun h => h7 ((isLast_iff ⟨n + 1, hn⟩).mp h)) (iblk V c 0 ⟨n + 1, hn⟩))
    else
      if h7 : (n + 1) % 8 = 7 then
        (outLast c (grid0.coords ⟨n + 1, hn⟩) (ms0 ⟨n + 1, hn⟩) (hs0 ⟨n + 1, hn⟩) (ms1 ⟨n + 1, hn⟩) (hs1 ⟨n + 1, hn⟩) accM (Memref.isWhole_whole _) (fun h => h0 ((isFirst_iff ⟨n + 1, hn⟩).mp h)) ((isLast_iff ⟨n + 1, hn⟩).mpr h7) (iblk V c 0 ⟨n + 1, hn⟩) (outsAt c n (Nat.lt_of_succ_lt hn)).2,
         accLast c (grid0.coords ⟨n + 1, hn⟩) (ms0 ⟨n + 1, hn⟩) (hs0 ⟨n + 1, hn⟩) (ms1 ⟨n + 1, hn⟩) (hs1 ⟨n + 1, hn⟩) accM (Memref.isWhole_whole _) (fun h => h0 ((isFirst_iff ⟨n + 1, hn⟩).mp h)) ((isLast_iff ⟨n + 1, hn⟩).mpr h7) (iblk V c 0 ⟨n + 1, hn⟩) (outsAt c n (Nat.lt_of_succ_lt hn)).2)
      else
        (outIdle, accMid c (grid0.coords ⟨n + 1, hn⟩) (ms0 ⟨n + 1, hn⟩) (hs0 ⟨n + 1, hn⟩) (ms1 ⟨n + 1, hn⟩) (hs1 ⟨n + 1, hn⟩) accM (Memref.isWhole_whole _) (fun h => h0 ((isFirst_iff ⟨n + 1, hn⟩).mp h)) (fun h => h7 ((isLast_iff ⟨n + 1, hn⟩).mp h)) (iblk V c 0 ⟨n + 1, hn⟩) (outsAt c n (Nat.lt_of_succ_lt hn)).2)

theorem outsAt_first (c : Dev nD) (t : Fin cfg0.N) (h0 : t.val % 8 = 0) (h7 : ¬t.val % 8 = 7) :
    outsAt V c t.val t.isLt = (outIdle, accFirst c (grid0.coords t) (ms0 t) (hs0 t) (ms1 t) (hs1 t) accM (Memref.isWhole_whole _) ((isFirst_iff t).mpr h0) (fun h => h7 ((isLast_iff t).mp h)) (iblk V c 0 t)) := by
  obtain ⟨n, hn⟩ := t
  cases n with
  | zero => exact rfl
  | succ n => exact (dif_pos h0).trans ((dif_neg h7).trans rfl)

theorem outsAt_mid (c : Dev nD) (t : Fin cfg0.N) (h0 : ¬t.val % 8 = 0) (h7 : ¬t.val % 8 = 7) :
    outsAt V c t.val t.isLt = (outIdle, accMid c (grid0.coords t) (ms0 t) (hs0 t) (ms1 t) (hs1 t) accM (Memref.isWhole_whole _) (fun h => h0 ((isFirst_iff t).mp h)) (fun h => h7 ((isLast_iff t).mp h)) (iblk V c 0 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h7).trans rfl)

theorem outsAt_last (c : Dev nD) (t : Fin cfg0.N) (h0 : ¬t.val % 8 = 0) (h7 : t.val % 8 = 7) :
    outsAt V c t.val t.isLt = (outLast c (grid0.coords t) (ms0 t) (hs0 t) (ms1 t) (hs1 t) accM (Memref.isWhole_whole _) (fun h => h0 ((isFirst_iff t).mp h)) ((isLast_iff t).mpr h7) (iblk V c 0 t) (outsAt V c (t.val - 1) (Nat.lt_of_le_of_lt (Nat.sub_le _ _) t.isLt)).2,
      accLast c (grid0.coords t) (ms0 t) (hs0 t) (ms1 t) (hs1 t) accM (Memref.isWhole_whole _) (fun h => h0 ((isFirst_iff t).mp h)) ((isLast_iff t).mpr h7) (iblk V c 0 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h7).trans rfl)

/-! ## The invariant that carries the accumulator -/

def PhiS (c : Dev nD) : (n : ℕ) → n ≤ cfg0.N → sProp 𝕄
  | 0, _ => Pipeline.ΦA spec0 c
  | n + 1, hn => iprop(iprop(owns (c : Thread nD τ) accM fullShare ((outsAt V c n hn).2) ∗ others (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) accM fullShare ((outsAt V c n hn).2) ∗ others (F := F) c) ∗ (∃ r, prngReg c r)) := rfl
theorem PhiS_pos (c : Dev nD) (n : ℕ) (h : n ≤ cfg0.N) (hz : n ≠ 0) :
    PhiS V c n h = iprop(iprop(owns (c : Thread nD τ) accM fullShare ((outsAt V c (n - 1) (by omega)).2) ∗ others (F := F) c) ∗ (∃ r, prngReg c r)) := by
  cases n with
  | zero => exact absurd rfl hz
  | succ n => rfl

/-! ## The proof data -/

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => (outsAt V c t.val t.isLt).1
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]
theorem PhiS_castSucc (c : Dev nD) (t : Fin cfg0.N) :
    (dat V c).Φ t.castSucc = PhiS V c t.val (Nat.le_of_lt t.isLt) := by
  dsimp only [dat]; simp only [Fin.coe_castSucc]
theorem after_adj (c : Dev nD) (t : Fin cfg0.N) : (dat V c).after 0 t = iblk V c 0 t := by dsimp only [dat]
theorem after_out (c : Dev nD) (t : Fin cfg0.N) : (dat V c).after 1 t = (outsAt V c t.val t.isLt).1 := by dsimp only [dat]
theorem before_adj (c : Dev nD) (t : Fin cfg0.N) (d) : (dat V c).before 0 t d = iblk V c 0 t :=
  before_adj_of V (dat V c) (A_eq V c 0) (after_adj V c) t d

/-! ## The body obligation -/

def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t)

set_option maxHeartbeats 4800000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_adj]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms0 t) fullShare ((dat V c).after 0 t) from by
    unfold Dat.leavesExact; rw [adj_live t], after_adj]
  by_cases h0 : t.val % 8 = 0
  · have h7 : ¬t.val % 8 = 7 := by omega
    rw [Dat.leavesExact_idle (dat V c) 1 t (out_idle t (fun h => h7 ((isLast_iff t).mp h))) (out_noFlush t (fun h => h7 ((isLast_iff t).mp h)))]
    rw [outsAt_first V c t h0 h7]
    unfold accFirst; (try dsimp only)
    by_cases hz : t.val = 0
    · rw [PhiS_castSucc V c t, PhiS_zero V c _ _ hz, PhiA_eq]
      iintro ⟨⟨⟨HS, Hoth⟩, Hg⟩, Ho, ⟨%d0, H0⟩, ⟨%d1, H1⟩⟩
      iapply ((runFirst c (grid0.coords t) _ _ _ _ _ _ ((isFirst_iff t).mpr h0) (fun h => h7 ((isLast_iff t).mp h)) (iblk V c 0 t)).2.2 _ Set.univ _)
      isplitl [H0]; · iexact H0
      isplitl [H1]; · iexact H1
      isplitl [HS]; · iexact HS
      iintro ⟨H0, H1, ⟨%es, HS⟩⟩
      isplitl [HS Hoth Hg]
      · isplitl [HS Hoth]
        · isplitl [HS]
          · unfold owns; iexists _; isplitr
            swap; · iexact HS
            ipureintro; exact View.read_writes_of_cover _ _ _ _ _ (accCover_first c _ _ _ _ _ _ _ _ _ _)
          iexact Hoth
        iexact Hg
      isplitl [Ho]; · iexact Ho
      isplitl [H0]; · iexact H0
      iexists _; iexact H1
    · rw [PhiS_castSucc V c t, PhiS_pos V c _ _ hz]
      iintro ⟨⟨⟨HS, Hoth⟩, Hg⟩, Ho, ⟨%d0, H0⟩, ⟨%d1, H1⟩⟩
      iapply ((runFirst c (grid0.coords t) _ _ _ _ _ _ ((isFirst_iff t).mpr h0) (fun h => h7 ((isLast_iff t).mp h)) (iblk V c 0 t)).2.2 _ Set.univ _)
      isplitl [H0]; · iexact H0
      isplitl [H1]; · iexact H1
      isplitl [HS]; · iexists _; iexact HS
      iintro ⟨H0, H1, ⟨%es, HS⟩⟩
      isplitl [HS Hoth Hg]
      · isplitl [HS Hoth]
        · isplitl [HS]
          · unfold owns; iexists _; isplitr
            swap; · iexact HS
            ipureintro; exact View.read_writes_of_cover _ _ _ _ _ (accCover_first c _ _ _ _ _ _ _ _ _ _)
          iexact Hoth
        iexact Hg
      isplitl [Ho]; · iexact Ho
      isplitl [H0]; · iexact H0
      iexists _; iexact H1
  · have hz : t.val ≠ 0 := fun h => h0 (by rw [h])
    by_cases h7 : t.val % 8 = 7
    · rw [show (dat V c).leavesExact 1 t = owns (c : Thread nD τ) (ms1 t) fullShare ((dat V c).after 1 t) from by
        unfold Dat.leavesExact; rw [out_live t ((isLast_iff t).mpr h7)], after_out]
      rw [outsAt_last V c t h0 h7]
      unfold outLast accLast; (try dsimp only)
      rw [PhiS_castSucc V c t, PhiS_pos V c _ _ hz]
      iintro ⟨⟨⟨HS, Hoth⟩, Hg⟩, Ho, ⟨%d0, H0⟩, ⟨%d1, H1⟩⟩
      iapply ((runLast c (grid0.coords t) _ _ _ _ _ _ (fun h => h0 ((isFirst_iff t).mp h)) ((isLast_iff t).mpr h7) (iblk V c 0 t) _).2.2 Set.univ _)
      isplitl [H0]; · iexact H0
      isplitl [H1]; · iexists _; iexact H1
      isplitl [HS]; · iexact HS
      iintro ⟨H0, ⟨%e1, H1⟩, ⟨%es, HS⟩⟩
      isplitl [HS Hoth Hg]
      · isplitl [HS Hoth]
        · isplitl [HS]
          · unfold owns; iexists _; isplitr
            swap; · iexact HS
            ipureintro; exact View.read_writes_of_cover _ _ _ _ _ (accCover_last c _ _ _ _ _ _ _ _ _ _ _)
          iexact Hoth
        iexact Hg
      isplitl [Ho]; · iexact Ho
      isplitl [H0]; · iexact H0
      unfold owns; iexists _; isplitr
      swap; · iexact H1
      ipureintro; exact View.read_writes_of_cover _ _ _ _ _ (outCover_last c _ _ _ _ _ _ _ _ _ _ _)
    · rw [Dat.leavesExact_idle (dat V c) 1 t (out_idle t (fun h => h7 ((isLast_iff t).mp h))) (out_noFlush t (fun h => h7 ((isLast_iff t).mp h)))]
      rw [outsAt_mid V c t h0 h7]
      unfold accMid; (try dsimp only)
      rw [PhiS_castSucc V c t, PhiS_pos V c _ _ hz]
      iintro ⟨⟨⟨HS, Hoth⟩, Hg⟩, Ho, ⟨%d0, H0⟩, ⟨%d1, H1⟩⟩
      iapply ((runMid c (grid0.coords t) _ _ _ _ _ _ (fun h => h0 ((isFirst_iff t).mp h)) (fun h => h7 ((isLast_iff t).mp h)) (iblk V c 0 t) _).2.2 _ Set.univ _)
      isplitl [H0]; · iexact H0
      isplitl [H1]; · iexact H1
      isplitl [HS]; · iexact HS
      iintro ⟨H0, H1, ⟨%es, HS⟩⟩
      isplitl [HS Hoth Hg]
      · isplitl [HS Hoth]
        · isplitl [HS]
          · unfold owns; iexists _; isplitr
            swap; · iexact HS
            ipureintro; exact View.read_writes_of_cover _ _ _ _ _ (accCover_mid c _ _ _ _ _ _ _ _ _ _ _)
          iexact Hoth
        iexact Hg
      isplitl [Ho]; · iexact Ho
      isplitl [H0]; · iexact H0
      iexists _; iexact H1

theorem body_obligation (c : Dev nD) : BodyObligation (dat (F := F) V c) (defs₀ (F := F)) Variants.none () Set.univ := fun t => by
  rw [bigSep_W0, bigSep_W0]
  exact sound_body V c t

/-! ## The invariant's two ends -/

theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

theorem hout (c : Dev nD) : (dat V c).Φ (Fin.last cfg0.N) ⊢ Pipeline.ΦA spec0 c := by
  have hN : (Fin.last cfg0.N).val ≠ 0 := by rw [Fin.val_last]; have : cfg0.N = 64 := N_0; omega
  rw [show (dat V c).Φ (Fin.last cfg0.N) = PhiS V c (Fin.last cfg0.N).val (Nat.le_of_lt_succ (Fin.last cfg0.N).isLt) from rfl, PhiS_pos V c _ _ hN, PhiA_eq]
  iintro ⟨⟨HS, Hoth⟩, Hg⟩
  isplitl [HS Hoth]
  · isplitl [HS]
    · iexists _; iexact HS
    iexact Hoth
  iexact Hg

end Cert.KernelIdeal.Deg

end
-- ==== Proof.KI.AggShared.lean ====
/-
  The aggregation pass, part one: what its three control cases share.

  The grid is again 8 x 8 points, t = 8 i + k. At every point the body adds the product of the adjacency block (i, k)
  with rows 1024 k .. 1024 k + 1023 of y to a 1024 x 128 accumulator kept between points (zeroed first when k = 0);
  when k = 7 the output block i receives max (h W + b, 0) with h = d * accumulator + (d * d) * x, d the block's
  inverse square-root degrees. The output block is written back only after the points with k = 7. Everything is stated
  for the contents `V` the buffers hold when the pass is entered, at any float instance.
-/
import proofs.«179909_j2903397893032_1_alg».proof.Proof.Gen.KernelIdeal.Launch
import proofs.«179909_j2903397893032_1_alg».proof.Proof.Gen.KernelIdeal.Skeleton
import proofs.«179909_j2903397893032_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Agg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks -/

/-- Window `w`'s block at point `t`, read off its array as the pass finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's staging buffer holds its block at every point, fetched there or not. -/
theorem before_in0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5_of {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The two conditions, in closed form over the grid -/

abbrev isFirst (i : grid1.Coords) : Prop := (Scalar.cmpi .ne (Scalar.extui (Scalar.cmpi .eq (BitVec.ofNat 32 (i 1).val) 0#32)) 0#32) = 1#1
theorem isFirst_iff : ∀ t : Fin cfg1.N, isFirst (grid1.coords t) ↔ t.val % 8 = 0 :=
  (by decide +kernel : ∀ t : Fin grid1.N, isFirst (grid1.coords t) ↔ t.val % 8 = 0)
abbrev isLast (i : grid1.Coords) : Prop := k1_cond2 i = 1#1
theorem isLast_iff : ∀ t : Fin cfg1.N, isLast (grid1.coords t) ↔ t.val % 8 = 7 :=
  (by decide +kernel : ∀ t : Fin grid1.N, isLast (grid1.coords t) ↔ t.val % 8 = 7)

/-! ## Where the windows are idle -/

theorem in0_live : ∀ t : Fin cfg1.N, cfg1.idle 0 (grid1.coords t) = false := by decide +kernel
theorem in1_live : ∀ t : Fin cfg1.N, cfg1.idle 1 (grid1.coords t) = false := by decide +kernel
theorem in2_live : ∀ t : Fin cfg1.N, cfg1.idle 2 (grid1.coords t) = false := by decide +kernel
theorem in3_live : ∀ t : Fin cfg1.N, cfg1.idle 3 (grid1.coords t) = false := by decide +kernel
theorem in4_live : ∀ t : Fin cfg1.N, cfg1.idle 4 (grid1.coords t) = false := by decide +kernel
theorem in5_live : ∀ t : Fin cfg1.N, cfg1.idle 5 (grid1.coords t) = false := by decide +kernel
theorem out_idle : ∀ t : Fin cfg1.N, ¬isLast (grid1.coords t) → cfg1.idle 6 (grid1.coords t) = true := by decide +kernel
theorem out_noFlush : ∀ t : Fin cfg1.N, ¬isLast (grid1.coords t) → (cfg1.win 6).flush t = false := by decide +kernel
theorem out_live : ∀ t : Fin cfg1.N, isLast (grid1.coords t) → cfg1.idle 6 (grid1.coords t) = false := by decide +kernel

/-! ## The memrefs the body is called with -/

abbrev VO : View sig .tc .vmem S1024x128 .f32 := (Memref.whole cc1_stg6_0 : Memref sig .tc .vmem S1024x128 .f32).view
abbrev ms0 (t : Fin cfg1.N) : Memref sig .tc .vmem S1024x1024 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S8192x128 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S1024x128 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1024x1 .f32 := win1_3.stage (cfg1.slots t 3)
abbrev hs3 (t : Fin cfg1.N) : (ms3 t).IsWhole := hstage1_3 ((cfg1.slots t 3).cast nbuf1_3)
abbrev ms4 (t : Fin cfg1.N) : Memref sig .tc .vmem S128x128 .f32 := win1_4.stage (cfg1.slots t 4)
abbrev hs4 (t : Fin cfg1.N) : (ms4 t).IsWhole := hstage1_4 ((cfg1.slots t 4).cast nbuf1_4)
abbrev ms5 (t : Fin cfg1.N) : Memref sig .tc .vmem S1x128 .f32 := win1_5.stage (cfg1.slots t 5)
abbrev hs5 (t : Fin cfg1.N) : (ms5 t).IsWhole := hstage1_5 ((cfg1.slots t 5).cast nbuf1_5)
abbrev ms6 (t : Fin cfg1.N) : Memref sig .tc .vmem S1024x128 .f32 := win1_6.stage (cfg1.slots t 6)
abbrev hs6 (t : Fin cfg1.N) : (ms6 t).IsWhole := hstage1_6 ((cfg1.slots t 6).cast nbuf1_6)
/-- The accumulator: a whole scoped buffer of the pass's own. -/
abbrev accM : Memref sig .tc .vmem S1024x128 .f32 := Memref.whole cc1_scratch0
abbrev VS : View sig .tc .vmem S1024x128 .f32 := accM.view

/-- The first pass's own scoped buffers, each whole at some contents, then `Q`: they ride through this pass untouched. -/
def withOthers (c : Dev nD) (Q : sProp 𝕄) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_scratch0), ((c : Thread nD τ).loc cc0_scratch0) ↦{fullShare} f)
      ∗ Q)

/-- Before the first point nothing is known of the accumulator. -/
theorem PhiA_eq (c : Dev nD) :
    (Pipeline.ΦA spec1 c : sProp 𝕄)
      = iprop(withOthers (F := F) c iprop(∃ d, owns (c : Thread nD τ) accM fullShare d) ∗ (∃ r, prngReg c r)) := by
  unfold Pipeline.ΦA withOthers; rw [scopedRest1_eq]; simp only [accM, owns_whole]; try rfl

end Cert.KernelIdeal.Agg

end
-- ==== Proof.KI.AggRuns.lean ====
/-
  The aggregation pass, part two: the body run in each of its three cases.

  On whole staging buffers -- the six input blocks at contents x0 .. x5 -- the body runs to the end, and what it leaves
  is recorded as the list of pieces it stored, last first: in the accumulator always, in the output block only when
  k = 7. When k = 0 the accumulator may hold anything on entry; otherwise it holds what the point before left, xs.
  When k < 7 the output block is handed back as it came, xi.
-/
import proofs.«179909_j2903397893032_1_alg».proof.Proof.KI.AggShared

set_option maxRecDepth 16384

noncomputable section

namespace Cert.KernelIdeal.Agg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- k = 0: zero the accumulator, add the block product. -/
noncomputable def runFirst (c : Dev nD) (i : grid1.Coords) (arg2 : Memref sig .tc .vmem S1024x1024 .f32) (harg2 : arg2.IsWhole) (arg3 : Memref sig .tc .vmem S8192x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hF : isFirst i) (hL : ¬isLast i)
    (x0 : Vec F S1024x1024 .f32) (x1 : Vec F S8192x128 .f32) (x2 : Vec F S1024x128 .f32) (x3 : Vec F S1024x1 .f32) (x4 : Vec F S128x128 .f32) (x5 : Vec F S1x128 .f32) :
    Σ' (L1 : List (View.Piece (Elt F) S1024x128 .f32)), { LS : List (View.Piece (Elt F) S1024x128 .f32) //
      ∀ (xi : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi ∗ (∃ f, arg9.view.loc (c : Thread nD τ) ↦[arg9.view.set]{fullShare} arg9.view.writes (Elt F) f LS)) -∗ K ⟨⟩))
          ⊢ wp frame (wpE (defs₀ (F := F)) Variants.none c none) E (cc1__gcn_kernel i arg2 harg2 arg3 harg3 arg4 harg4 arg5 harg5 arg6 harg6 arg7 harg7 arg8 harg8 arg9 harg9) K } := by
  refine ⟨[], ?_, fun xi E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hF | exact hL)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS

set_option maxHeartbeats 2000000 in
/-- 0 < k < 7: add the block product to what the point before left. -/
noncomputable def runMid (c : Dev nD) (i : grid1.Coords) (arg2 : Memref sig .tc .vmem S1024x1024 .f32) (harg2 : arg2.IsWhole) (arg3 : Memref sig .tc .vmem S8192x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hF : ¬isFirst i) (hL : ¬isLast i)
    (x0 : Vec F S1024x1024 .f32) (x1 : Vec F S8192x128 .f32) (x2 : Vec F S1024x128 .f32) (x3 : Vec F S1024x1 .f32) (x4 : Vec F S128x128 .f32) (x5 : Vec F S1x128 .f32) (xs : Vec F S1024x128 .f32) :
    Σ' (L1 : List (View.Piece (Elt F) S1024x128 .f32)), { LS : List (View.Piece (Elt F) S1024x128 .f32) //
      ∀ (xi : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi ∗ owns (c : Thread nD τ) arg9 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi ∗ (∃ f, arg9.view.loc (c : Thread nD τ) ↦[arg9.view.set]{fullShare} arg9.view.writes (Elt F) f LS)) -∗ K ⟨⟩))
          ⊢ wp frame (wpE (defs₀ (F := F)) Variants.none c none) E (cc1__gcn_kernel i arg2 harg2 arg3 harg3 arg4 harg4 arg5 harg5 arg6 harg6 arg7 harg7 arg8 harg8 arg9 harg9) K } := by
  refine ⟨[], ?_, fun xi E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs
    sl_exec (disch := first | exact hF | exact hL)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS

set_option maxHeartbeats 2000000 in
/-- k = 7: add the block product, then store max (h W + b, 0) into the output block. -/
noncomputable def runLast (c : Dev nD) (i : grid1.Coords) (arg2 : Memref sig .tc .vmem S1024x1024 .f32) (harg2 : arg2.IsWhole) (arg3 : Memref sig .tc .vmem S8192x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hF : ¬isFirst i) (hL : isLast i)
    (x0 : Vec F S1024x1024 .f32) (x1 : Vec F S8192x128 .f32) (x2 : Vec F S1024x128 .f32) (x3 : Vec F S1024x1 .f32) (x4 : Vec F S128x128 .f32) (x5 : Vec F S1x128 .f32) (xs : Vec F S1024x128 .f32) :
    Σ' (L1 : List (View.Piece (Elt F) S1024x128 .f32)), { LS : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L1) ∗ (∃ f, arg9.view.loc (c : Thread nD τ) ↦[arg9.view.set]{fullShare} arg9.view.writes (Elt F) f LS)) -∗ K ⟨⟩))
          ⊢ wp frame (wpE (defs₀ (F := F)) Variants.none c none) E (cc1__gcn_kernel i arg2 harg2 arg3 harg3 arg4 harg4 arg5 harg5 arg6 harg6 arg7 harg7 arg8 harg8 arg9 harg9) K } := by
  refine ⟨?_, ?_, fun E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs
    sl_exec (disch := first | exact hF | exact hL)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS

end Cert.KernelIdeal.Agg

end
-- ==== Proof.KI.AggFrame.lean ====
/-
  The aggregation pass, part three: the accumulator point by point, and the pass's proof data.

  `outsAt V c n` is the pair (output block, accumulator) after the body at point n: the accumulator is the case's pieces
  read back -- over the point before's accumulator unless k = 0 --, and the output block is the last case's pieces
  when k = 7 (a placeholder nobody reads at the other points). The pass's invariant before point n > 0 holds the
  accumulator at the point before's contents, beside the first pass's buffers and the random-number register; before
  point 0 it holds the accumulator at anything.
-/
import proofs.«179909_j2903397893032_1_alg».proof.Proof.KI.AggRuns

set_option maxRecDepth 16384

noncomputable section

namespace Cert.KernelIdeal.Agg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The pieces cover their buffers -/

theorem accCover_first (c : Dev nD) (i : grid1.Coords) (arg2 : Memref sig .tc .vmem S1024x1024 .f32) (harg2 : arg2.IsWhole) (arg3 : Memref sig .tc .vmem S8192x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hF : isFirst i) (hL : ¬isLast i) (x0 : Vec F S1024x1024 .f32) (x1 : Vec F S8192x128 .f32) (x2 : Vec F S1024x128 .f32) (x3 : Vec F S1024x1 .f32) (x4 : Vec F S128x128 .f32) (x5 : Vec F S1x128 .f32) (y : S1024x128.Idx) :
    ∃ pc ∈ (runFirst c i arg2 harg2 arg3 harg3 arg4 harg4 arg5 harg5 arg6 harg6 arg7 harg7 arg8 harg8 arg9 harg9 hF hL x0 x1 x2 x3 x4 x5).2.1, y ∈ pc.1.set :=
  View.cover_of_tiledL (runFirst c i arg2 harg2 arg3 harg3 arg4 harg4 arg5 harg5 arg6 harg6 arg7 harg7 arg8 harg8 arg9 harg9 hF hL x0 x1 x2 x3 x4 x5).2.1 S1024x128.size (by sl_kernel_rfl) y
theorem accCover_mid (c : Dev nD) (i : grid1.Coords) (arg2 : Memref sig .tc .vmem S1024x1024 .f32) (harg2 : arg2.IsWhole) (arg3 : Memref sig .tc .vmem S8192x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hF : ¬isFirst i) (hL : ¬isLast i) (x0 : Vec F S1024x1024 .f32) (x1 : Vec F S8192x128 .f32) (x2 : Vec F S1024x128 .f32) (x3 : Vec F S1024x1 .f32) (x4 : Vec F S128x128 .f32) (x5 : Vec F S1x128 .f32) (xs : Vec F S1024x128 .f32) (y : S1024x128.Idx) :
    ∃ pc ∈ (runMid c i arg2 harg2 arg3 harg3 arg4 harg4 arg5 harg5 arg6 harg6 arg7 harg7 arg8 harg8 arg9 harg9 hF hL x0 x1 x2 x3 x4 x5 xs).2.1, y ∈ pc.1.set :=
  View.cover_of_tiledL (runMid c i arg2 harg2 arg3 harg3 arg4 harg4 arg5 harg5 arg6 harg6 arg7 harg7 arg8 harg8 arg9 harg9 hF hL x0 x1 x2 x3 x4 x5 xs).2.1 S1024x128.size (by sl_kernel_rfl) y
theorem accCover_last (c : Dev nD) (i : grid1.Coords) (arg2 : Memref sig .tc .vmem S1024x1024 .f32) (harg2 : arg2.IsWhole) (arg3 : Memref sig .tc .vmem S8192x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hF : ¬isFirst i) (hL : isLast i) (x0 : Vec F S1024x1024 .f32) (x1 : Vec F S8192x128 .f32) (x2 : Vec F S1024x128 .f32) (x3 : Vec F S1024x1 .f32) (x4 : Vec F S128x128 .f32) (x5 : Vec F S1x128 .f32) (xs : Vec F S1024x128 .f32) (y : S1024x128.Idx) :
    ∃ pc ∈ (runLast c i arg2 harg2 arg3 harg3 arg4 harg4 arg5 harg5 arg6 harg6 arg7 harg7 arg8 harg8 arg9 harg9 hF hL x0 x1 x2 x3 x4 x5 xs).2.1, y ∈ pc.1.set :=
  View.cover_of_tiledL (runLast c i arg2 harg2 arg3 harg3 arg4 harg4 arg5 harg5 arg6 harg6 arg7 harg7 arg8 harg8 arg9 harg9 hF hL x0 x1 x2 x3 x4 x5 xs).2.1 S1024x128.size (by sl_kernel_rfl) y
theorem outCover_last (c : Dev nD) (i : grid1.Coords) (arg2 : Memref sig .tc .vmem S1024x1024 .f32) (harg2 : arg2.IsWhole) (arg3 : Memref sig .tc .vmem S8192x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hF : ¬isFirst i) (hL : isLast i) (x0 : Vec F S1024x1024 .f32) (x1 : Vec F S8192x128 .f32) (x2 : Vec F S1024x128 .f32) (x3 : Vec F S1024x1 .f32) (x4 : Vec F S128x128 .f32) (x5 : Vec F S1x128 .f32) (xs : Vec F S1024x128 .f32) (y : S1024x128.Idx) :
    ∃ pc ∈ (runLast c i arg2 harg2 arg3 harg3 arg4 harg4 arg5 harg5 arg6 harg6 arg7 harg7 arg8 harg8 arg9 harg9 hF hL x0 x1 x2 x3 x4 x5 xs).1, y ∈ pc.1.set :=
  View.cover_of_tiledL (runLast c i arg2 harg2 arg3 harg3 arg4 harg4 arg5 harg5 arg6 harg6 arg7 harg7 arg8 harg8 arg9 harg9 hF hL x0 x1 x2 x3 x4 x5 xs).1 S1024x128.size (by sl_kernel_rfl) y

/-! ## What each case leaves -/

def accFirst (c : Dev nD) (i : grid1.Coords) (arg2 : Memref sig .tc .vmem S1024x1024 .f32) (harg2 : arg2.IsWhole) (arg3 : Memref sig .tc .vmem S8192x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hF : isFirst i) (hL : ¬isLast i) (x0 : Vec F S1024x1024 .f32) (x1 : Vec F S8192x128 .f32) (x2 : Vec F S1024x128 .f32) (x3 : Vec F S1024x1 .f32) (x4 : Vec F S128x128 .f32) (x5 : Vec F S1x128 .f32) : Vec F S1024x128 .f32 :=
  VS.read (Elt F) (VS.writes (Elt F) VS.junk (runFirst c i arg2 harg2 arg3 harg3 arg4 harg4 arg5 harg5 arg6 harg6 arg7 harg7 arg8 harg8 arg9 harg9 hF hL x0 x1 x2 x3 x4 x5).2.1)
def accMid (c : Dev nD) (i : grid1.Coords) (arg2 : Memref sig .tc .vmem S1024x1024 .f32) (harg2 : arg2.IsWhole) (arg3 : Memref sig .tc .vmem S8192x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hF : ¬isFirst i) (hL : ¬isLast i) (x0 : Vec F S1024x1024 .f32) (x1 : Vec F S8192x128 .f32) (x2 : Vec F S1024x128 .f32) (x3 : Vec F S1024x1 .f32) (x4 : Vec F S128x128 .f32) (x5 : Vec F S1x128 .f32) (xs : Vec F S1024x128 .f32) : Vec F S1024x128 .f32 :=
  VS.read (Elt F) (VS.writes (Elt F) VS.junk (runMid c i arg2 harg2 arg3 harg3 arg4 harg4 arg5 harg5 arg6 harg6 arg7 harg7 arg8 harg8 arg9 harg9 hF hL x0 x1 x2 x3 x4 x5 xs).2.1)
def accLast (c : Dev nD) (i : grid1.Coords) (arg2 : Memref sig .tc .vmem S1024x1024 .f32) (harg2 : arg2.IsWhole) (arg3 : Memref sig .tc .vmem S8192x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hF : ¬isFirst i) (hL : isLast i) (x0 : Vec F S1024x1024 .f32) (x1 : Vec F S8192x128 .f32) (x2 : Vec F S1024x128 .f32) (x3 : Vec F S1024x1 .f32) (x4 : Vec F S128x128 .f32) (x5 : Vec F S1x128 .f32) (xs : Vec F S1024x128 .f32) : Vec F S1024x128 .f32 :=
  VS.read (Elt F) (VS.writes (Elt F) VS.junk (runLast c i arg2 harg2 arg3 harg3 arg4 harg4 arg5 harg5 arg6 harg6 arg7 harg7 arg8 harg8 arg9 harg9 hF hL x0 x1 x2 x3 x4 x5 xs).2.1)
def outLast (c : Dev nD) (i : grid1.Coords) (arg2 : Memref sig .tc .vmem S1024x1024 .f32) (harg2 : arg2.IsWhole) (arg3 : Memref sig .tc .vmem S8192x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hF : ¬isFirst i) (hL : isLast i) (x0 : Vec F S1024x1024 .f32) (x1 : Vec F S8192x128 .f32) (x2 : Vec F S1024x128 .f32) (x3 : Vec F S1024x1 .f32) (x4 : Vec F S128x128 .f32) (x5 : Vec F S1x128 .f32) (xs : Vec F S1024x128 .f32) : Vec F S1024x128 .f32 :=
  VO.read (Elt F) (VO.writes (Elt F) VO.junk (runLast c i arg2 harg2 arg3 harg3 arg4 harg4 arg5 harg5 arg6 harg6 arg7 harg7 arg8 harg8 arg9 harg9 hF hL x0 x1 x2 x3 x4 x5 xs).1)
/-- The output component at a point with k < 7: read by nobody. -/
def outIdle : Vec F S1024x128 .f32 := VO.read (Elt F) (VO.writes (Elt F) VO.junk [])

/-! ## Point by point -/

def outsAt (c : Dev nD) : (n : ℕ) → n < cfg1.N → Vec F S1024x128 .f32 × Vec F S1024x128 .f32
  | 0, hn => (outIdle, accFirst c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) accM (Memref.isWhole_whole _) ((isFirst_iff ⟨0, hn⟩).mpr (Nat.zero_mod _)) (fun h => (fun h => by (try dsimp only at h); omega) ((isLast_iff ⟨0, hn⟩).mp h)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩))
  | n + 1, hn =>
    if h0 : (n + 1) % 8 = 0 then
      if h7 : (n + 1) % 8 = 7 then False.elim (by omega)
      else (outIdle, accFirst c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) accM (Memref.isWhole_whole _) ((isFirst_iff ⟨n + 1, hn⟩).mpr h0) (fun h => h7 ((isLast_iff ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩))
    else
      if h7 : (n + 1) % 8 = 7 then
        (outLast c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) accM (Memref.isWhole_whole _) (fun h => h0 ((isFirst_iff ⟨n + 1, hn⟩).mp h)) ((isLast_iff ⟨n + 1, hn⟩).mpr h7) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (outsAt c n (Nat.lt_of_succ_lt hn)).2,
         accLast c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) accM (Memref.isWhole_whole _) (fun h => h0 ((isFirst_iff ⟨n + 1, hn⟩).mp h)) ((isLast_iff ⟨n + 1, hn⟩).mpr h7) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (outsAt c n (Nat.lt_of_succ_lt hn)).2)
      else
        (outIdle, accMid c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) accM (Memref.isWhole_whole _) (fun h => h0 ((isFirst_iff ⟨n + 1, hn⟩).mp h)) (fun h => h7 ((isLast_iff ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (outsAt c n (Nat.lt_of_succ_lt hn)).2)

theorem outsAt_first (c : Dev nD) (t : Fin cfg1.N) (h0 : t.val % 8 = 0) (h7 : ¬t.val % 8 = 7) :
    outsAt V c t.val t.isLt = (outIdle, accFirst c (grid1.coords t) (ms0 t) (hs0 t) (ms1 t) (hs1 t) (ms2 t) (hs2 t) (ms3 t) (hs3 t) (ms4 t) (hs4 t) (ms5 t) (hs5 t) (ms6 t) (hs6 t) accM (Memref.isWhole_whole _) ((isFirst_iff t).mpr h0) (fun h => h7 ((isLast_iff t).mp h)) (iblk V c 0 t) (iblk V c 1 t) (iblk V c 2 t) (iblk V c 3 t) (iblk V c 4 t) (iblk V c 5 t)) := by
  obtain ⟨n, hn⟩ := t
  cases n with
  | zero => exact rfl
  | succ n => exact (dif_pos h0).trans ((dif_neg h7).trans rfl)

theorem outsAt_mid (c : Dev nD) (t : Fin cfg1.N) (h0 : ¬t.val % 8 = 0) (h7 : ¬t.val % 8 = 7) :
    outsAt V c t.val t.isLt = (outIdle, accMid c (grid1.coords t) (ms0 t) (hs0 t) (ms1 t) (hs1 t) (ms2 t) (hs2 t) (ms3 t) (hs3 t) (ms4 t) (hs4 t) (ms5 t) (hs5 t) (ms6 t) (hs6 t) accM (Memref.isWhole_whole _) (fun h => h0 ((isFirst_iff t).mp h)) (fun h => h7 ((isLast_iff t).mp h)) (iblk V c 0 t) (iblk V c 1 t) (iblk V c 2 t) (iblk V c 3 t) (iblk V c 4 t) (iblk V c 5 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h7).trans rfl)

theorem outsAt_last (c : Dev nD) (t : Fin cfg1.N) (h0 : ¬t.val % 8 = 0) (h7 : t.val % 8 = 7) :
    outsAt V c t.val t.isLt = (outLast c (grid1.coords t) (ms0 t) (hs0 t) (ms1 t) (hs1 t) (ms2 t) (hs2 t) (ms3 t) (hs3 t) (ms4 t) (hs4 t) (ms5 t) (hs5 t) (ms6 t) (hs6 t) accM (Memref.isWhole_whole _) (fun h => h0 ((isFirst_iff t).mp h)) ((isLast_iff t).mpr h7) (iblk V c 0 t) (iblk V c 1 t) (iblk V c 2 t) (iblk V c 3 t) (iblk V c 4 t) (iblk V c 5 t) (outsAt V c (t.val - 1) (Nat.lt_of_le_of_lt (Nat.sub_le _ _) t.isLt)).2,
      accLast c (grid1.coords t) (ms0 t) (hs0 t) (ms1 t) (hs1 t) (ms2 t) (hs2 t) (ms3 t) (hs3 t) (ms4 t) (hs4 t) (ms5 t) (hs5 t) (ms6 t) (hs6 t) accM (Memref.isWhole_whole _) (fun h => h0 ((isFirst_iff t).mp h)) ((isLast_iff t).mpr h7) (iblk V c 0 t) (iblk V c 1 t) (iblk V c 2 t) (iblk V c 3 t) (iblk V c 4 t) (iblk V c 5 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h7).trans rfl)

/-! ## The invariant that carries the accumulator -/

def PhiS (c : Dev nD) : (n : ℕ) → n ≤ cfg1.N → sProp 𝕄
  | 0, _ => Pipeline.ΦA spec1 c
  | n + 1, hn => iprop(withOthers (F := F) c (owns (c : Thread nD τ) accM fullShare ((outsAt V c n hn).2)) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(withOthers (F := F) c (owns (c : Thread nD τ) accM fullShare ((outsAt V c n hn).2)) ∗ (∃ r, prngReg c r)) := rfl
theorem PhiS_pos (c : Dev nD) (n : ℕ) (h : n ≤ cfg1.N) (hz : n ≠ 0) :
    PhiS V c n h = iprop(withOthers (F := F) c (owns (c : Thread nD τ) accM fullShare ((outsAt V c (n - 1) (by omega)).2)) ∗ (∃ r, prngReg c r)) := by
  cases n with
  | zero => exact absurd rfl hz
  | succ n => rfl

/-! ## The proof data -/

def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => (outsAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]
theorem PhiS_castSucc (c : Dev nD) (t : Fin cfg1.N) :
    (dat V c).Φ t.castSucc = PhiS V c t.val (Nat.le_of_lt t.isLt) := by
  dsimp only [dat]; simp only [Fin.coe_castSucc]
theorem after_in0 (c : Dev nD) (t : Fin cfg1.N) : (dat V c).after 0 t = iblk V c 0 t := by dsimp only [dat]
theorem after_in1 (c : Dev nD) (t : Fin cfg1.N) : (dat V c).after 1 t = iblk V c 1 t := by dsimp only [dat]
theorem after_in2 (c : Dev nD) (t : Fin cfg1.N) : (dat V c).after 2 t = iblk V c 2 t := by dsimp only [dat]
theorem after_in3 (c : Dev nD) (t : Fin cfg1.N) : (dat V c).after 3 t = iblk V c 3 t := by dsimp only [dat]
theorem after_in4 (c : Dev nD) (t : Fin cfg1.N) : (dat V c).after 4 t = iblk V c 4 t := by dsimp only [dat]
theorem after_in5 (c : Dev nD) (t : Fin cfg1.N) : (dat V c).after 5 t = iblk V c 5 t := by dsimp only [dat]
theorem after_out (c : Dev nD) (t : Fin cfg1.N) : (dat V c).after 6 t = (outsAt V c t.val t.isLt).1 := by dsimp only [dat]
theorem before_in0 (c : Dev nD) (t : Fin cfg1.N) (d) : (dat V c).before 0 t d = iblk V c 0 t :=
  before_in0_of V (dat V c) (A_eq V c 0) (after_in0 V c) t d
theorem before_in1 (c : Dev nD) (t : Fin cfg1.N) (d) : (dat V c).before 1 t d = iblk V c 1 t :=
  before_in1_of V (dat V c) (A_eq V c 1) (after_in1 V c) t d
theorem before_in2 (c : Dev nD) (t : Fin cfg1.N) (d) : (dat V c).before 2 t d = iblk V c 2 t :=
  before_in2_of V (dat V c) (A_eq V c 2) (after_in2 V c) t d
theorem before_in3 (c : Dev nD) (t : Fin cfg1.N) (d) : (dat V c).before 3 t d = iblk V c 3 t :=
  before_in3_of V (dat V c) (A_eq V c 3) (after_in3 V c) t d
theorem before_in4 (c : Dev nD) (t : Fin cfg1.N) (d) : (dat V c).before 4 t d = iblk V c 4 t :=
  before_in4_of V (dat V c) (A_eq V c 4) (after_in4 V c) t d
theorem before_in5 (c : Dev nD) (t : Fin cfg1.N) (d) : (dat V c).before 5 t d = iblk V c 5 t :=
  before_in5_of V (dat V c) (A_eq V c 5) (after_in5 V c) t d

/-! ## The body obligation -/

def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t)

set_option maxHeartbeats 8000000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_in0, before_in1, before_in2, before_in3, before_in4, before_in5]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms0 t) fullShare ((dat V c).after 0 t) from by
    unfold Dat.leavesExact; rw [in0_live t], after_in0]
  rw [show (dat V c).leavesExact 1 t = owns (c : Thread nD τ) (ms1 t) fullShare ((dat V c).after 1 t) from by
    unfold Dat.leavesExact; rw [in1_live t], after_in1]
  rw [show (dat V c).leavesExact 2 t = owns (c : Thread nD τ) (ms2 t) fullShare ((dat V c).after 2 t) from by
    unfold Dat.leavesExact; rw [in2_live t], after_in2]
  rw [show (dat V c).leavesExact 3 t = owns (c : Thread nD τ) (ms3 t) fullShare ((dat V c).after 3 t) from by
    unfold Dat.leavesExact; rw [in3_live t], after_in3]
  rw [show (dat V c).leavesExact 4 t = owns (c : Thread nD τ) (ms4 t) fullShare ((dat V c).after 4 t) from by
    unfold Dat.leavesExact; rw [in4_live t], after_in4]
  rw [show (dat V c).leavesExact 5 t = owns (c : Thread nD τ) (ms5 t) fullShare ((dat V c).after 5 t) from by
    unfold Dat.leavesExact; rw [in5_live t], after_in5]
  by_cases h0 : t.val % 8 = 0
  · have h7 : ¬t.val % 8 = 7 := by omega
    rw [Dat.leavesExact_idle (dat V c) 6 t (out_idle t (fun h => h7 ((isLast_iff t).mp h))) (out_noFlush t (fun h => h7 ((isLast_iff t).mp h)))]
    rw [outsAt_first V c t h0 h7]
    unfold accFirst; (try dsimp only)
    by_cases hz : t.val = 0
    · rw [PhiS_castSucc V c t, PhiS_zero V c _ _ hz, PhiA_eq]
      unfold withOthers
      iintro ⟨⟨⟨A1, A2, A3, A4, A5, HS⟩, Hg⟩, Ho, ⟨%d0, H0⟩, ⟨%d1, H1⟩, ⟨%d2, H2⟩, ⟨%d3, H3⟩, ⟨%d4, H4⟩, ⟨%d5, H5⟩, ⟨%d6, H6⟩⟩
      iapply ((runFirst c (grid1.coords t) _ _ _ _ _ _ _ _ _ _ _ _ _ _ _ _ ((isFirst_iff t).mpr h0) (fun h => h7 ((isLast_iff t).mp h)) (iblk V c 0 t) (iblk V c 1 t) (iblk V c 2 t) (iblk V c 3 t) (iblk V c 4 t) (iblk V c 5 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, ⟨%es, HS⟩⟩
      isplitl [A1 A2 A3 A4 A5 HS Hg]
      · isplitl [A1 A2 A3 A4 A5 HS]
        · isplitl [A1]; · iexact A1
          isplitl [A2]; · iexact A2
          isplitl [A3]; · iexact A3
          isplitl [A4]; · iexact A4
          isplitl [A5]; · iexact A5
          unfold owns; iexists _; isplitr
          swap; · iexact HS
          ipureintro; exact View.read_writes_of_cover _ _ _ _ _ (accCover_first c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS_castSucc V c t, PhiS_pos V c _ _ hz]
      unfold withOthers
      iintro ⟨⟨⟨A1, A2, A3, A4, A5, HS⟩, Hg⟩, Ho, ⟨%d0, H0⟩, ⟨%d1, H1⟩, ⟨%d2, H2⟩, ⟨%d3, H3⟩, ⟨%d4, H4⟩, ⟨%d5, H5⟩, ⟨%d6, H6⟩⟩
      iapply ((runFirst c (grid1.coords t) _ _ _ _ _ _ _ _ _ _ _ _ _ _ _ _ ((isFirst_iff t).mpr h0) (fun h => h7 ((isLast_iff t).mp h)) (iblk V c 0 t) (iblk V c 1 t) (iblk V c 2 t) (iblk V c 3 t) (iblk V c 4 t) (iblk V c 5 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexists _; iexact HS
      iintro ⟨H0, H1, H2, H3, H4, H5, H6, ⟨%es, HS⟩⟩
      isplitl [A1 A2 A3 A4 A5 HS Hg]
      · isplitl [A1 A2 A3 A4 A5 HS]
        · isplitl [A1]; · iexact A1
          isplitl [A2]; · iexact A2
          isplitl [A3]; · iexact A3
          isplitl [A4]; · iexact A4
          isplitl [A5]; · iexact A5
          unfold owns; iexists _; isplitr
          swap; · iexact HS
          ipureintro; exact View.read_writes_of_cover _ _ _ _ _ (accCover_first c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun h => h0 (by rw [h])
    by_cases h7 : t.val % 8 = 7
    · rw [show (dat V c).leavesExact 6 t = owns (c : Thread nD τ) (ms6 t) fullShare ((dat V c).after 6 t) from by
        unfold Dat.leavesExact; rw [out_live t ((isLast_iff t).mpr h7)], after_out]
      rw [outsAt_last V c t h0 h7]
      unfold outLast accLast; (try dsimp only)
      rw [PhiS_castSucc V c t, PhiS_pos V c _ _ hz]
      unfold withOthers
      iintro ⟨⟨⟨A1, A2, A3, A4, A5, HS⟩, Hg⟩, Ho, ⟨%d0, H0⟩, ⟨%d1, H1⟩, ⟨%d2, H2⟩, ⟨%d3, H3⟩, ⟨%d4, H4⟩, ⟨%d5, H5⟩, ⟨%d6, H6⟩⟩
      iapply ((runLast c (grid1.coords t) _ _ _ _ _ _ _ _ _ _ _ _ _ _ _ _ (fun h => h0 ((isFirst_iff t).mp h)) ((isLast_iff t).mpr h7) (iblk V c 0 t) (iblk V c 1 t) (iblk V c 2 t) (iblk V c 3 t) (iblk V c 4 t) (iblk V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, ⟨%e6, H6⟩, ⟨%es, HS⟩⟩
      isplitl [A1 A2 A3 A4 A5 HS Hg]
      · isplitl [A1 A2 A3 A4 A5 HS]
        · isplitl [A1]; · iexact A1
          isplitl [A2]; · iexact A2
          isplitl [A3]; · iexact A3
          isplitl [A4]; · iexact A4
          isplitl [A5]; · iexact A5
          unfold owns; iexists _; isplitr
          swap; · iexact HS
          ipureintro; exact View.read_writes_of_cover _ _ _ _ _ (accCover_last c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (outCover_last c _ _ _ _ _ _ _ _ _ _ _ _ _ _ _ _ _ _ _ _ _ _ _ _ _ _)
    · rw [Dat.leavesExact_idle (dat V c) 6 t (out_idle t (fun h => h7 ((isLast_iff t).mp h))) (out_noFlush t (fun h => h7 ((isLast_iff t).mp h)))]
      rw [outsAt_mid V c t h0 h7]
      unfold accMid; (try dsimp only)
      rw [PhiS_castSucc V c t, PhiS_pos V c _ _ hz]
      unfold withOthers
      iintro ⟨⟨⟨A1, A2, A3, A4, A5, HS⟩, Hg⟩, Ho, ⟨%d0, H0⟩, ⟨%d1, H1⟩, ⟨%d2, H2⟩, ⟨%d3, H3⟩, ⟨%d4, H4⟩, ⟨%d5, H5⟩, ⟨%d6, H6⟩⟩
      iapply ((runMid c (grid1.coords t) _ _ _ _ _ _ _ _ _ _ _ _ _ _ _ _ (fun h => h0 ((isFirst_iff t).mp h)) (fun h => h7 ((isLast_iff t).mp h)) (iblk V c 0 t) (iblk V c 1 t) (iblk V c 2 t) (iblk V c 3 t) (iblk V c 4 t) (iblk V c 5 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, ⟨%es, HS⟩⟩
      isplitl [A1 A2 A3 A4 A5 HS Hg]
      · isplitl [A1 A2 A3 A4 A5 HS]
        · isplitl [A1]; · iexact A1
          isplitl [A2]; · iexact A2
          isplitl [A3]; · iexact A3
          isplitl [A4]; · iexact A4
          isplitl [A5]; · iexact A5
          unfold owns; iexists _; isplitr
          swap; · iexact HS
          ipureintro; exact View.read_writes_of_cover _ _ _ _ _ (accCover_mid c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

theorem body_obligation (c : Dev nD) : BodyObligation (dat (F := F) V c) (defs₀ (F := F)) Variants.none () Set.univ := fun t => by
  rw [bigSep_W1, bigSep_W1]
  exact sound_body V c t

/-! ## The invariant's two ends -/

theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

theorem hout (c : Dev nD) : (dat V c).Φ (Fin.last cfg1.N) ⊢ Pipeline.ΦA spec1 c := by
  have hN : (Fin.last cfg1.N).val ≠ 0 := by rw [Fin.val_last]; have : cfg1.N = 64 := N_1; omega
  rw [show (dat V c).Φ (Fin.last cfg1.N) = PhiS V c (Fin.last cfg1.N).val (Nat.le_of_lt_succ (Fin.last cfg1.N).isLt) from rfl, PhiS_pos V c _ _ hN, PhiA_eq]
  unfold withOthers
  iintro ⟨⟨A1, A2, A3, A4, A5, HS⟩, Hg⟩
  isplitl [A1 A2 A3 A4 A5 HS]
  · isplitl [A1]; · iexact A1
    isplitl [A2]; · iexact A2
    isplitl [A3]; · iexact A3
    isplitl [A4]; · iexact A4
    isplitl [A5]; · iexact A5
    iexists _; iexact HS
  iexact Hg

end Cert.KernelIdeal.Agg

end
-- ==== Proof.KI.Run.lean ====
/-
  The whole program as three items -- the degree pass, three host operations (y = d * x spread over the columns, the
  bias as a row), the aggregation pass -- and what every unscoped buffer holds at the end.

  The buffers' contents are followed from the launch: after the degree pass its two arrays hold what the pass's
  write-backs leave and everything else is as before; the host operations then act on that; after the aggregation pass
  its seven arrays hold what its write-backs leave. Each pass is entered with its arrays split out of the unscoped
  buffers and left with them put back; its invariant receives the pass's own scratch at anything and gives it back at
  anything. The run ends with every unscoped buffer at the last contents `W3`, so the four arguments are as launched.
-/
import proofs.«179909_j2903397893032_1_alg».proof.Proof.KI.DegFrame
import proofs.«179909_j2903397893032_1_alg».proof.Proof.KI.AggFrame
import Idealize.ShloMosaic.Lib.Pipeline.RegionsLoop
import Idealize.ShloMosaic.Lib.Pipeline.FrameSuffix

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary -/

/-- At launch (the degree pass's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the degree pass: its arrays at what its write-backs leave, the rest as entered. -/
def W1 (c : Dev nD) : Valuation τ sig (Elt F) :=
  Pipeline.withArrays spec0 c (W0 m ρ c) fun w => (Deg.dat (V0 m ρ) c).arrAt w cfg0.N
theorem W1_arr (c : Dev nD) (w : Fin cfg0.W) :
    W1 m ρ c (Proc.devRef .tc (Pipeline.arrRef spec0 w)) = (Deg.dat (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (Deg.dat (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the host operations (the aggregation pass's entry). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- After the aggregation pass. -/
def W3 (c : Dev nD) : Valuation τ sig (Elt F) :=
  Pipeline.withArrays spec1 c (W2 m ρ c) fun w => (Agg.dat (V2 m ρ) c).arrAt w cfg1.N
theorem W3_arr (c : Dev nD) (w : Fin cfg1.W) :
    W3 m ρ c (Proc.devRef .tc (Pipeline.arrRef spec1 w)) = (Agg.dat (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (Agg.dat (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The arguments end as launched -/

/-- x: an input of the aggregation pass only. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := (W3_arr m ρ c 2).trans (((Agg.dat (V2 m ρ) c).arrAt_in 2 rfl _).trans (Agg.A_eq (V2 m ρ) c 2))
    _ = W1 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := W1_of_ne m ρ c main_arg0 (by decide)
    _ = m ((c : Thread nD τ).loc main_arg0) := rfl
/-- The adjacency matrix: an input of both passes. -/
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := (W3_arr m ρ c 0).trans (((Agg.dat (V2 m ρ) c).arrAt_in 0 rfl _).trans (Agg.A_eq (V2 m ρ) c 0))
    _ = W1 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg1) := (W1_arr m ρ c 0).trans (((Deg.dat (V0 m ρ) c).arrAt_in 0 rfl _).trans (Deg.A_eq (V0 m ρ) c 0))
    _ = m ((c : Thread nD τ).loc main_arg1) := rfl
/-- W: an input of the aggregation pass only. -/
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := (W3_arr m ρ c 4).trans (((Agg.dat (V2 m ρ) c).arrAt_in 4 rfl _).trans (Agg.A_eq (V2 m ρ) c 4))
    _ = W1 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := W1_of_ne m ρ c main_arg2 (by decide)
    _ = m ((c : Thread nD τ).loc main_arg2) := rfl
/-- b: read by a host operation only. -/
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg3) := W1_of_ne m ρ c main_arg3 (by decide)
    _ = m ((c : Thread nD τ).loc main_arg3) := rfl
/-- The result: the aggregation pass's output array. -/
theorem W3_main_v4 (c : Dev nD) : W3 m ρ c (Proc.devRef .tc main_v4) = (Agg.dat (V2 m ρ) c).arrAt 6 cfg1.N :=
  W3_arr m ρ c 6

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => Deg.dat (V0 m ρ) c
  | ⟨1, _⟩ => fun c => Agg.dat (V2 m ρ) c
abbrev 𝒱₀ : Variants := Variants.none
abbrev L : GSem nD τ sig → Finset Unit := fun _ => ∅
abbrev lv : GSem nD τ sig → Unit → ℕ := fun _ _ => 0
/-- What rides beside the buffers through every item: the random-number register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The two passes as items -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Deg.body_obligation (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec0 c ⊢ (pdats m ρ 0 c).Φ 0 from Deg.hin (V0 m ρ) c)
    unfold Pipeline.ΦA
    iintro ⟨Hp, -, Hr⟩
    isplitl [Hr]; · iexact Hr
    iexact Hp
  hout c := by
    rw [Pipeline.ownSems0_none]
    refine BIBase.Entails.trans (show (pdats m ρ 0 c).Φ (Fin.last _) ⊢ Pipeline.ΦA spec0 c from Deg.hout (V0 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Agg.body_obligation (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec1 c ⊢ (pdats m ρ 1 c).Φ 0 from Agg.hin (V2 m ρ) c)
    unfold Pipeline.ΦA
    iintro ⟨Hp, -, Hr⟩
    isplitl [Hr]; · iexact Hr
    iexact Hp
  hout c := by
    rw [Pipeline.ownSems0_none]
    refine BIBase.Entails.trans (show (pdats m ρ 1 c).Φ (Fin.last _) ⊢ Pipeline.ΦA spec1 c from Agg.hout (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program is the three items in order -/

/-- No host operation allocates a buffer. -/
theorem hostOps1_fresh : (hostOps1 : List (HloOp τ sig (Elt F))).Forall fun op => op.fresh = ∅ := by
  simp only [List.Forall]; repeat' constructor

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ) ]
theorem main_run (c : Dev nD) : main (F := F) c = Pipeline.Seg.run (segs m ρ) := (main_chain c).trans (by chain_rfl)

set_option backward.isDefEq.respectTransparency.types false in
/-- Every weakly fair execution from memory `m` terminates without a fault, and at the end every unscoped buffer of
    every core holds the last contents `W3`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The frame: the four arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run m ρ)

end Cert.KernelIdeal.Run

end
-- ==== Proof.KI.DegPieces.lean ====
/-
  The degree pass, part four: each case's pieces as arithmetic.

  With s (v, x) = v + (lane sums of x) the body's accumulation step and z its zero vector: the first case leaves
  s (z, block) in the accumulator, the other two leave s (what the point before left, block), and the last case
  stores rsqrt (that + 1) into the output block.
-/
import proofs.«179909_j2903397893032_1_alg».proof.Proof.KI.DegFrame
import Idealize.ShloMosaic.Lib.Pipeline.Value

set_option maxRecDepth 16384

noncomputable section

namespace Cert.KernelIdeal.Deg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem hz : (![0, 0] : Fin 2 → Nat) = fun _ => 0 := funext fun a => by fin_cases a <;> rfl

theorem accFirst_eq (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1 .f32) (harg4 : arg4.IsWhole) (hF : isFirst i) (hL : ¬isLast i) (x0 : Vec F S1024x1024 .f32) :
    accFirst c i arg2 harg2 arg3 harg3 arg4 harg4 hF hL x0 = k0_pay2 (k0_pay1 (F := F)) x0 := by
  unfold accFirst
  rw [View.read_writes_eq_canon _ _ _ (accCover_first c i arg2 harg2 arg3 harg3 arg4 harg4 hF hL x0)]
  unfold runFirst
  dsimp only
  try sl_unfold_words
  rw [View.canon_cons_unit_zero hz, View.readCov_unit_zero (S := S1024x1) _ hz]
  simp only [View.readAt_eq_ld, harg2.read_unread, View.ld_unit_zero (S := S1024x1024) hz]

theorem accMid_eq (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1 .f32) (harg4 : arg4.IsWhole) (hF : ¬isFirst i) (hL : ¬isLast i) (x0 : Vec F S1024x1024 .f32) (xs : Vec F S1024x1 .f32) :
    accMid c i arg2 harg2 arg3 harg3 arg4 harg4 hF hL x0 xs = k0_pay2 xs x0 := by
  unfold accMid
  rw [View.read_writes_eq_canon _ _ _ (accCover_mid c i arg2 harg2 arg3 harg3 arg4 harg4 hF hL x0 xs)]
  unfold runMid
  dsimp only
  try sl_unfold_words
  rw [View.canon_unit_zero hz]
  simp only [View.readAt_eq_ld, harg2.read_unread, harg4.read_unread, View.ld_unit_zero (S := S1024x1) hz, View.ld_unit_zero (S := S1024x1024) hz]

theorem accLast_eq (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1 .f32) (harg4 : arg4.IsWhole) (hF : ¬isFirst i) (hL : isLast i) (x0 : Vec F S1024x1024 .f32) (xs : Vec F S1024x1 .f32) :
    accLast c i arg2 harg2 arg3 harg3 arg4 harg4 hF hL x0 xs = k0_pay2 xs x0 := by
  unfold accLast
  rw [View.read_writes_eq_canon _ _ _ (accCover_last c i arg2 harg2 arg3 harg3 arg4 harg4 hF hL x0 xs)]
  unfold runLast
  dsimp only
  try sl_unfold_words
  rw [View.canon_unit_zero hz]
  simp only [View.readAt_eq_ld, harg2.read_unread, harg4.read_unread, View.ld_unit_zero (S := S1024x1) hz, View.ld_unit_zero (S := S1024x1024) hz]

theorem outLast_eq (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1 .f32) (harg4 : arg4.IsWhole) (hF : ¬isFirst i) (hL : isLast i) (x0 : Vec F S1024x1024 .f32) (xs : Vec F S1024x1 .f32) :
    outLast c i arg2 harg2 arg3 harg3 arg4 harg4 hF hL x0 xs = k0_pay3 (k0_pay2 xs x0) := by
  unfold outLast
  rw [View.read_writes_eq_canon _ _ _ (outCover_last c i arg2 harg2 arg3 harg3 arg4 harg4 hF hL x0 xs)]
  unfold runLast
  dsimp only
  try sl_unfold_words
  rw [View.canon_unit_zero hz, View.readCov_unit_zero (S := S1024x1) _ hz]
  simp only [View.readAt_eq_ld, harg2.read_unread, harg4.read_unread, View.ld_unit_zero (S := S1024x1) hz, View.ld_unit_zero (S := S1024x1024) hz]

end Cert.KernelIdeal.Deg

end
-- ==== Proof.LibKeepdims.lean ====
/-
  Layout operations of a `keepdims` reduction, read at an index given by coordinates, and a rank-2 float sum along one
  axis read at the extended reals.

  A vector of `a` entries viewed as an `a × 1` column holds entry `i` at `(i, 0)`; an `a × 1` column broadcast to
  `a × b` holds, at `(p, c)`, the column's entry `(p, 0)`; the sum of an `a × b` array along its second axis is, at
  row `r`, the sum over the `b` columns of the entries of that row, and along its first axis, at column `c`, the sum
  over the `a` rows of the entries of that column.  Indices are written with the literal-size constructors
  `ix1`, `ix2`, so that each lemma applies to a printed operation by unification.
-/
import Idealize.ShloMosaic.Lib.Pipeline.Value
import Idealize.ShloMosaic.Lib.ValueIdx
import Idealize.ShloMosaic.PureOps.Ideal.Laws

open scoped BigOperators

namespace Cert.LibKeepdims

open Idealize.ShloMosaic Idealize.ShloMosaic.ValueIdx

variable {α : Type}

/-- A vector cast to a column, `[a] → [a, 1]`, reads entry `i` at `(i, 0)`: both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast along its unit axis, `[a, 1] → [a, b]`, reads at `(p, c)` the column's entry `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

variable {φ : FTy}

/-- ROW SUMS. At the extended reals the float sum of an `a × b` array along its second axis is, at row `r`, the sum
    over the columns `c` of the entries `(r, c)`. -/
theorem multiReduction_add_rows {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ c : Fin b, src (ix2 r c) := by
  refine (Ideal.multiReduction_add_single src acc h hφ hacc (ix1 r)).trans ?_
  refine Finset.sum_congr rfl fun c _ => congrArg src (funext fun ax => Fin.ext ?_)
  rw [h.lift_val]
  unfold Shape.Reduces.liftVal
  match ax with
  | ⟨0, _⟩ => rfl
  | ⟨1, _⟩ => rfl

/-- COLUMN SUMS. Along its first axis the sum is, at column `c`, the sum over the rows `r` of the entries `(r, c)`. -/
theorem multiReduction_add_cols {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (c : Fin b) :
    multiReduction .add [0] ⟨1, ![b]⟩ src acc h hφ hacc (ix1 c) = ∑ r : Fin a, src (ix2 r c) := by
  refine (Ideal.multiReduction_add_single src acc h hφ hacc (ix1 c)).trans ?_
  refine Finset.sum_congr rfl fun r _ => congrArg src (funext fun ax => Fin.ext ?_)
  rw [h.lift_val]
  unfold Shape.Reduces.liftVal
  match ax with
  | ⟨0, _⟩ => rfl
  | ⟨1, _⟩ => rfl

end Cert.LibKeepdims
-- ==== Proof.Spec.lean ====
/-
  The graph-convolution layer as two arrangements of one formula, over the extended reals.

  A is the n x n adjacency matrix, X the n x 128 features, W the 128 x 128 weights, B the bias; n = 8192.

  One arrangement (the two-pass one): the degree of node i is deg i = (sum over j of A i j) + 1, its inverse square root
  d i = rsqrt (deg i); the features are scaled first, y j = d j * X j, then aggregated, acc i = sum over j of A i j * y j,
  and the self-loop is added as a separate term: h i = d i * acc i + (d i * d i) * X i.

  The other (the matrix one): the self-loops are put into the matrix, A' i j = A i j + [i = j]; the degree is
  deg' i = 0 + sum over j of A' i j; the matrix is scaled on both sides, N i j = (A' i j * d' i) * d' j, and
  h' i = sum over j of N i j * X j.

  Both end with out i u = max ((sum over f of h i f * W f u) + B u, 0).

  On real entries with positive degrees the two are equal (`Cert.Gcn.law`, in the module that proves it): then every
  d i is a positive real, products distribute over the finite sums, and the j = i term of the second arrangement is
  the first one's self-loop term.
-/
import Idealize.ShloMosaic.PureOps.Ideal
import Idealize.ShloMosaic.Lib.ValueIdx

noncomputable section

open scoped BigOperators

namespace Cert.Gcn

open Idealize.ShloMosaic Idealize.ShloMosaic.ValueIdx

/-- A rank-2 array of extended reals as a function of its two coordinates. -/
def mat {a b : ℕ} (x : (⟨2, ![a, b]⟩ : Shape).Idx → EReal) : Fin a → Fin b → EReal := fun i j => x (ix2 i j)
/-- A rank-1 array of extended reals as a function of its coordinate. -/
def vec {a : ℕ} (x : (⟨1, ![a]⟩ : Shape).Idx → EReal) : Fin a → EReal := fun i => x (ix1 i)

variable (A : Fin 8192 → Fin 8192 → EReal) (X : Fin 8192 → Fin 128 → EReal) (W : Fin 128 → Fin 128 → EReal) (B : Fin 128 → EReal)

/-! ## The two-pass arrangement -/

def degK (i : Fin 8192) : EReal := (∑ j : Fin 8192, A i j) + 1
def dK (i : Fin 8192) : EReal := Ideal.rsqrt (degK A i)
def yK (j : Fin 8192) (f : Fin 128) : EReal := dK A j * X j f
def accK (i : Fin 8192) (f : Fin 128) : EReal := ∑ j : Fin 8192, A i j * yK A X j f
def hK (i : Fin 8192) (f : Fin 128) : EReal := dK A i * accK A X i f + (dK A i * dK A i) * X i f
def outK (i : Fin 8192) (u : Fin 128) : EReal := max ((∑ f : Fin 128, hK A X i f * W f u) + B u) 0

/-! ## The matrix arrangement -/

def eye (i j : Fin 8192) : EReal := if i = j then 1 else 0
def degR (i : Fin 8192) : EReal := 0 + ∑ j : Fin 8192, (A i j + eye i j)
def dR (i : Fin 8192) : EReal := Ideal.rsqrt (degR A i)
def normR (i j : Fin 8192) : EReal := ((A i j + eye i j) * dR A i) * dR A j
def hR (i : Fin 8192) (f : Fin 128) : EReal := ∑ j : Fin 8192, normR A i j * X j f
def outR (i : Fin 8192) (u : Fin 128) : EReal := max ((∑ f : Fin 128, hR A X i f * W f u) + B u) 0

end Cert.Gcn

end
-- ==== Proof.KI.DegValue.lean ====
/-
  The degree pass, part five: the array it leaves, at the extended reals.

  Write a (row, j) for the adjacency matrix's entries as the pass finds them (0 outside the matrix). After the body at
  point t = 8 i + k the accumulator's row r holds the sum of a (1024 i + r, j) over j < 1024 (k + 1): the k = 0 case
  starts it at the first block's lane sums, every later case adds the next block's. So at k = 7 it holds the whole row
  sum, and the output block receives rsqrt (row sum + 1). The output blocks written back after the points with k = 7
  tile the 8192 x 1 array, which therefore ends holding rsqrt (row sum + 1) at every row.
-/
import proofs.«179909_j2903397893032_1_alg».proof.Proof.KI.DegPieces
import proofs.«179909_j2903397893032_1_alg».proof.Proof.LibKeepdims
import proofs.«179909_j2903397893032_1_alg».proof.Proof.Spec
import Idealize.ShloMosaic.Lib.Pipeline.Value
import Idealize.ShloMosaic.Lib.ValueIdx
import Idealize.ShloMosaic.Lib.IdealHost
import Idealize.ShloMosaic.PureOps.Ideal.Laws

set_option maxRecDepth 16384

noncomputable section

open scoped BigOperators

namespace Cert.KernelIdeal.Deg

open Cert.KernelIdeal Cert.KernelIdeal.Gen
open Idealize.ShloMosaic Idealize.ShloMosaic.TcCoe Idealize.ShloMosaic.ValueIdx Idealize.SL.Sem
open Idealize.ShloMosaic.Pipeline (Dat)

/-! ## The body's arithmetic at an index -/

theorem pay1_apply (y : S1024x1.Idx) : (k0_pay1 (F := Ideal)) y = 0 := by
  unfold k0_pay1
  rw [shapeCast_self]
  exact Ideal.ofBits_zero_f32

theorem pay2_apply (xs : Vec Ideal S1024x1 .f32) (x0 : Vec Ideal S1024x1024 .f32) (r : Fin 1024) :
    k0_pay2 xs x0 (ix2 r (0 : Fin 1)) = xs (ix2 r (0 : Fin 1)) + ∑ l : Fin 1024, x0 (ix2 r l) := by
  unfold k0_pay2
  rw [shapeCast_self, addf_apply, Cert.LibKeepdims.shapeCast_a_a1_apply]
  exact congrArg (xs (ix2 r (0 : Fin 1)) + ·) (Cert.LibKeepdims.multiReduction_add_rows x0 _ _ _ _ r)

theorem pay3_apply (v : Vec Ideal S1024x1 .f32) (y : S1024x1.Idx) :
    k0_pay3 v y = Ideal.rsqrt (v y + 1) := by
  unfold k0_pay3
  show Ideal.rsqrt (v y + Ideal.ofBits .f32 0x3F800000#32) = _
  rw [Ideal.ofBits_one_f32]

variable (V : (c : Dev nD) → (b : Ref sig .tc) → Buf (Elt Ideal) ((c : Thread nD τ).loc b)) (c : Dev nD)

/-! ## The adjacency blocks -/

theorem idx_adj : ∀ t : Fin cfg0.N, win0_0.index t 0 = t.val / 8 ∧ win0_0.index t 1 = t.val % 8 :=
  (by decide +kernel : ∀ t : Fin grid0.N, win0_0.index t 0 = t.val / 8 ∧ win0_0.index t 1 = t.val % 8)

/-- Block (i, k) of the adjacency matrix: its entry (r, l) is the matrix's entry (1024 i + r, 1024 k + l). -/
theorem iblk_adj_apply (t : Fin cfg0.N) (x : S1024x1024.Idx) (k : S8192x8192.Idx)
    (hk0 : (k 0).val = 1024 * (t.val / 8) + (x 0).val) (hk1 : (k 1).val = 1024 * (t.val % 8) + (x 1).val) :
    (iblk V c 0 t : Vec Ideal S1024x1024 .f32) x = (V c main_arg1 : S8192x8192.Idx → EReal) k := by
  have hi := idx_adj t
  unfold iblk
  rw [View.read_apply]
  show (V c main_arg1 : S8192x8192.Idx → EReal) _ = _
  congr 1
  funext a
  apply Fin.ext
  match a with
  | ⟨0, _⟩ => show win0_0.index t 0 * 1024 + 1 * (x 0).val = (k 0).val; rw [hi.1, hk0]; omega
  | ⟨1, _⟩ => show win0_0.index t 1 * 1024 + 1 * (x 1).val = (k 1).val; rw [hi.2, hk1]; omega

/-- Block (i, k) of the adjacency matrix as an array of extended reals. -/
def blk (t : Fin cfg0.N) : S1024x1024.Idx → EReal := iblk V c 0 t

/-- The adjacency matrix's entry (row, j), zero outside the matrix. -/
def a (row j : ℕ) : EReal :=
  if h : row < 8192 ∧ j < 8192 then (V c main_arg1 : S8192x8192.Idx → EReal) (ix2 ⟨row, h.1⟩ ⟨j, h.2⟩) else 0

theorem blockSum (t : Fin cfg0.N) (r : Fin 1024) :
    ∑ l : Fin 1024, blk V c t (ix2 r l)
      = ∑ l ∈ Finset.range 1024, a V c (1024 * (t.val / 8) + r.val) (1024 * (t.val % 8) + l) := by
  rw [Finset.sum_range]
  refine Finset.sum_congr rfl fun l _ => ?_
  have ht : t.val < 64 := lt_of_lt_of_eq t.isLt (show cfg0.N = 64 from N_0)
  have h1 : 1024 * (t.val / 8) + r.val < 8192 := by have := r.isLt; omega
  have h2 : 1024 * (t.val % 8) + l.val < 8192 := by have := l.isLt; omega
  unfold a
  rw [dif_pos ⟨h1, h2⟩]
  exact iblk_adj_apply V c t (ix2 r l) _ rfl rfl

/-! ## The accumulator, point by point -/

theorem acc_step_first (t : Fin cfg0.N) (h0 : t.val % 8 = 0) (r : Fin 1024) :
    (outsAt V c t.val t.isLt).2 (ix2 r (0 : Fin 1)) = ∑ l : Fin 1024, blk V c t (ix2 r l) := by
  rw [outsAt_first V c t h0 (by omega)]
  dsimp only
  rw [accFirst_eq, pay2_apply, pay1_apply, zero_add]
  rfl

theorem acc_step_next (t : Fin cfg0.N) (h0 : ¬t.val % 8 = 0) (r : Fin 1024) :
    (outsAt V c t.val t.isLt).2 (ix2 r (0 : Fin 1))
      = (outsAt V c (t.val - 1) (Nat.lt_of_le_of_lt (Nat.sub_le _ _) t.isLt)).2 (ix2 r (0 : Fin 1))
        + ∑ l : Fin 1024, blk V c t (ix2 r l) := by
  by_cases h7 : t.val % 8 = 7
  · rw [outsAt_last V c t h0 h7]; dsimp only; rw [accLast_eq, pay2_apply]; rfl
  · rw [outsAt_mid V c t h0 h7]; dsimp only; rw [accMid_eq, pay2_apply]; rfl

/-- After point n = 8 i + k the accumulator's row r is the sum of the first 1024 (k + 1) entries of row 1024 i + r. -/
theorem acc_inv (n : ℕ) (hn : n < cfg0.N) (r : Fin 1024) :
    (outsAt V c n hn).2 (ix2 r (0 : Fin 1)) = ∑ j ∈ Finset.range (1024 * (n % 8 + 1)), a V c (1024 * (n / 8) + r.val) j := by
  induction n with
  | zero =>
    have h := acc_step_first V c ⟨0, hn⟩ rfl r
    rw [show outsAt V c 0 hn = outsAt V c (⟨0, hn⟩ : Fin cfg0.N).val (⟨0, hn⟩ : Fin cfg0.N).isLt from rfl, h, blockSum]
    simp only [Nat.zero_div, Nat.zero_mod, Nat.mul_zero, Nat.zero_add, Nat.mul_one]
  | succ n ih =>
    have hn' : n < cfg0.N := Nat.lt_of_succ_lt hn
    by_cases h0 : (n + 1) % 8 = 0
    · have h := acc_step_first V c ⟨n + 1, hn⟩ h0 r
      rw [show outsAt V c (n + 1) hn = outsAt V c (⟨n + 1, hn⟩ : Fin cfg0.N).val (⟨n + 1, hn⟩ : Fin cfg0.N).isLt from rfl, h, blockSum]
      show ∑ l ∈ Finset.range 1024, a V c (1024 * ((n + 1) / 8) + r.val) (1024 * ((n + 1) % 8) + l) = _
      rw [h0]
      simp only [Nat.mul_zero, Nat.zero_add, Nat.mul_one]
    · have h := acc_step_next V c ⟨n + 1, hn⟩ h0 r
      rw [show outsAt V c (n + 1) hn = outsAt V c (⟨n + 1, hn⟩ : Fin cfg0.N).val (⟨n + 1, hn⟩ : Fin cfg0.N).isLt from rfl, h, blockSum]
      show (outsAt V c n _).2 (ix2 r (0 : Fin 1)) + ∑ l ∈ Finset.range 1024, a V c (1024 * ((n + 1) / 8) + r.val) (1024 * ((n + 1) % 8) + l) = _
      rw [ih hn']
      have hm : (n + 1) % 8 = n % 8 + 1 := by omega
      have hd : (n + 1) / 8 = n / 8 := by omega
      rw [hd, hm, show 1024 * (n % 8 + 1 + 1) = 1024 * (n % 8 + 1) + 1024 from by ring, Finset.sum_range_add]

/-- The whole row sum. -/
def rowSum (row : ℕ) : EReal := ∑ j ∈ Finset.range 8192, a V c row j

/-- At a point with k = 7 the output block's row r receives rsqrt (row sum + 1). -/
theorem out_at_last (t : Fin cfg0.N) (h7 : t.val % 8 = 7) (r : Fin 1024) :
    (outsAt V c t.val t.isLt).1 (ix2 r (0 : Fin 1)) = Ideal.rsqrt (rowSum V c (1024 * (t.val / 8) + r.val) + 1) := by
  have h0 : ¬t.val % 8 = 0 := by omega
  have hacc := acc_inv V c t.val t.isLt r
  rw [outsAt_last V c t h0 h7] at hacc ⊢
  dsimp only at hacc ⊢
  rw [accLast_eq] at hacc
  rw [outLast_eq, pay3_apply, hacc, h7]
  rfl

/-! ## The array the pass leaves -/

/-- rsqrt (row sum + 1) at every row. -/
def dinvArr : S8192x1.Idx → EReal := fun idx => Ideal.rsqrt (rowSum V c (idx 0).val + 1)

theorem idx_out : ∀ t : Fin cfg0.N, win0_1.index t 0 = t.val / 8 ∧ win0_1.index t 1 = 0
    ∧ win0_1.xsize (grid0.coords t) 0 = 1024 ∧ win0_1.xsize (grid0.coords t) 1 = 1 :=
  (by decide +kernel : ∀ t : Fin grid0.N, win0_1.index t 0 = t.val / 8 ∧ win0_1.index t 1 = 0
    ∧ win0_1.xsize (grid0.coords t) 0 = 1024 ∧ win0_1.xsize (grid0.coords t) 1 = 1)

/-- What a point with k = 7 writes back is block i of `dinvArr`. -/
theorem flushed_eq (t : Fin cfg0.N) (hf : (cfg0.win 1).flush t = true) :
    (dat V c).flushed 1 t = ((cfg0.win 1).blk t).view.read (Elt Ideal) (dinvArr V c) := by
  have h7 : t.val % 8 = 7 := (flush0_1 t).mp hf
  have hi := idx_out t
  show (cfg0.win 1).cut (grid0.coords t) ((dat V c).after 1 t) = _
  rw [after_out]
  funext y
  rw [View.read_apply]
  show ((outsAt V c t.val t.isLt).1 : Vec Ideal S1024x1 .f32) y = dinvArr V c (((cfg0.win 1).blk t).view.emb y)
  obtain ⟨r, u, rfl⟩ : ∃ (r : Fin 1024) (u : Fin 1), y = ix2 r u := ⟨y 0, y 1, eq_ix2 y⟩
  obtain rfl : u = 0 := Subsingleton.elim _ _
  rw [out_at_last V c t h7 r]
  unfold dinvArr
  refine congrArg (fun s => Ideal.rsqrt (rowSum V c s + 1)) ?_
  show 1024 * (t.val / 8) + r.val = win0_1.index t 0 * 1024 + 1 * r.val
  rw [hi.1]; omega

theorem final_dinv : (dat V c).arrAt 1 cfg0.N = dinvArr V c :=
  (dat V c).arrAt_eq_of_cover 1 (dinvArr V c) (flushed_eq V c) fun i =>
    have hi0 : (i 0 : ℕ) < 8192 := (i 0).isLt
    have hi1 : (i 1 : ℕ) < 1 := (i 1).isLt
    have hlt : 8 * ((i 0 : ℕ) / 1024) + 7 < cfg0.N := by rw [show cfg0.N = 64 from N_0]; omega
    ⟨⟨8 * ((i 0 : ℕ) / 1024) + 7, hlt⟩, (flush0_1 _).mpr (by show (8 * ((i 0 : ℕ) / 1024) + 7) % 8 = 7; omega), by
      have hx := idx_out ⟨8 * ((i 0 : ℕ) / 1024) + 7, hlt⟩
      show i ∈ ((View.whole main_v0).slice (win0_1.rect ⟨8 * ((i 0 : ℕ) / 1024) + 7, hlt⟩)).set
      rw [View.set_slice_whole, Rect.mem_set_unit]
      intro ax
      match ax with
      | ⟨0, _⟩ =>
        show win0_1.index ⟨8 * ((i 0 : ℕ) / 1024) + 7, hlt⟩ 0 * 1024 ≤ (i 0 : ℕ) ∧ (i 0 : ℕ) < win0_1.index ⟨8 * ((i 0 : ℕ) / 1024) + 7, hlt⟩ 0 * 1024 + win0_1.xsize (grid0.coords ⟨8 * ((i 0 : ℕ) / 1024) + 7, hlt⟩) 0
        rw [hx.1, hx.2.2.1]
        show (8 * ((i 0 : ℕ) / 1024) + 7) / 8 * 1024 ≤ (i 0 : ℕ) ∧ (i 0 : ℕ) < (8 * ((i 0 : ℕ) / 1024) + 7) / 8 * 1024 + 1024
        omega
      | ⟨1, _⟩ =>
        show win0_1.index ⟨8 * ((i 0 : ℕ) / 1024) + 7, hlt⟩ 1 * 1 ≤ (i 1 : ℕ) ∧ (i 1 : ℕ) < win0_1.index ⟨8 * ((i 0 : ℕ) / 1024) + 7, hlt⟩ 1 * 1 + win0_1.xsize (grid0.coords ⟨8 * ((i 0 : ℕ) / 1024) + 7, hlt⟩) 1
        rw [hx.2.1, hx.2.2.2]
        omega⟩

/-- In the specification's words: row i holds the two-pass arrangement's d i. -/
theorem dinvArr_eq (i : Fin 8192) (u : Fin 1) :
    dinvArr V c (ix2 i u) = Cert.Gcn.dK (Cert.Gcn.mat (V c main_arg1 : S8192x8192.Idx → EReal)) i := by
  unfold dinvArr Cert.Gcn.dK Cert.Gcn.degK rowSum
  refine congrArg (fun s => Ideal.rsqrt (s + 1)) ?_
  show ∑ j ∈ Finset.range 8192, a V c i.val j = _
  rw [Finset.sum_range]
  refine Finset.sum_congr rfl fun j _ => ?_
  unfold a Cert.Gcn.mat
  rw [dif_pos ⟨i.isLt, j.isLt⟩]

end Cert.KernelIdeal.Deg

end
-- ==== Proof.KI.AggPieces.lean ====
/-
  The aggregation pass, part four: each case's pieces as arithmetic.

  With p (ys, a, v) = v + a * ys the body's accumulation step (a the adjacency block, ys the 1024 rows of y the block's
  columns meet) and z its zero array: the first case leaves p (ys, a, z) in the accumulator, the other two leave
  p (ys, a, what the point before left), and the last case stores q (d, that, x, W, b) into the output block, q the
  finishing step max ((d * acc + (d * d) * x) W + b, 0).
-/
import proofs.«179909_j2903397893032_1_alg».proof.Proof.KI.AggFrame
import Idealize.ShloMosaic.Lib.Pipeline.Value

set_option maxRecDepth 16384

noncomputable section

namespace Cert.KernelIdeal.Agg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem hz : (![0, 0] : Fin 2 → Nat) = fun _ => 0 := funext fun a => by fin_cases a <;> rfl

theorem accFirst_eq (c : Dev nD) (i : grid1.Coords) (arg2 : Memref sig .tc .vmem S1024x1024 .f32) (harg2 : arg2.IsWhole) (arg3 : Memref sig .tc .vmem S8192x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hF : isFirst i) (hL : ¬isLast i) (x0 : Vec F S1024x1024 .f32) (x1 : Vec F S8192x128 .f32) (x2 : Vec F S1024x128 .f32) (x3 : Vec F S1024x1 .f32) (x4 : Vec F S128x128 .f32) (x5 : Vec F S1x128 .f32) :
    accFirst c i arg2 harg2 arg3 harg3 arg4 harg4 arg5 harg5 arg6 harg6 arg7 harg7 arg8 harg8 arg9 harg9 hF hL x0 x1 x2 x3 x4 x5 = k1_pay2 (View.ld x1 (Rect.unit (s := S8192x128) (k1_off1 i) S1024x128.size (k1_off1_inb i))) x0 (k1_pay1 (F := F)) := by
  unfold accFirst
  rw [View.read_writes_eq_canon _ _ _ (accCover_first c i arg2 harg2 arg3 harg3 arg4 harg4 arg5 harg5 arg6 harg6 arg7 harg7 arg8 harg8 arg9 harg9 hF hL x0 x1 x2 x3 x4 x5)]
  unfold runFirst
  dsimp only
  try sl_unfold_words
  rw [View.canon_cons_unit_zero hz, View.readCov_unit_zero (S := S1024x128) _ hz]
  simp only [View.readAt_eq_ld, harg2.read_unread, harg3.read_unread, harg4.read_unread, harg5.read_unread, harg6.read_unread, harg7.read_unread, harg9.read_unread, View.ld_unit_zero (S := S1024x1024) hz, View.ld_unit_zero (S := S1024x128) hz, View.ld_unit_zero (S := S1024x1) hz, View.ld_unit_zero (S := S128x128) hz, View.ld_unit_zero (S := S1x128) hz]

theorem accMid_eq (c : Dev nD) (i : grid1.Coords) (arg2 : Memref sig .tc .vmem S1024x1024 .f32) (harg2 : arg2.IsWhole) (arg3 : Memref sig .tc .vmem S8192x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hF : ¬isFirst i) (hL : ¬isLast i) (x0 : Vec F S1024x1024 .f32) (x1 : Vec F S8192x128 .f32) (x2 : Vec F S1024x128 .f32) (x3 : Vec F S1024x1 .f32) (x4 : Vec F S128x128 .f32) (x5 : Vec F S1x128 .f32) (xs : Vec F S1024x128 .f32) :
    accMid c i arg2 harg2 arg3 harg3 arg4 harg4 arg5 harg5 arg6 harg6 arg7 harg7 arg8 harg8 arg9 harg9 hF hL x0 x1 x2 x3 x4 x5 xs = k1_pay2 (View.ld x1 (Rect.unit (s := S8192x128) (k1_off1 i) S1024x128.size (k1_off1_inb i))) x0 xs := by
  unfold accMid
  rw [View.read_writes_eq_canon _ _ _ (accCover_mid c i arg2 harg2 arg3 harg3 arg4 harg4 arg5 harg5 arg6 harg6 arg7 harg7 arg8 harg8 arg9 harg9 hF hL x0 x1 x2 x3 x4 x5 xs)]
  unfold runMid
  dsimp only
  try sl_unfold_words
  rw [View.canon_unit_zero hz]
  simp only [View.readAt_eq_ld, harg2.read_unread, harg3.read_unread, harg4.read_unread, harg5.read_unread, harg6.read_unread, harg7.read_unread, harg9.read_unread, View.ld_unit_zero (S := S1024x1024) hz, View.ld_unit_zero (S := S1024x128) hz, View.ld_unit_zero (S := S1024x1) hz, View.ld_unit_zero (S := S128x128) hz, View.ld_unit_zero (S := S1x128) hz]

theorem accLast_eq (c : Dev nD) (i : grid1.Coords) (arg2 : Memref sig .tc .vmem S1024x1024 .f32) (harg2 : arg2.IsWhole) (arg3 : Memref sig .tc .vmem S8192x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hF : ¬isFirst i) (hL : isLast i) (x0 : Vec F S1024x1024 .f32) (x1 : Vec F S8192x128 .f32) (x2 : Vec F S1024x128 .f32) (x3 : Vec F S1024x1 .f32) (x4 : Vec F S128x128 .f32) (x5 : Vec F S1x128 .f32) (xs : Vec F S1024x128 .f32) :
    accLast c i arg2 harg2 arg3 harg3 arg4 harg4 arg5 harg5 arg6 harg6 arg7 harg7 arg8 harg8 arg9 harg9 hF hL x0 x1 x2 x3 x4 x5 xs = k1_pay2 (View.ld x1 (Rect.unit (s := S8192x128) (k1_off1 i) S1024x128.size (k1_off1_inb i))) x0 xs := by
  unfold accLast
  rw [View.read_writes_eq_canon _ _ _ (accCover_last c i arg2 harg2 arg3 harg3 arg4 harg4 arg5 harg5 arg6 harg6 arg7 harg7 arg8 harg8 arg9 harg9 hF hL x0 x1 x2 x3 x4 x5 xs)]
  unfold runLast
  dsimp only
  try sl_unfold_words
  rw [View.canon_unit_zero hz]
  simp only [View.readAt_eq_ld, harg2.read_unread, harg3.read_unread, harg4.read_unread, harg5.read_unread, harg6.read_unread, harg7.read_unread, harg9.read_unread, View.ld_unit_zero (S := S1024x1024) hz, View.ld_unit_zero (S := S1024x128) hz, View.ld_unit_zero (S := S1024x1) hz, View.ld_unit_zero (S := S128x128) hz, View.ld_unit_zero (S := S1x128) hz]

theorem outLast_eq (c : Dev nD) (i : grid1.Coords) (arg2 : Memref sig .tc .vmem S1024x1024 .f32) (harg2 : arg2.IsWhole) (arg3 : Memref sig .tc .vmem S8192x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hF : ¬isFirst i) (hL : isLast i) (x0 : Vec F S1024x1024 .f32) (x1 : Vec F S8192x128 .f32) (x2 : Vec F S1024x128 .f32) (x3 : Vec F S1024x1 .f32) (x4 : Vec F S128x128 .f32) (x5 : Vec F S1x128 .f32) (xs : Vec F S1024x128 .f32) :
    outLast c i arg2 harg2 arg3 harg3 arg4 harg4 arg5 harg5 arg6 harg6 arg7 harg7 arg8 harg8 arg9 harg9 hF hL x0 x1 x2 x3 x4 x5 xs = k1_pay3 x3 (k1_pay2 (View.ld x1 (Rect.unit (s := S8192x128) (k1_off1 i) S1024x128.size (k1_off1_inb i))) x0 xs) x2 x4 x5 := by
  unfold outLast
  rw [View.read_writes_eq_canon _ _ _ (outCover_last c i arg2 harg2 arg3 harg3 arg4 harg4 arg5 harg5 arg6 harg6 arg7 harg7 arg8 harg8 arg9 harg9 hF hL x0 x1 x2 x3 x4 x5 xs)]
  unfold runLast
  dsimp only
  try sl_unfold_words
  rw [View.canon_unit_zero hz, View.readCov_unit_zero (S := S1024x128) _ hz]
  simp only [View.readAt_eq_ld, harg2.read_unread, harg3.read_unread, harg4.read_unread, harg5.read_unread, harg6.read_unread, harg7.read_unread, harg9.read_unread, View.ld_unit_zero (S := S1024x1024) hz, View.ld_unit_zero (S := S1024x128) hz, View.ld_unit_zero (S := S1024x1) hz, View.ld_unit_zero (S := S128x128) hz, View.ld_unit_zero (S := S1x128) hz]

end Cert.KernelIdeal.Agg

end
-- ==== Proof.LibMatProd.lean ====
/-
  GENERAL LEMMAS: a plain matrix product, written two ways, read at the ideal values.

  The product of an `R × K` matrix `X` with a `K × N` matrix `W` has entry `(r, q)` equal to
  `∑ k, X (r, k) · W (k, q)`, a sum of `K` products of extended reals (`matProd`).
  Both ways a program can write that product read, at `Ideal`, as this same sum:

  * a matrix unit's `matmul` accumulated into a zero splat (`matmul_zero_eq`), and
  * the host's `dot_general` (`dotGeneral_eq`),

  for ANY dimension record that contracts the left operand's axis 1 with the right operand's axis 0 and keeps
  the other two axes in order, whatever the operands' float formats, precision and schedule. That the record does
  so is stated as four equations of coordinate values (`Contracts`), which a literal record proves by unfolding
  (two by `DotDims.lhsIdx_val_of_single` / `rhsIdx_val_of_single`, two by `dif_neg` / `dif_pos` on its literal
  axis lists). Nothing here needs a finiteness hypothesis: the two sides are the same sum of the same products,
  term by term. Imports the library only.
-/
import Idealize.ShloMosaic.PureOps.Ideal.Laws
import Idealize.ShloMosaic.Lib.ValueIdx

noncomputable section

open scoped BigOperators

namespace Cert.Linear

open Idealize.ShloMosaic Idealize.ShloMosaic.ValueIdx

/-- The shape of a matrix of `a` rows and `b` columns. -/
abbrev Mat (a b : Nat) : Shape := ⟨2, ![a, b]⟩

/-- `X · W`, entry by entry: row `r` of `X` against column `q` of `W`. -/
def matProd {R K N : Nat} (X : (Mat R K).Idx → EReal) (W : (Mat K N).Idx → EReal) : (Mat R N).Idx → EReal :=
  fun i => ∑ k : Fin K, X (ix2 (n0 := R) (n1 := K) (i 0) k) * W (ix2 (n0 := K) (n1 := N) k (i 1))

/-- A dimension record for `[R,K] × [K,N] → [R,N]` that contracts the left operand's columns with the right
    operand's rows: one contracted axis of extent `K`, and at result index `i` and contraction index `q` the left
    operand is read at `(i 0, q)` and the right one at `(q, i 1)`. -/
structure Contracts {R K N : Nat} (d : DotDims (Mat R K) (Mat K N) (Mat R N)) : Prop where
  rank : d.contr.rank = 1
  size : d.contr.size ⟨0, by omega⟩ = K
  lhs0 : ∀ (i : (Mat R N).Idx) (q : d.contr.Idx), (d.lhsIdx i q 0).val = (i 0).val
  lhs1 : ∀ (i : (Mat R N).Idx) (q : d.contr.Idx), (d.lhsIdx i q 1).val = (q ⟨0, by omega⟩).val
  rhs0 : ∀ (i : (Mat R N).Idx) (q : d.contr.Idx), (d.rhsIdx i q 0).val = (q ⟨0, by omega⟩).val
  rhs1 : ∀ (i : (Mat R N).Idx) (q : d.contr.Idx), (d.rhsIdx i q 1).val = (i 1).val

/-- The sum over such a record's contraction index of the operands' products is the sum over `k < K` of
    `X (i 0, k) · W (k, i 1)`: the contraction index is its one coordinate. -/
theorem contraction_sum {R K N : Nat} {d : DotDims (Mat R K) (Mat K N) (Mat R N)} (h : Contracts d)
    (X : (Mat R K).Idx → EReal) (W : (Mat K N).Idx → EReal) (i : (Mat R N).Idx) :
    ∑ q : d.contr.Idx, X (d.lhsIdx i q) * W (d.rhsIdx i q) = matProd X W i := by
  unfold matProd
  rw [← Equiv.sum_comp (contrEquiv1 d K h.rank h.size).symm]
  refine Finset.sum_congr rfl fun k _ => ?_
  have hk := contrEquiv1_symm_val d K h.rank h.size k
  have el : d.lhsIdx i ((contrEquiv1 d K h.rank h.size).symm k) = ix2 (n0 := R) (n1 := K) (i 0) k :=
    funext fun a => Fin.ext (by
      match a with
      | ⟨0, _⟩ => exact h.lhs0 _ _
      | ⟨1, _⟩ => exact (h.lhs1 _ _).trans hk)
  have er : d.rhsIdx i ((contrEquiv1 d K h.rank h.size).symm k) = ix2 (n0 := K) (n1 := N) k (i 1) :=
    funext fun a => Fin.ext (by
      match a with
      | ⟨0, _⟩ => exact (h.rhs0 _ _).trans hk
      | ⟨1, _⟩ => exact h.rhs1 _ _)
  rw [el, er]

/-- A matrix unit's product accumulated into the zero splat is `X · W`, whatever the operands' float formats. -/
theorem matmul_zero_eq {R K N : Nat} {φ₁ φ₂ : FTy} {d : DotDims (Mat R K) (Mat K N) (Mat R N)} (h : Contracts d)
    (prec : Option ContractPrecision) (X : FVec Ideal (Mat R K) φ₁) (W : FVec Ideal (Mat K N) φ₂) :
    FloatOps.matmul d prec X W (constant (F := Ideal) (Mat R N) .f32 0x00000000#32) = matProd X W :=
  funext fun i => (Ideal.matmul_constant_zero_apply d prec X W i).trans (contraction_sum h X W i)

/-- The host's `dot_general` is `X · W`, whatever its precision and schedule. -/
theorem dotGeneral_eq {R K N : Nat} {φ₁ φ₂ : FTy} {d : DotDims (Mat R K) (Mat K N) (Mat R N)} (h : Contracts d)
    (prec : Option ContractPrecision) (sched : HostSchedule) (X : FVec Ideal (Mat R K) φ₁) (W : FVec Ideal (Mat K N) φ₂) :
    FloatOps.dotGeneral d prec sched X W = matProd X W :=
  funext fun i => (Ideal.dotGeneral_apply d prec sched X W i).trans (contraction_sum h X W i)

end Cert.Linear

end
-- ==== Proof.KI.AggValue.lean ====
/-
  The aggregation pass, part five: the array it leaves, at the extended reals.

  Write a (row, j) for the adjacency matrix's entries and y (j, f) for the scaled features as the pass finds them (0
  outside their arrays). After the body at point t = 8 i + k the accumulator's entry (r, f) holds the sum of
  a (1024 i + r, j) * y (j, f) over j < 1024 (k + 1): the k = 0 case starts it at the first block's product, every
  later case adds the next block's. At k = 7 it holds the whole product row, and the output block receives
  max ((d * acc + (d * d) * x) W + b, 0) with d, x the block's rows of the inverse square-root degrees and of the
  features. The output blocks written back after the points with k = 7 tile the 8192 x 128 array.
-/
import proofs.«179909_j2903397893032_1_alg».proof.Proof.KI.AggPieces
import proofs.«179909_j2903397893032_1_alg».proof.Proof.LibKeepdims
import proofs.«179909_j2903397893032_1_alg».proof.Proof.LibMatProd
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

open scoped BigOperators

namespace Cert.KernelIdeal.Agg

open Cert.KernelIdeal Cert.KernelIdeal.Gen
open Idealize.ShloMosaic Idealize.ShloMosaic.TcCoe Idealize.ShloMosaic.ValueIdx Idealize.SL.Sem
open Idealize.ShloMosaic.Pipeline (Dat)

/-! ## The two matrix products' dimension records -/

theorem contracts_adj_y : Cert.Linear.Contracts dot_S1024x1024_S1024x128_S1024x128_1_0_0_1_n_n where
  rank := rfl
  size := rfl
  lhs0 := fun i q => by
    unfold DotDims.lhsIdx
    rw [dif_neg (show ¬(0 : Fin S1024x1024.rank) ∈ dot_S1024x1024_S1024x128_S1024x128_1_0_0_1_n_n.lhsBatch by decide), dif_pos (show (0 : Fin S1024x1024.rank) ∈ dot_S1024x1024_S1024x128_S1024x128_1_0_0_1_n_n.lhsNonContracting by decide)]
    rfl
  lhs1 := fun i q => dot_S1024x1024_S1024x128_S1024x128_1_0_0_1_n_n.lhsIdx_val_of_single rfl i q
  rhs0 := fun i q => dot_S1024x1024_S1024x128_S1024x128_1_0_0_1_n_n.rhsIdx_val_of_single rfl i q
  rhs1 := fun i q => by
    unfold DotDims.rhsIdx
    rw [dif_neg (show ¬(1 : Fin S1024x128.rank) ∈ dot_S1024x1024_S1024x128_S1024x128_1_0_0_1_n_n.rhsBatch by decide), dif_pos (show (1 : Fin S1024x128.rank) ∈ dot_S1024x1024_S1024x128_S1024x128_1_0_0_1_n_n.rhsNonContracting by decide)]
    rfl

theorem contracts_h_w : Cert.Linear.Contracts dot_S1024x128_S128x128_S1024x128_1_0_0_1_n_n where
  rank := rfl
  size := rfl
  lhs0 := fun i q => by
    unfold DotDims.lhsIdx
    rw [dif_neg (show ¬(0 : Fin S1024x128.rank) ∈ dot_S1024x128_S128x128_S1024x128_1_0_0_1_n_n.lhsBatch by decide), dif_pos (show (0 : Fin S1024x128.rank) ∈ dot_S1024x128_S128x128_S1024x128_1_0_0_1_n_n.lhsNonContracting by decide)]
    rfl
  lhs1 := fun i q => dot_S1024x128_S128x128_S1024x128_1_0_0_1_n_n.lhsIdx_val_of_single rfl i q
  rhs0 := fun i q => dot_S1024x128_S128x128_S1024x128_1_0_0_1_n_n.rhsIdx_val_of_single rfl i q
  rhs1 := fun i q => by
    unfold DotDims.rhsIdx
    rw [dif_neg (show ¬(1 : Fin S128x128.rank) ∈ dot_S1024x128_S128x128_S1024x128_1_0_0_1_n_n.rhsBatch by decide), dif_pos (show (1 : Fin S128x128.rank) ∈ dot_S1024x128_S128x128_S1024x128_1_0_0_1_n_n.rhsNonContracting by decide)]
    rfl

/-! ## The body's arithmetic at an index -/

theorem pay1_apply (y : S1024x128.Idx) : (k1_pay1 (F := Ideal)) y = 0 := by
  unfold k1_pay1
  rw [shapeCast_self]
  exact Ideal.ofBits_zero_f32

theorem pay2_apply (ys : Vec Ideal S1024x128 .f32) (a : Vec Ideal S1024x1024 .f32) (v : Vec Ideal S1024x128 .f32) (r : Fin 1024) (f : Fin 128) :
    k1_pay2 ys a v (ix2 r f) = v (ix2 r f) + ∑ l : Fin 1024, a (ix2 r l) * ys (ix2 l f) := by
  unfold k1_pay2
  rw [shapeCast_self, shapeCast_self, addf_apply]
  refine congrArg (v (ix2 r f) + ·) ?_
  refine (congrFun (Cert.Linear.matmul_zero_eq contracts_adj_y none (truncf .bf16 a bitsLt_bf16_f32) (truncf .bf16 ys bitsLt_bf16_f32)) (ix2 r f)).trans ?_
  rfl

theorem pay3_apply (d : Vec Ideal S1024x1 .f32) (acc x : Vec Ideal S1024x128 .f32) (w : Vec Ideal S128x128 .f32) (b : Vec Ideal S1x128 .f32) (r : Fin 1024) (u : Fin 128) :
    k1_pay3 d acc x w b (ix2 r u) = max ((∑ f : Fin 128, (d (ix2 r (0 : Fin 1)) * acc (ix2 r f) + (d (ix2 r (0 : Fin 1)) * d (ix2 r (0 : Fin 1))) * x (ix2 r f)) * w (ix2 f u)) + b (ix2 (0 : Fin 1) u)) 0 := by
  unfold k1_pay3
  rw [maximumf_apply, addf_apply, broadcast_apply, shapeCast_self, shapeCast_self]
  rw [show (FloatOps.ofBits (F := Ideal) FTy.f32 0x00000000#32 : EReal) = 0 from Ideal.ofBits_zero_f32]
  refine congrArg (max · 0) ?_
  refine congrArg₂ (· + ·) ?_ (broadcastTo_1b_ab_apply b _ r u)
  refine (congrFun (Cert.Linear.matmul_zero_eq contracts_h_w none _ (truncf .bf16 w bitsLt_bf16_f32)) (ix2 r u)).trans ?_
  show ∑ f : Fin 128, _ = _
  refine Finset.sum_congr rfl fun f _ => ?_
  have e1 := Cert.LibKeepdims.broadcastTo_a1_ab_apply d broadcasts_S1024x1_S1024x128 r f
  have e2 := Cert.LibKeepdims.broadcastTo_a1_ab_apply (α := EReal) (mulf d d : FVec Ideal S1024x1 .f32) broadcasts_S1024x1_S1024x128 r f
  exact congrArg (· * w (ix2 f u)) (congrArg₂ (· + ·) (congrArg (· * acc (ix2 r f)) e1) (congrArg (· * x (ix2 r f)) e2))

variable (V : (c : Dev nD) → (b : Ref sig .tc) → Buf (Elt Ideal) ((c : Thread nD τ).loc b)) (c : Dev nD)

/-! ## The arrays as the pass finds them -/

def eA : Vec Ideal S8192x8192 .f32 := V c main_arg1
def eY : Vec Ideal S8192x128 .f32 := V c main_v2
def eX : Vec Ideal S8192x128 .f32 := V c main_arg0
def eD : Vec Ideal S8192x1 .f32 := V c main_v0
def eW : Vec Ideal S128x128 .f32 := V c main_arg2
def eB : Vec Ideal S1x128 .f32 := V c main_v3

/-! ## The input blocks -/

theorem idx_in : ∀ t : Fin cfg1.N, win1_0.index t 0 = t.val / 8 ∧ win1_0.index t 1 = t.val % 8
    ∧ win1_1.index t 0 = 0 ∧ win1_1.index t 1 = 0
    ∧ win1_2.index t 0 = t.val / 8 ∧ win1_2.index t 1 = 0
    ∧ win1_3.index t 0 = t.val / 8 ∧ win1_3.index t 1 = 0
    ∧ win1_4.index t 0 = 0 ∧ win1_4.index t 1 = 0
    ∧ win1_5.index t 0 = 0 ∧ win1_5.index t 1 = 0 :=
  (by decide +kernel : ∀ t : Fin grid1.N, win1_0.index t 0 = t.val / 8 ∧ win1_0.index t 1 = t.val % 8
    ∧ win1_1.index t 0 = 0 ∧ win1_1.index t 1 = 0
    ∧ win1_2.index t 0 = t.val / 8 ∧ win1_2.index t 1 = 0
    ∧ win1_3.index t 0 = t.val / 8 ∧ win1_3.index t 1 = 0
    ∧ win1_4.index t 0 = 0 ∧ win1_4.index t 1 = 0
    ∧ win1_5.index t 0 = 0 ∧ win1_5.index t 1 = 0)

/-- Window 0's block read at an index of its array. -/
theorem iblk0_apply (t : Fin cfg1.N) (x : S1024x1024.Idx) (k : S8192x8192.Idx)
    (hk0 : (k 0).val = 1024 * (t.val / 8) + (x 0).val) (hk1 : (k 1).val = 1024 * (t.val % 8) + (x 1).val) :
    (iblk V c 0 t : Vec Ideal S1024x1024 .f32) x = eA V c k := by
  have hi := (idx_in t)
  unfold iblk
  rw [View.read_apply]
  show eA V c _ = _
  congr 1
  funext a
  apply Fin.ext
  match a with
  | ⟨0, _⟩ => show win1_0.index t 0 * 1024 + 1 * (x 0).val = (k 0).val; rw [hi.1, hk0]; omega
  | ⟨1, _⟩ => show win1_0.index t 1 * 1024 + 1 * (x 1).val = (k 1).val; rw [hi.2.1, hk1]; omega

/-- Window 1's block read at an index of its array. -/
theorem iblk1_apply (t : Fin cfg1.N) (x : S8192x128.Idx) (k : S8192x128.Idx)
    (hk0 : (k 0).val = (x 0).val) (hk1 : (k 1).val = (x 1).val) :
    (iblk V c 1 t : Vec Ideal S8192x128 .f32) x = eY V c k := by
  have hi := (idx_in t).2.2
  unfold iblk
  rw [View.read_apply]
  show eY V c _ = _
  congr 1
  funext a
  apply Fin.ext
  match a with
  | ⟨0, _⟩ => show win1_1.index t 0 * 8192 + 1 * (x 0).val = (k 0).val; rw [hi.1, hk0]; omega
  | ⟨1, _⟩ => show win1_1.index t 1 * 128 + 1 * (x 1).val = (k 1).val; rw [hi.2.1, hk1]; omega

/-- Window 2's block read at an index of its array. -/
theorem iblk2_apply (t : Fin cfg1.N) (x : S1024x128.Idx) (k : S8192x128.Idx)
    (hk0 : (k 0).val = 1024 * (t.val / 8) + (x 0).val) (hk1 : (k 1).val = (x 1).val) :
    (iblk V c 2 t : Vec Ideal S1024x128 .f32) x = eX V c k := by
  have hi := (idx_in t).2.2.2.2
  unfold iblk
  rw [View.read_apply]
  show eX V c _ = _
  congr 1
  funext a
  apply Fin.ext
  match a with
  | ⟨0, _⟩ => show win1_2.index t 0 * 1024 + 1 * (x 0).val = (k 0).val; rw [hi.1, hk0]; omega
  | ⟨1, _⟩ => show win1_2.index t 1 * 128 + 1 * (x 1).val = (k 1).val; rw [hi.2.1, hk1]; omega

/-- Window 3's block read at an index of its array. -/
theorem iblk3_apply (t : Fin cfg1.N) (x : S1024x1.Idx) (k : S8192x1.Idx)
    (hk0 : (k 0).val = 1024 * (t.val / 8) + (x 0).val) (hk1 : (k 1).val = (x 1).val) :
    (iblk V c 3 t : Vec Ideal S1024x1 .f32) x = eD V c k := by
  have hi := (idx_in t).2.2.2.2.2.2
  unfold iblk
  rw [View.read_apply]
  show eD V c _ = _
  congr 1
  funext a
  apply Fin.ext
  match a with
  | ⟨0, _⟩ => show win1_3.index t 0 * 1024 + 1 * (x 0).val = (k 0).val; rw [hi.1, hk0]; omega
  | ⟨1, _⟩ => show win1_3.index t 1 * 1 + 1 * (x 1).val = (k 1).val; rw [hi.2.1, hk1]; omega

/-- Window 4's block read at an index of its array. -/
theorem iblk4_apply (t : Fin cfg1.N) (x : S128x128.Idx) (k : S128x128.Idx)
    (hk0 : (k 0).val = (x 0).val) (hk1 : (k 1).val = (x 1).val) :
    (iblk V c 4 t : Vec Ideal S128x128 .f32) x = eW V c k := by
  have hi := (idx_in t).2.2.2.2.2.2.2.2
  unfold iblk
  rw [View.read_apply]
  show eW V c _ = _
  congr 1
  funext a
  apply Fin.ext
  match a with
  | ⟨0, _⟩ => show win1_4.index t 0 * 128 + 1 * (x 0).val = (k 0).val; rw [hi.1, hk0]; omega
  | ⟨1, _⟩ => show win1_4.index t 1 * 128 + 1 * (x 1).val = (k 1).val; rw [hi.2.1, hk1]; omega

/-- Window 5's block read at an index of its array. -/
theorem iblk5_apply (t : Fin cfg1.N) (x : S1x128.Idx) (k : S1x128.Idx)
    (hk0 : (k 0).val = (x 0).val) (hk1 : (k 1).val = (x 1).val) :
    (iblk V c 5 t : Vec Ideal S1x128 .f32) x = eB V c k := by
  have hi := (idx_in t).2.2.2.2.2.2.2.2.2.2
  unfold iblk
  rw [View.read_apply]
  show eB V c _ = _
  congr 1
  funext a
  apply Fin.ext
  match a with
  | ⟨0, _⟩ => show win1_5.index t 0 * 1 + 1 * (x 0).val = (k 0).val; rw [hi.1, hk0]; omega
  | ⟨1, _⟩ => show win1_5.index t 1 * 128 + 1 * (x 1).val = (k 1).val; rw [hi.2, hk1]; omega

/-- The coordinate k of point t. -/
theorem coord_k : ∀ t : Fin cfg1.N, ((grid1.coords t) 1).val = t.val % 8 :=
  (by decide +kernel : ∀ t : Fin grid1.N, ((grid1.coords t) 1).val = t.val % 8)

/-! Each block as an array of extended reals. -/
def aBlk (t : Fin cfg1.N) : Vec Ideal S1024x1024 .f32 := iblk V c 0 t
def yAll (t : Fin cfg1.N) : Vec Ideal S8192x128 .f32 := iblk V c 1 t
def xBlk (t : Fin cfg1.N) : Vec Ideal S1024x128 .f32 := iblk V c 2 t
def dBlk (t : Fin cfg1.N) : Vec Ideal S1024x1 .f32 := iblk V c 3 t
def wAll (t : Fin cfg1.N) : Vec Ideal S128x128 .f32 := iblk V c 4 t
def bAll (t : Fin cfg1.N) : Vec Ideal S1x128 .f32 := iblk V c 5 t
/-- The 1024 rows of y that block (i, k)'s columns meet. -/
def ySl (t : Fin cfg1.N) : Vec Ideal S1024x128 .f32 :=
  View.ld (yAll V c t) (Rect.unit (s := S8192x128) (k1_off1 (grid1.coords t)) S1024x128.size (k1_off1_inb (grid1.coords t)))

/-- The arrays' entries, zero outside. -/
def a (row j : ℕ) : EReal :=
  if h : row < 8192 ∧ j < 8192 then eA V c (ix2 ⟨row, h.1⟩ ⟨j, h.2⟩) else 0
def y (j : ℕ) (f : Fin 128) : EReal :=
  if h : j < 8192 then eY V c (ix2 ⟨j, h⟩ f) else 0
def x (row : ℕ) (f : Fin 128) : EReal :=
  if h : row < 8192 then eX V c (ix2 ⟨row, h⟩ f) else 0
def d (row : ℕ) : EReal :=
  if h : row < 8192 then eD V c (ix2 ⟨row, h⟩ (0 : Fin 1)) else 0

theorem ySl_apply (t : Fin cfg1.N) (l : Fin 1024) (f : Fin 128) :
    ySl V c t (ix2 l f) = y V c (1024 * (t.val % 8) + l.val) f := by
  have ht : t.val < 64 := lt_of_lt_of_eq t.isLt (show cfg1.N = 64 from N_1)
  have h1 : 1024 * (t.val % 8) + l.val < 8192 := by have := l.isLt; omega
  unfold ySl y yAll
  rw [dif_pos h1]
  show (iblk V c 1 t : Vec Ideal S8192x128 .f32) _ = eY V c _
  refine iblk1_apply V c t _ _ ?_ ?_
  · simp only [LoadRect.idx_apply, Rect.off_unit, Rect.stride_unit, Nat.one_mul, k1_off1_eq]
    show 1024 * (t.val % 8) + l.val = 1024 * ((grid1.coords t) 1).val + l.val
    rw [coord_k t]
  · simp only [LoadRect.idx_apply, Rect.off_unit, Rect.stride_unit, Nat.one_mul, k1_off1_eq]
    show f.val = 0 + f.val
    omega

theorem blockProd (t : Fin cfg1.N) (r : Fin 1024) (f : Fin 128) :
    ∑ l : Fin 1024, aBlk V c t (ix2 r l) * ySl V c t (ix2 l f)
      = ∑ l ∈ Finset.range 1024, a V c (1024 * (t.val / 8) + r.val) (1024 * (t.val % 8) + l) * y V c (1024 * (t.val % 8) + l) f := by
  rw [Finset.sum_range]
  refine Finset.sum_congr rfl fun l _ => ?_
  have ht : t.val < 64 := lt_of_lt_of_eq t.isLt (show cfg1.N = 64 from N_1)
  have h1 : 1024 * (t.val / 8) + r.val < 8192 := by have := r.isLt; omega
  have h2 : 1024 * (t.val % 8) + l.val < 8192 := by have := l.isLt; omega
  rw [ySl_apply]
  refine congrArg (· * y V c (1024 * (t.val % 8) + l.val) f) ?_
  unfold a aBlk
  rw [dif_pos ⟨h1, h2⟩]
  exact iblk0_apply V c t (ix2 r l) _ rfl rfl

/-! ## The accumulator, point by point -/

theorem acc_step_first (t : Fin cfg1.N) (h0 : t.val % 8 = 0) (r : Fin 1024) (f : Fin 128) :
    (outsAt V c t.val t.isLt).2 (ix2 r f) = ∑ l : Fin 1024, aBlk V c t (ix2 r l) * ySl V c t (ix2 l f) := by
  rw [outsAt_first V c t h0 (by omega)]
  dsimp only
  rw [accFirst_eq, pay2_apply, pay1_apply, zero_add]
  rfl

theorem acc_step_next (t : Fin cfg1.N) (h0 : ¬t.val % 8 = 0) (r : Fin 1024) (f : Fin 128) :
    (outsAt V c t.val t.isLt).2 (ix2 r f)
      = (outsAt V c (t.val - 1) (Nat.lt_of_le_of_lt (Nat.sub_le _ _) t.isLt)).2 (ix2 r f)
        + ∑ l : Fin 1024, aBlk V c t (ix2 r l) * ySl V c t (ix2 l f) := by
  by_cases h7 : t.val % 8 = 7
  · rw [outsAt_last V c t h0 h7]; dsimp only; rw [accLast_eq, pay2_apply]; rfl
  · rw [outsAt_mid V c t h0 h7]; dsimp only; rw [accMid_eq, pay2_apply]; rfl

/-- After point n = 8 i + k the accumulator's entry (r, f) is the sum over j < 1024 (k + 1) of a (1024 i + r, j) y (j, f). -/
theorem acc_inv (n : ℕ) (hn : n < cfg1.N) (r : Fin 1024) (f : Fin 128) :
    (outsAt V c n hn).2 (ix2 r f) = ∑ j ∈ Finset.range (1024 * (n % 8 + 1)), a V c (1024 * (n / 8) + r.val) j * y V c j f := by
  induction n with
  | zero =>
    have h := acc_step_first V c ⟨0, hn⟩ rfl r f
    rw [show outsAt V c 0 hn = outsAt V c (⟨0, hn⟩ : Fin cfg1.N).val (⟨0, hn⟩ : Fin cfg1.N).isLt from rfl, h, blockProd]
    simp only [Nat.zero_div, Nat.zero_mod, Nat.mul_zero, Nat.zero_add, Nat.mul_one]
  | succ n ih =>
    have hn' : n < cfg1.N := Nat.lt_of_succ_lt hn
    by_cases h0 : (n + 1) % 8 = 0
    · have h := acc_step_first V c ⟨n + 1, hn⟩ h0 r f
      rw [show outsAt V c (n + 1) hn = outsAt V c (⟨n + 1, hn⟩ : Fin cfg1.N).val (⟨n + 1, hn⟩ : Fin cfg1.N).isLt from rfl, h, blockProd]
      show ∑ l ∈ Finset.range 1024, a V c (1024 * ((n + 1) / 8) + r.val) (1024 * ((n + 1) % 8) + l) * y V c (1024 * ((n + 1) % 8) + l) f = _
      rw [h0]
      simp only [Nat.mul_zero, Nat.zero_add, Nat.mul_one]
    · have h := acc_step_next V c ⟨n + 1, hn⟩ h0 r f
      rw [show outsAt V c (n + 1) hn = outsAt V c (⟨n + 1, hn⟩ : Fin cfg1.N).val (⟨n + 1, hn⟩ : Fin cfg1.N).isLt from rfl, h, blockProd]
      show (outsAt V c n _).2 (ix2 r f) + ∑ l ∈ Finset.range 1024, a V c (1024 * ((n + 1) / 8) + r.val) (1024 * ((n + 1) % 8) + l) * y V c (1024 * ((n + 1) % 8) + l) f = _
      rw [ih hn']
      have hm : (n + 1) % 8 = n % 8 + 1 := by omega
      have hd : (n + 1) / 8 = n / 8 := by omega
      rw [hd, hm, show 1024 * (n % 8 + 1 + 1) = 1024 * (n % 8 + 1) + 1024 from by ring, Finset.sum_range_add]

/-- The whole product row. -/
def prodRow (row : ℕ) (f : Fin 128) : EReal := ∑ j ∈ Finset.range 8192, a V c row j * y V c j f

/-- The finished entry (row, u). -/
def outVal (row : ℕ) (u : Fin 128) : EReal :=
  max ((∑ f : Fin 128, (d V c row * prodRow V c row f + (d V c row * d V c row) * x V c row f)
      * eW V c (ix2 f u)) + eB V c (ix2 (0 : Fin 1) u)) 0

/-- At a point with k = 7 the output block's entry (r, u) receives the finished entry of row 1024 i + r. -/
theorem out_at_last (t : Fin cfg1.N) (h7 : t.val % 8 = 7) (r : Fin 1024) (u : Fin 128) :
    (outsAt V c t.val t.isLt).1 (ix2 r u) = outVal V c (1024 * (t.val / 8) + r.val) u := by
  have h0 : ¬t.val % 8 = 0 := by omega
  have ht : t.val < 64 := lt_of_lt_of_eq t.isLt (show cfg1.N = 64 from N_1)
  have h1 : 1024 * (t.val / 8) + r.val < 8192 := by have := r.isLt; omega
  have hacc : ∀ f : Fin 128, (outsAt V c t.val t.isLt).2 (ix2 r f) = prodRow V c (1024 * (t.val / 8) + r.val) f := fun f => by
    rw [acc_inv V c t.val t.isLt r f, h7]; rfl
  rw [outsAt_last V c t h0 h7] at hacc ⊢
  dsimp only at hacc ⊢
  rw [outLast_eq, pay3_apply]
  simp only [accLast_eq] at hacc
  unfold outVal
  refine congrArg (max · 0) ?_
  refine congrArg₂ (· + ·) (Finset.sum_congr rfl fun f _ => ?_) ?_
  · have hd : (iblk V c 3 t : Vec Ideal S1024x1 .f32) (ix2 r (0 : Fin 1)) = d V c (1024 * (t.val / 8) + r.val) := by
      unfold d; rw [dif_pos h1]; exact iblk3_apply V c t (ix2 r (0 : Fin 1)) _ rfl rfl
    have hx : (iblk V c 2 t : Vec Ideal S1024x128 .f32) (ix2 r f) = x V c (1024 * (t.val / 8) + r.val) f := by
      unfold x; rw [dif_pos h1]; exact iblk2_apply V c t (ix2 r f) _ rfl rfl
    have hw : (iblk V c 4 t : Vec Ideal S128x128 .f32) (ix2 f u) = eW V c (ix2 f u) :=
      iblk4_apply V c t (ix2 f u) _ rfl rfl
    rw [hd, hx, hw, hacc f]
  · exact iblk5_apply V c t (ix2 (0 : Fin 1) u) _ rfl rfl

/-! ## The array the pass leaves -/

def outArr : S8192x128.Idx → EReal := fun idx => outVal V c (idx 0).val ⟨(idx 1).val, (idx 1).isLt⟩

theorem idx_out : ∀ t : Fin cfg1.N, win1_6.index t 0 = t.val / 8 ∧ win1_6.index t 1 = 0
    ∧ win1_6.xsize (grid1.coords t) 0 = 1024 ∧ win1_6.xsize (grid1.coords t) 1 = 128 :=
  (by decide +kernel : ∀ t : Fin grid1.N, win1_6.index t 0 = t.val / 8 ∧ win1_6.index t 1 = 0
    ∧ win1_6.xsize (grid1.coords t) 0 = 1024 ∧ win1_6.xsize (grid1.coords t) 1 = 128)

/-- What a point with k = 7 writes back is block i of `outArr`. -/
theorem flushed_eq (t : Fin cfg1.N) (hf : (cfg1.win 6).flush t = true) :
    (dat V c).flushed 6 t = ((cfg1.win 6).blk t).view.read (Elt Ideal) (outArr V c) := by
  have h7 : t.val % 8 = 7 := (flush1_6 t).mp hf
  have hi := idx_out t
  show (cfg1.win 6).cut (grid1.coords t) ((dat V c).after 6 t) = _
  rw [after_out]
  funext yy
  rw [View.read_apply]
  show ((outsAt V c t.val t.isLt).1 : Vec Ideal S1024x128 .f32) yy = outArr V c (((cfg1.win 6).blk t).view.emb yy)
  obtain ⟨r, u, rfl⟩ : ∃ (r : Fin 1024) (u : Fin 128), yy = ix2 r u := ⟨yy 0, yy 1, eq_ix2 yy⟩
  rw [out_at_last V c t h7 r u]
  unfold outArr
  have e0 : ((((cfg1.win 6).blk t).view.emb (ix2 r u)) 0).val = 1024 * (t.val / 8) + r.val := by
    show win1_6.index t 0 * 1024 + 1 * r.val = _
    rw [hi.1]; omega
  have e1 : ((((cfg1.win 6).blk t).view.emb (ix2 r u)) 1).val = u.val := by
    show win1_6.index t 1 * 128 + 1 * u.val = _
    rw [hi.2.1]; omega
  rw [e0]
  exact congrArg (outVal V c _) (Fin.ext e1.symm)

theorem final_out : (dat V c).arrAt 6 cfg1.N = outArr V c :=
  (dat V c).arrAt_eq_of_cover 6 (outArr V c) (flushed_eq V c) fun i =>
    have hi0 : (i 0 : ℕ) < 8192 := (i 0).isLt
    have hi1 : (i 1 : ℕ) < 128 := (i 1).isLt
    have hlt : 8 * ((i 0 : ℕ) / 1024) + 7 < cfg1.N := by rw [show cfg1.N = 64 from N_1]; omega
    ⟨⟨8 * ((i 0 : ℕ) / 1024) + 7, hlt⟩, (flush1_6 _).mpr (by show (8 * ((i 0 : ℕ) / 1024) + 7) % 8 = 7; omega), by
      have hx := idx_out ⟨8 * ((i 0 : ℕ) / 1024) + 7, hlt⟩
      show i ∈ ((View.whole main_v4).slice (win1_6.rect ⟨8 * ((i 0 : ℕ) / 1024) + 7, hlt⟩)).set
      rw [View.set_slice_whole, Rect.mem_set_unit]
      intro ax
      match ax with
      | ⟨0, _⟩ =>
        show win1_6.index ⟨8 * ((i 0 : ℕ) / 1024) + 7, hlt⟩ 0 * 1024 ≤ (i 0 : ℕ) ∧ (i 0 : ℕ) < win1_6.index ⟨8 * ((i 0 : ℕ) / 1024) + 7, hlt⟩ 0 * 1024 + win1_6.xsize (grid1.coords ⟨8 * ((i 0 : ℕ) / 1024) + 7, hlt⟩) 0
        rw [hx.1, hx.2.2.1]
        show (8 * ((i 0 : ℕ) / 1024) + 7) / 8 * 1024 ≤ (i 0 : ℕ) ∧ (i 0 : ℕ) < (8 * ((i 0 : ℕ) / 1024) + 7) / 8 * 1024 + 1024
        omega
      | ⟨1, _⟩ =>
        show win1_6.index ⟨8 * ((i 0 : ℕ) / 1024) + 7, hlt⟩ 1 * 128 ≤ (i 1 : ℕ) ∧ (i 1 : ℕ) < win1_6.index ⟨8 * ((i 0 : ℕ) / 1024) + 7, hlt⟩ 1 * 128 + win1_6.xsize (grid1.coords ⟨8 * ((i 0 : ℕ) / 1024) + 7, hlt⟩) 1
        rw [hx.2.1, hx.2.2.2]
        omega⟩

/-- The finished entry in terms of the entry contents, over whole-array sums. -/
theorem outArr_apply (i : Fin 8192) (u : Fin 128) :
    outArr V c (ix2 i u)
      = max ((∑ f : Fin 128,
          (eD V c (ix2 i (0 : Fin 1))
              * (∑ j : Fin 8192, eA V c (ix2 i j) * eY V c (ix2 j f))
            + (eD V c (ix2 i (0 : Fin 1)) * eD V c (ix2 i (0 : Fin 1)))
              * eX V c (ix2 i f))
          * eW V c (ix2 f u)) + eB V c (ix2 (0 : Fin 1) u)) 0 := by
  unfold outArr outVal
  show max ((∑ f : Fin 128, (d V c i.val * prodRow V c i.val f + (d V c i.val * d V c i.val) * x V c i.val f) * _) + _) 0 = _
  have hd : d V c i.val = eD V c (ix2 i (0 : Fin 1)) := by unfold d; rw [dif_pos i.isLt]
  have hx : ∀ f, x V c i.val f = eX V c (ix2 i f) := fun f => by unfold x; rw [dif_pos i.isLt]
  have hp : ∀ f, prodRow V c i.val f = ∑ j : Fin 8192, eA V c (ix2 i j) * eY V c (ix2 j f) := fun f => by
    unfold prodRow
    rw [Finset.sum_range]
    refine Finset.sum_congr rfl fun j _ => ?_
    unfold a y
    rw [dif_pos ⟨i.isLt, j.isLt⟩, dif_pos j.isLt]
  simp only [hd, hx, hp]

end Cert.KernelIdeal.Agg

end
-- ==== Proof.KI.Host.lean ====
/-
  Between the two passes, and the kernel's result in the specification's words.

  The three host operations leave the adjacency matrix, the features, the weights and the degree pass's column as they
  were; they write y = (the column spread over 128 columns) * x and the bias as a 1 x 128 row. So the aggregation pass
  is entered with d i = rsqrt (row sum i + 1) in the column, y j f = d j * x j f, and its finished entry (i, u) is the
  two-pass arrangement's out i u of the launch's four arguments.
-/
import proofs.«179909_j2903397893032_1_alg».proof.Proof.KI.Run
import proofs.«179909_j2903397893032_1_alg».proof.Proof.KI.DegValue
import proofs.«179909_j2903397893032_1_alg».proof.Proof.KI.AggValue
import proofs.«179909_j2903397893032_1_alg».proof.Proof.Spec
import Idealize.ShloMosaic.Lib.StableHlo.Run
import Idealize.ShloMosaic.Lib.ValueLayout

set_option maxRecDepth 16384

noncomputable section

open scoped BigOperators

namespace Cert.KernelIdeal.Host

open Cert.KernelIdeal Cert.KernelIdeal.Gen Cert.KernelIdeal.Run
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-! ## What the host operations leave alone -/

theorem keep_col (c : Dev nD) : W2 m ρ c (Proc.devRef .tc main_v0) = W1 m ρ c (Proc.devRef .tc main_v0) :=
  StableHlo.after_of_forall_not_mem (b := Proc.devRef .tc main_v0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem keep_adj (c : Dev nD) : W2 m ρ c (Proc.devRef .tc main_arg1) = W1 m ρ c (Proc.devRef .tc main_arg1) :=
  StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem keep_x (c : Dev nD) : W2 m ρ c (Proc.devRef .tc main_arg0) = W1 m ρ c (Proc.devRef .tc main_arg0) :=
  StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem keep_w (c : Dev nD) : W2 m ρ c (Proc.devRef .tc main_arg2) = W1 m ρ c (Proc.devRef .tc main_arg2) :=
  StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-! ## The arrays, typed -/

def dCol (c : Dev nD) : FVec Ideal S8192x1 .f32 := W1 m ρ c (Proc.devRef .tc main_v0)
def xArr (c : Dev nD) : FVec Ideal S8192x128 .f32 := W1 m ρ c (Proc.devRef .tc main_arg0)
def bVec (c : Dev nD) : FVec Ideal S128 .f32 := W1 m ρ c (Proc.devRef .tc main_arg3)
def yArr (c : Dev nD) : FVec Ideal S8192x128 .f32 := W2 m ρ c (Proc.devRef .tc main_v2)
def bRow (c : Dev nD) : FVec Ideal S1x128 .f32 := W2 m ρ c (Proc.devRef .tc main_v3)

theorem y_eq (c : Dev nD) :
    yArr m ρ c = mulf (broadcastInDim S8192x128 ![0, 1] bcast_S8192x1_S8192x128_0_1 (dCol m ρ c)) (xArr m ρ c) := by
  show StableHlo.after hostOps1 (W1 m ρ c) (Proc.devRef .tc main_v2) = _
  after_results
  rfl

theorem bRow_eq (c : Dev nD) : bRow m ρ c = shapeCast S1x128 (bVec m ρ c) shapeCasts_S128_S1x128 := by
  show StableHlo.after hostOps1 (W1 m ρ c) (Proc.devRef .tc main_v3) = _
  after_results
  rfl

theorem y_apply (c : Dev nD) (j : Fin 8192) (f : Fin 128) :
    yArr m ρ c (ix2 j f) = dCol m ρ c (ix2 j (0 : Fin 1)) * xArr m ρ c (ix2 j f) := by
  rw [y_eq, mulf_apply]
  refine congrArg (· * xArr m ρ c (ix2 j f)) ?_
  exact broadcastInDim_apply _ bcast_S8192x1_S8192x128_0_1 (dCol m ρ c) (ix2 j f) (ix2 j (0 : Fin 1)) (fun a => match a with
    | ⟨0, _⟩ => by show j.val = if (8192 : Nat) = 1 then 0 else j.val; rw [if_neg (by decide)]
    | ⟨1, _⟩ => by show 0 = if (1 : Nat) = 1 then 0 else f.val; rw [if_pos rfl])

theorem bRow_apply (c : Dev nD) (u : Fin 128) : bRow m ρ c (ix2 (0 : Fin 1) u) = bVec m ρ c (ix1 u) := by
  rw [bRow_eq]
  exact shapeCast_a_1a_apply (bVec m ρ c) shapeCasts_S128_S1x128 0 u

/-! ## The launch's arguments, as the specification reads them -/

abbrev A (c : Dev nD) : Fin 8192 → Fin 8192 → EReal := Cert.Gcn.mat (m ((c : Thread nD τ).loc main_arg1) : S8192x8192.Idx → EReal)
abbrev X (c : Dev nD) : Fin 8192 → Fin 128 → EReal := Cert.Gcn.mat (m ((c : Thread nD τ).loc main_arg0) : S8192x128.Idx → EReal)
abbrev Wt (c : Dev nD) : Fin 128 → Fin 128 → EReal := Cert.Gcn.mat (m ((c : Thread nD τ).loc main_arg2) : S128x128.Idx → EReal)
abbrev Bv (c : Dev nD) : Fin 128 → EReal := Cert.Gcn.vec (m ((c : Thread nD τ).loc main_arg3) : S128.Idx → EReal)

theorem dCol_apply (c : Dev nD) (i : Fin 8192) : dCol m ρ c (ix2 i (0 : Fin 1)) = Cert.Gcn.dK (A m c) i := by
  unfold dCol
  rw [show W1 m ρ c (Proc.devRef .tc main_v0) = (Deg.dat (V0 m ρ) c).arrAt 1 cfg0.N from W1_arr m ρ c 1, Deg.final_dinv, Deg.dinvArr_eq]

theorem xArr_eq (c : Dev nD) : xArr m ρ c = (m ((c : Thread nD τ).loc main_arg0) : S8192x128.Idx → EReal) := by
  unfold xArr; exact (W1_of_ne m ρ c main_arg0 (by decide)).trans rfl
theorem bVec_eq (c : Dev nD) : bVec m ρ c = (m ((c : Thread nD τ).loc main_arg3) : S128.Idx → EReal) := by
  unfold bVec; exact (W1_of_ne m ρ c main_arg3 (by decide)).trans rfl

/-- The aggregation pass's entry contents, in the specification's words. -/
theorem entry_col (c : Dev nD) (i : Fin 8192) : Agg.eD (V2 m ρ) c (ix2 i (0 : Fin 1)) = Cert.Gcn.dK (A m c) i := by
  have h : Agg.eD (V2 m ρ) c = dCol m ρ c := keep_col m ρ c
  rw [h]; exact dCol_apply m ρ c i
theorem entry_adj (c : Dev nD) (i j : Fin 8192) : Agg.eA (V2 m ρ) c (ix2 i j) = A m c i j := by
  have h : Agg.eA (V2 m ρ) c = (m ((c : Thread nD τ).loc main_arg1) : Vec Ideal S8192x8192 .f32) :=
    (keep_adj m ρ c).trans ((W1_arr m ρ c 0).trans (((Deg.dat (V0 m ρ) c).arrAt_in 0 rfl _).trans ((Deg.A_eq (V0 m ρ) c 0).trans rfl)))
  rw [h]; rfl
theorem entry_x (c : Dev nD) (i : Fin 8192) (f : Fin 128) : Agg.eX (V2 m ρ) c (ix2 i f) = X m c i f := by
  have h : Agg.eX (V2 m ρ) c = xArr m ρ c := keep_x m ρ c
  rw [h, xArr_eq]; rfl
theorem entry_w (c : Dev nD) (f u : Fin 128) : Agg.eW (V2 m ρ) c (ix2 f u) = Wt m c f u := by
  have h : Agg.eW (V2 m ρ) c = (m ((c : Thread nD τ).loc main_arg2) : Vec Ideal S128x128 .f32) :=
    (keep_w m ρ c).trans ((W1_of_ne m ρ c main_arg2 (by decide)).trans rfl)
  rw [h]; rfl
theorem entry_y (c : Dev nD) (j : Fin 8192) (f : Fin 128) : Agg.eY (V2 m ρ) c (ix2 j f) = Cert.Gcn.yK (A m c) (X m c) j f := by
  show yArr m ρ c (ix2 j f) = _
  rw [y_apply, dCol_apply, xArr_eq]
  rfl
theorem entry_b (c : Dev nD) (u : Fin 128) : Agg.eB (V2 m ρ) c (ix2 (0 : Fin 1) u) = Bv m c u := by
  show bRow m ρ c (ix2 (0 : Fin 1) u) = _
  rw [bRow_apply, bVec_eq]
  rfl

/-- THE KERNEL'S RESULT: entry (i, u) of the result array after the run is the two-pass arrangement's out i u. -/
theorem kernel_value (c : Dev nD) (i : Fin 8192) (u : Fin 128) :
    (W3 m ρ c (Proc.devRef .tc main_v4) : Vec Ideal S8192x128 .f32) (ix2 i u) = Cert.Gcn.outK (A m c) (X m c) (Wt m c) (Bv m c) i u := by
  rw [W3_main_v4, Agg.final_out, Agg.outArr_apply]
  simp only [entry_col, entry_adj, entry_y, entry_x, entry_w, entry_b]
  rfl

end Cert.KernelIdeal.Host

end
-- ==== Proof.RefImports.lean ====
/- The reference's run and its operations read at an index, brought in for the modules that compare the two programs. -/
import proofs.«179909_j2903397893032_1_alg».proof.Proof.Gen.ReferenceIdeal.Run
import proofs.«179909_j2903397893032_1_alg».proof.Proof.Gen.ReferenceIdeal.Read
-- ==== Proof.RefValue.lean ====
/-
  The reference program's result, read at an index, is the matrix arrangement of the layer (Cert.Gcn.outR) on the
  arguments read as functions of their coordinates: one lemma per stage, from the identity matrix and the row sums
  up to the final maximum with zero.
-/
import proofs.«179909_j2903397893032_1_alg».proof.Proof.Spec
import proofs.«179909_j2903397893032_1_alg».proof.Proof.RefImports

noncomputable section

open scoped BigOperators

namespace Cert.Gcn.Ref

open Idealize.ShloMosaic Idealize.ShloMosaic.ValueIdx Cert.ReferenceIdeal Cert.ReferenceIdeal.Read

/-- Two naturals below 8192 with the same 32-bit word are equal. -/
theorem ofNat32_inj (i j : Fin 8192) (h : BitVec.ofNat 32 i.val = BitVec.ofNat 32 j.val) : i = j := by
  have h' := congrArg BitVec.toNat h
  rw [BitVec.toNat_ofNat, BitVec.toNat_ofNat] at h'
  have hi := i.isLt
  have hj := j.isLt
  apply Fin.ext
  omega

/-- The comparison of the row number (plus zero) with the column number, converted to a float, is the identity matrix. -/
theorem eye_word (i j : Fin 8192) :
    (FloatOps.uitofp (F := Ideal) .f32 (IntOp.cmpi .eq (IntOp.addi (BitVec.ofNat 32 i.val) 0#32) (BitVec.ofNat 32 j.val)) : EReal)
      = Cert.Gcn.eye i j := by
  have h0 : IntOp.addi (BitVec.ofNat 32 i.val) 0#32 = BitVec.ofNat 32 i.val := BitVec.add_zero _
  rw [h0]
  unfold Cert.Gcn.eye
  by_cases hij : i = j
  · subst hij
    rw [if_pos rfl, IntOp.cmpi_eq.2 rfl]
    show (((1#1 : BitVec 1).toNat : ℝ) : EReal) = 1
    simp
  · rw [if_neg hij]
    have hne : IntOp.cmpi .eq (BitVec.ofNat 32 i.val) (BitVec.ofNat 32 j.val) ≠ 1#1 :=
      fun h => hij (ofNat32_inj i j (IntOp.cmpi_eq.1 h))
    rw [eq_zero_of_ne_one hne]
    show (((0#1 : BitVec 1).toNat : ℝ) : EReal) = 0
    simp

/-- Stage 5: the identity matrix. -/
theorem v5_eq (i j : Fin 8192) : val_main_v5 (F := Ideal) (ix2 i j) = Cert.Gcn.eye i j := by
  rw [val_main_v5_apply, val_main_v4_apply, val_main_v3_apply, val_main_v0_apply, val_main_v1_apply, val_main_v2_apply,
    val_main_c_apply]
  exact eye_word i j

variable (x0 : (⟨S8192x128, .f32⟩ : BufTy).Contents (Elt Ideal)) (x1 : (⟨S8192x8192, .f32⟩ : BufTy).Contents (Elt Ideal))
  (x2 : (⟨S128x128, .f32⟩ : BufTy).Contents (Elt Ideal)) (x3 : (⟨S128, .f32⟩ : BufTy).Contents (Elt Ideal))

/-- Stage 6: the adjacency matrix with the self-loops put in. -/
theorem v6_eq (i j : Fin 8192) : val_main_v6 (F := Ideal) x1 (ix2 i j) = Cert.Gcn.mat x1 i j + Cert.Gcn.eye i j := by
  rw [val_main_v6_apply, v5_eq]
  rfl

/-- Stage 7: the row sums from zero, the degrees of the matrix arrangement. -/
theorem v7_eq (i : Fin 8192) : val_main_v7 (F := Ideal) x1 (ix1 i) = Cert.Gcn.degR (Cert.Gcn.mat x1) i := by
  rw [val_main_v7_apply]
  unfold Cert.Gcn.degR
  refine congrArg₂ (· + ·) ?_ (Finset.sum_congr rfl fun k _ => ?_)
  · exact Ideal.ofBits_zero_f32
  · have hidx : idx_main_v7 (ix1 i) k = ix2 i k :=
      funext fun a => Fin.ext (by match a with | ⟨0, _⟩ => rfl | ⟨1, _⟩ => rfl)
    exact (congrArg (val_main_v6 (F := Ideal) x1) hidx).trans (v6_eq x1 i k)

/-- Stage 8: the inverse square roots of the degrees. -/
theorem v8_eq (i : Fin 8192) : val_main_v8 (F := Ideal) x1 (ix1 i) = Cert.Gcn.dR (Cert.Gcn.mat x1) i := by
  rw [val_main_v8_apply, v7_eq]
  rfl

/-- Stages 9 and 10: the inverse square roots spread along the rows. -/
theorem v10_eq (i j : Fin 8192) : val_main_v10 (F := Ideal) x1 (ix2 i j) = Cert.Gcn.dR (Cert.Gcn.mat x1) i := by
  rw [val_main_v10_apply, val_main_v9_apply]
  have hidx : idx_main_v9 (idx_main_v10 (ix2 i j)) = ix1 i :=
    funext fun a => Fin.ext (by match a with | ⟨0, _⟩ => rfl)
  exact (congrArg (val_main_v8 (F := Ideal) x1) hidx).trans (v8_eq x1 i)

/-- Stages 12 and 13: the inverse square roots spread along the columns. -/
theorem v13_eq (i j : Fin 8192) : val_main_v13 (F := Ideal) x1 (ix2 i j) = Cert.Gcn.dR (Cert.Gcn.mat x1) j := by
  rw [val_main_v13_apply, val_main_v12_apply]
  have hidx : idx_main_v12 (idx_main_v13 (ix2 i j)) = ix1 j :=
    funext fun a => Fin.ext (by match a with | ⟨0, _⟩ => rfl)
  exact (congrArg (val_main_v8 (F := Ideal) x1) hidx).trans (v8_eq x1 j)

/-- Stages 11 and 14: the matrix scaled on both sides. -/
theorem v14_eq (i j : Fin 8192) : val_main_v14 (F := Ideal) x1 (ix2 i j) = Cert.Gcn.normR (Cert.Gcn.mat x1) i j := by
  rw [val_main_v14_apply, val_main_v11_apply, v6_eq, v10_eq, v13_eq]
  rfl

/-- Stage 15: the scaled matrix times the features. -/
theorem v15_eq (i : Fin 8192) (f : Fin 128) :
    val_main_v15 (F := Ideal) x0 x1 (ix2 i f) = Cert.Gcn.hR (Cert.Gcn.mat x1) (Cert.Gcn.mat x0) i f := by
  rw [val_main_v15_apply]
  unfold Cert.Gcn.hR
  refine Finset.sum_congr rfl fun k _ => ?_
  have hl : lidx_main_v15 (ix2 i f) k = ix2 i k :=
    funext fun a => Fin.ext (by match a with | ⟨0, _⟩ => rfl | ⟨1, _⟩ => rfl)
  have hr : ridx_main_v15 (ix2 i f) k = ix2 k f :=
    funext fun a => Fin.ext (by match a with | ⟨0, _⟩ => rfl | ⟨1, _⟩ => rfl)
  exact congrArg₂ (· * ·) ((congrArg (val_main_v14 (F := Ideal) x1) hl).trans (v14_eq x1 i k)) (congrArg x0 hr)

/-- Stage 16: times the weights. -/
theorem v16_eq (i : Fin 8192) (u : Fin 128) :
    val_main_v16 (F := Ideal) x0 x1 x2 (ix2 i u)
      = ∑ f : Fin 128, Cert.Gcn.hR (Cert.Gcn.mat x1) (Cert.Gcn.mat x0) i f * Cert.Gcn.mat x2 f u := by
  rw [val_main_v16_apply]
  refine Finset.sum_congr rfl fun k _ => ?_
  have hl : lidx_main_v16 (ix2 i u) k = ix2 i k :=
    funext fun a => Fin.ext (by match a with | ⟨0, _⟩ => rfl | ⟨1, _⟩ => rfl)
  have hr : ridx_main_v16 (ix2 i u) k = ix2 k u :=
    funext fun a => Fin.ext (by match a with | ⟨0, _⟩ => rfl | ⟨1, _⟩ => rfl)
  exact congrArg₂ (· * ·) ((congrArg (val_main_v15 (F := Ideal) x0 x1) hl).trans (v15_eq x0 x1 i k)) (congrArg x2 hr)

/-- Stages 17 and 18: the bias spread over the rows. -/
theorem v18_eq (i : Fin 8192) (u : Fin 128) : val_main_v18 (F := Ideal) x3 (ix2 i u) = Cert.Gcn.vec x3 u := by
  rw [val_main_v18_apply, val_main_v17_apply]
  have hidx : idx_main_v17 (idx_main_v18 (ix2 i u)) = ix1 u :=
    funext fun a => Fin.ext (by match a with | ⟨0, _⟩ => rfl)
  exact congrArg x3 hidx

/-- The reference's result at (i, u) is the matrix arrangement of the layer on the arguments. -/
theorem ref_eq (i : Fin 8192) (u : Fin 128) :
    Cert.ReferenceIdeal.Read.val_main_v20 (F := Ideal) x0 x1 x2 x3 (ValueIdx.ix2 i u)
      = Cert.Gcn.outR (Cert.Gcn.mat x1) (Cert.Gcn.mat x0) (Cert.Gcn.mat x2) (Cert.Gcn.vec x3) i u := by
  rw [val_main_v20_apply, val_main_v19_apply, v16_eq, v18_eq, val_main_call0_v0_apply, val_main_call0_cst_apply]
  unfold Cert.Gcn.outR
  exact congrArg (max _ ·) Ideal.ofBits_zero_f32

end Cert.Gcn.Ref

end
-- ==== Proof.PreFacts.lean ====
/-
  What the precondition says of the arguments, in the vocabulary of the layer's formula: every entry of the adjacency
  matrix and of the features is a real number, and every row sum of the adjacency matrix with the identity added
  (the reference's degree) is positive.
-/
import proofs.«179909_j2903397893032_1_alg».proof.Proof.Spec
import proofs.«179909_j2903397893032_1_alg».proof.Pre_finite_inputs
import Idealize.ShloMosaic.Lib.ReduceAll
import Idealize.ShloMosaic.PureOps.Ideal.Laws

noncomputable section

open scoped BigOperators

namespace Cert.Gcn.Pre

open Idealize.ShloMosaic Idealize.ShloMosaic.ValueIdx Cert.Pre_finite_inputs

/-- The rank-0 shape has one index. -/
instance : Subsingleton S_.Idx := ⟨fun a b => funext fun d => d.elim0⟩

theorem ofBool_one {b : Bool} : BitVec.ofBool b = 1#1 ↔ b = true := by cases b <;> decide

/-- An extended real whose absolute value is below +∞ is a real. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- The pattern 0x7F800000 is +∞. -/
theorem ofBits_inf : Ideal.ofBits .f32 0x7F800000#32 = ⊤ := by simp [Ideal.ofBits, Ideal.ieee]

/-- One element of the test |x| < +∞ being 1 says the element is a real. -/
theorem real_of_elem {s : Shape} (hb : S_.BroadcastsInDim s (![] : Fin 0 → Fin s.rank)) (x : FVec Ideal s .f32) (j : s.Idx)
    (e : cmpf .olt (Host.absf x) (broadcastInDim s ![] hb (constant S_ .f32 0x7F800000#32)) j = 1#1) :
    ∃ r : ℝ, x j = (r : EReal) := by
  have e' : Ideal.cmp .olt (max (x j) (-(x j))) (Ideal.ofBits .f32 0x7F800000#32) = 1#1 := e
  rw [ofBits_inf] at e'
  unfold Ideal.cmp at e'
  rw [ofBool_one, decide_eq_true_eq] at e'
  exact real_of_abs_lt_top _ e'

/-- Two naturals below 8192 with the same 32-bit word are equal. -/
theorem ofNat32_inj (i j : Fin 8192) (h : BitVec.ofNat 32 i.val = BitVec.ofNat 32 j.val) : i = j := by
  have h' := congrArg BitVec.toNat h
  rw [BitVec.toNat_ofNat, BitVec.toNat_ofNat] at h'
  have hi := i.isLt
  have hj := j.isLt
  apply Fin.ext
  omega

/-- The comparison of the row number (plus zero) with the column number, converted to a float, is the identity matrix. -/
theorem eye_word (i j : Fin 8192) :
    (FloatOps.uitofp (F := Ideal) .f32 (IntOp.cmpi .eq (IntOp.addi (BitVec.ofNat 32 i.val) 0#32) (BitVec.ofNat 32 j.val)) : EReal)
      = Cert.Gcn.eye i j := by
  have h0 : IntOp.addi (BitVec.ofNat 32 i.val) 0#32 = BitVec.ofNat 32 i.val := BitVec.add_zero _
  rw [h0]
  unfold Cert.Gcn.eye
  by_cases hij : i = j
  · subst hij
    rw [if_pos rfl, IntOp.cmpi_eq.2 rfl]
    show (((1#1 : BitVec 1).toNat : ℝ) : EReal) = 1
    simp
  · rw [if_neg hij]
    have hne : IntOp.cmpi .eq (BitVec.ofNat 32 i.val) (BitVec.ofNat 32 j.val) ≠ 1#1 :=
      fun h => hij (ofNat32_inj i j (IntOp.cmpi_eq.1 h))
    rw [eq_zero_of_ne_one hne]
    show (((0#1 : BitVec 1).toNat : ℝ) : EReal) = 0
    simp

variable [Facts]

/-- The host's sum along the rows of a matrix, from zero, read at row i. -/
theorem rowsum (Y : FVec Ideal S8192x8192 .f32) (i : Fin 8192) :
    Host.reduceAdd Y (constant S_ .f32 0x00000000#32) Facts.reducesTo_S8192x8192_S8192_d1 Facts.h_S_ (ix1 i)
      = 0 + ∑ k : Fin 8192, Y (ix2 i k) := by
  simp only [Host.reduceAdd, Ideal.hostReduceAdd_def]
  rw [Ideal.hostReduceAdd_single Facts.reducesTo_S8192x8192_S8192_d1 (by decide)]
  refine congrArg₂ (· + ·) ?_ (Finset.sum_congr rfl fun k _ => ?_)
  · exact Ideal.ofBits_zero_f32
  · exact congrArg Y (funext fun a => Fin.ext (by match a with | ⟨0, _⟩ => rfl | ⟨1, _⟩ => rfl))

/-- One element of the test "row sum > 0" being 1 says the row sum is positive. -/
theorem pos_of_elem (Y : FVec Ideal S8192x8192 .f32) (i : Fin 8192)
    (e : cmpf .ogt (Host.reduceAdd Y (constant S_ .f32 0x00000000#32) Facts.reducesTo_S8192x8192_S8192_d1 Facts.h_S_)
      (broadcastInDim S8192 ![] Facts.bcast_S_S8192 (constant S_ .f32 0x00000000#32)) (ix1 i) = 1#1) :
    0 < 0 + ∑ k : Fin 8192, Y (ix2 i k) := by
  have e' : Ideal.cmp .ogt (Host.reduceAdd Y (constant S_ .f32 0x00000000#32) Facts.reducesTo_S8192x8192_S8192_d1 Facts.h_S_ (ix1 i))
      (Ideal.ofBits .f32 0x00000000#32) = 1#1 := e
  rw [Ideal.ofBits_zero_f32] at e'
  unfold Ideal.cmp at e'
  rw [ofBool_one, decide_eq_true_eq, rowsum Y i] at e'
  exact e'

/-- The precondition, decoded: the adjacency matrix and the features have real entries, and every degree of the
    matrix arrangement (the row sum of the adjacency matrix plus the identity) is positive. -/
theorem facts (x0 : FVec Ideal S8192x128 .f32) (x1 : FVec Ideal S8192x8192 .f32) (x2 : FVec Ideal S128x128 .f32)
    (x3 : FVec Ideal S128 .f32) (h : Cert.Pre_finite_inputs.fn (F := Ideal) x0 x1 x2 x3 = fun _ => 1#1) :
    (∀ i j, ∃ r : ℝ, Cert.Gcn.mat x1 i j = (r : EReal)) ∧ (∀ j f, ∃ r : ℝ, Cert.Gcn.mat x0 j f = (r : EReal))
      ∧ (∀ i, 0 < Cert.Gcn.degR (Cert.Gcn.mat x1) i) := by
  have e := congrFun h ix0
  dsimp only [fn, fn_part1, andi] at e
  rw [IntOp.andi_eq_one, IntOp.andi_eq_one, IntOp.andi_eq_one, IntOp.andi_eq_one] at e
  obtain ⟨⟨⟨⟨h0, h1⟩, -⟩, -⟩, h5⟩ := e
  refine ⟨fun i j => ?_, fun j f => ?_, fun i => ?_⟩
  · exact real_of_elem _ x1 (ix2 i j) (Host.reduce_andi_all _ _ _ _ ix0 h1 (ix2 i j))
  · exact real_of_elem _ x0 (ix2 j f) (Host.reduce_andi_all _ _ _ _ ix0 h0 (ix2 j f))
  · have p := pos_of_elem _ i (Host.reduce_andi_all _ _ _ _ ix0 h5 (ix1 i))
    refine lt_of_lt_of_eq p ?_
    unfold Cert.Gcn.degR
    refine congrArg (0 + ·) (Finset.sum_congr rfl fun k _ => ?_)
    exact (congrArg (fun t => x1 (ix2 i k) + t) (eye_word i k))

end Cert.Gcn.Pre

end
-- ==== Proof.Law.lean ====
/-
  The algebraic law of the graph-convolution layer: on real entries with positive degrees the two-pass arrangement
  and the matrix arrangement of Spec.lean are equal.

  The degrees agree with no hypothesis at all: the sum of A i j + [i = j] over j splits into the sum of A i j and the
  sum of the indicator, which is 1, and 0 + _ = _.  Hence the inverse square roots agree.  On real entries the degree
  is a real number, positive by hypothesis, so its inverse square root d i is a real number.  The two hidden values
  are then the coercions of two real numbers,
      d i * sum_j a i j * (d j * x j f) + d i * d i * x i f   and   sum_j ((a i j + [i = j]) * d i) * d j * x j f,
  which are equal: distribute the product over the sum and collect the j = i term of the indicator.
  The final contraction with W, the bias and the maximum are applied to equal values.
-/
import proofs.«179909_j2903397893032_1_alg».proof.Proof.Spec
import Mathlib.Tactic.Ring
import Mathlib.Algebra.BigOperators.Ring.Finset

noncomputable section

open scoped BigOperators

namespace Cert.Gcn

open Idealize.ShloMosaic

/-- The coercion of the reals into the extended reals commutes with finite sums. -/
theorem coe_sum {ι : Type*} (s : Finset ι) (g : ι → ℝ) :
    ((∑ j ∈ s, g j : ℝ) : EReal) = ∑ j ∈ s, (g j : EReal) := by
  classical
  refine Finset.induction_on s (by simp) ?_
  intro k s hk ih
  rw [Finset.sum_insert hk, Finset.sum_insert hk, EReal.coe_add, ih]

/-- The indicator of the diagonal is the coercion of the real indicator. -/
theorem eye_coe (i j : Fin 8192) : eye i j = ((if i = j then (1 : ℝ) else 0 : ℝ) : EReal) := by
  unfold eye
  by_cases h : i = j
  · rw [if_pos h, if_pos h, EReal.coe_one]
  · rw [if_neg h, if_neg h, EReal.coe_zero]

variable (A : Fin 8192 → Fin 8192 → EReal) (X : Fin 8192 → Fin 128 → EReal)
  (W : Fin 128 → Fin 128 → EReal) (B : Fin 128 → EReal)

/-- The two degrees agree: the indicator sums to 1 along a row. -/
theorem deg_eq (i : Fin 8192) : degK A i = degR A i := by
  unfold degK degR eye
  rw [Finset.sum_add_distrib, Finset.sum_ite_eq Finset.univ i (fun _ => (1 : EReal)),
    if_pos (Finset.mem_univ i), zero_add]

/-- Hence the two inverse square roots agree. -/
theorem d_eq (i : Fin 8192) : dK A i = dR A i := by
  unfold dK dR
  rw [deg_eq]

/-- On real entries with a positive degree the inverse square root of the degree is a real number. -/
theorem d_real (hA : ∀ i j, ∃ r : ℝ, A i j = (r : EReal)) (hpos : ∀ i, 0 < degR A i) (i : Fin 8192) :
    ∃ r : ℝ, dR A i = (r : EReal) := by
  choose a ha using hA
  have hdeg : degR A i = (((∑ j : Fin 8192, a i j) + 1 : ℝ) : EReal) := by
    rw [← deg_eq]
    unfold degK
    rw [EReal.coe_add, coe_sum, EReal.coe_one]
    exact congrArg (· + (1 : EReal)) (Finset.sum_congr rfl (fun j _ => ha i j))
  have hp : (0 : ℝ) < (∑ j : Fin 8192, a i j) + 1 := by
    have h := hpos i
    rw [hdeg] at h
    exact EReal.coe_pos.mp h
  refine ⟨(Real.sqrt ((∑ j : Fin 8192, a i j) + 1))⁻¹, ?_⟩
  unfold dR
  rw [hdeg, Ideal.rsqrt_coe, if_neg (not_lt.mpr hp.le), if_neg hp.ne']

/-- The real identity behind the law, over any finite index type. -/
theorem real_law {ι : Type*} [Fintype ι] [DecidableEq ι] (a : ι → ι → ℝ) (d y : ι → ℝ) (i : ι) :
    d i * ∑ j, a i j * (d j * y j) + (d i * d i) * y i
      = ∑ j, ((a i j + (if i = j then (1 : ℝ) else 0)) * d i) * d j * y j := by
  have h : ∀ j, ((a i j + (if i = j then (1 : ℝ) else 0)) * d i) * d j * y j
      = d i * (a i j * (d j * y j)) + (if i = j then (d i * d j) * y j else 0) := by
    intro j
    by_cases hij : i = j
    · rw [if_pos hij, if_pos hij]; ring
    · rw [if_neg hij, if_neg hij]; ring
  rw [Finset.sum_congr rfl (fun j _ => h j), Finset.sum_add_distrib, ← Finset.mul_sum,
    Finset.sum_ite_eq Finset.univ i (fun j => (d i * d j) * y j), if_pos (Finset.mem_univ i)]

/-- The two hidden values agree. -/
theorem h_eq (hA : ∀ i j, ∃ r : ℝ, A i j = (r : EReal)) (hX : ∀ j f, ∃ r : ℝ, X j f = (r : EReal))
    (hpos : ∀ i, 0 < degR A i) (i : Fin 8192) (f : Fin 128) : hK A X i f = hR A X i f := by
  choose d hd using d_real A hA hpos
  choose a ha using hA
  choose x hx using hX
  have hL : hK A X i f
      = ((d i * ∑ j : Fin 8192, a i j * (d j * x j f) + (d i * d i) * x i f : ℝ) : EReal) := by
    unfold hK accK yK
    rw [d_eq, hd i, hx i f, EReal.coe_add, EReal.coe_mul, EReal.coe_mul, EReal.coe_mul, coe_sum]
    refine congrArg (fun t => (d i : EReal) * t + ((d i : EReal) * (d i : EReal)) * (x i f : EReal)) ?_
    refine Finset.sum_congr rfl (fun j _ => ?_)
    rw [d_eq, hd j, ha i j, hx j f, EReal.coe_mul, EReal.coe_mul]
  have hR' : hR A X i f
      = ((∑ j : Fin 8192, ((a i j + (if i = j then (1 : ℝ) else 0)) * d i) * d j * x j f : ℝ) : EReal) := by
    unfold hR normR
    rw [coe_sum]
    refine Finset.sum_congr rfl (fun j _ => ?_)
    rw [hd i, hd j, ha i j, hx j f, eye_coe, EReal.coe_mul, EReal.coe_mul, EReal.coe_mul, EReal.coe_add]
  rw [hL, hR']
  exact congrArg _ (real_law (fun i j => a i j) d (fun j => x j f) i)

/-- The law: on real entries with positive degrees the two arrangements are equal. -/
theorem law (A : Fin 8192 → Fin 8192 → EReal) (X : Fin 8192 → Fin 128 → EReal) (W : Fin 128 → Fin 128 → EReal) (B : Fin 128 → EReal)
    (hA : ∀ i j, ∃ r : ℝ, A i j = (r : EReal)) (hX : ∀ j f, ∃ r : ℝ, X j f = (r : EReal))
    (hpos : ∀ i, 0 < degR A i) : outK A X W B = outR A X W B := by
  funext i u
  unfold outK outR
  refine congrArg (fun t => max (t + B u) 0) ?_
  exact Finset.sum_congr rfl (fun f _ => congrArg (· * W f u) (h_eq A X hA hX hpos i f))

end Cert.Gcn

end
-- ==== Proof.lean ====
/-
  A graph-convolution layer, out = relu ((D^-1/2 (A + I) D^-1/2) x W + b), computed by a kernel in two passes over the
  adjacency matrix and by a reference that builds the normalized matrix; the two are equal at the exact extended
  reals on finite inputs whose degrees (row sums of A + I) are positive.

  The kernel first sums each row of A block by block into an accumulator and leaves d i = rsqrt (row sum + 1); the
  features are scaled, y j = d j * x j; the second pass accumulates A y block by block and finishes each row block with
  h i = d i * (A y) i + (d i * d i) * x i, then max (h W + b, 0). The reference adds the identity to A first, takes the
  row sums, scales A + I on both sides by d and multiplies by x, then by W, adds b and takes the maximum with 0.
  With every entry real and every degree positive each d i is a positive real, products distribute over the finite
  sums, and the j = i term of the reference's sum is the kernel's self-loop term: the two results are one function of
  the four arguments. (With a zero or negative degree d i is infinite or a placeholder and the two arrangements can
  differ: rsqrt's argument must be positive, which is the domain the reference's own formula has.)

  Both programs run to the end from any memory satisfying the precondition, fault nowhere and leave their four
  arguments unchanged: each pass of the kernel is entered with its arrays split out of the unscoped buffers, runs its
  body at each of the 64 grid points -- carrying its accumulator from point to point in an invariant -- and puts the
  arrays back; the reference is a straight line of host operations.
-/
import proofs.«179909_j2903397893032_1_alg».proof.Defs
import proofs.«179909_j2903397893032_1_alg».proof.Proof.Gen.Kernel
import proofs.«179909_j2903397893032_1_alg».proof.Proof.Gen.KernelIdeal
import proofs.«179909_j2903397893032_1_alg».proof.Proof.Gen.ReferenceIdeal
import proofs.«179909_j2903397893032_1_alg».proof.Proof.Gen.Pre_finite_inputs
import proofs.«179909_j2903397893032_1_alg».proof.Proof.K.Run
import proofs.«179909_j2903397893032_1_alg».proof.Proof.KI.Run
import proofs.«179909_j2903397893032_1_alg».proof.Proof.KI.Host
import proofs.«179909_j2903397893032_1_alg».proof.Proof.RefImports
import proofs.«179909_j2903397893032_1_alg».proof.Proof.RefValue
import proofs.«179909_j2903397893032_1_alg».proof.Proof.PreFacts
import proofs.«179909_j2903397893032_1_alg».proof.Proof.Law
import Idealize.ShloMosaic.Adequacy
import Idealize.ShloMosaic.Init

noncomputable section

namespace Cert.Proof

open Idealize.ShloMosaic Idealize.ShloMosaic.TcCoe Idealize.ShloMosaic.ValueIdx Idealize.SL.Sem

/-- The word-level kernel runs and leaves its arguments unchanged. -/
theorem frame_kernel : Cert.frame_Kernel := fun m ρ _ => Cert.Kernel.Run.frame m ρ

/-- So does the kernel read at the extended reals. -/
theorem frame_kernelIdeal : Cert.frame_KernelIdeal := fun m ρ _ => Cert.KernelIdeal.Run.frame m ρ

/-- The reference is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- At the extended reals the kernel's result array ends at the two-pass arrangement of the arguments and the
    reference's at the matrix arrangement; under the precondition these are one function. -/
theorem algebraic : Cert.algebraic_KernelIdeal_ReferenceIdeal := by
  intro m ρ m' ρ' hpre hagree
  refine ⟨fun c => Cert.KernelIdeal.Run.W3 m ρ c (Proc.devRef .tc Cert.KernelIdeal.main_v4), ?_, ?_⟩
  · exact (θ_run Cert.KernelIdeal.defs _ _).mono (fun r h c =>
      ⟨h c _ (Cert.KernelIdeal.Run.mem_uc Cert.KernelIdeal.main_v4 (by decide)),
       (h c _ (Cert.KernelIdeal.Run.mem_uc Cert.KernelIdeal.main_arg0 (by decide))).trans (Cert.KernelIdeal.Run.W3_main_arg0 m ρ c),
       (h c _ (Cert.KernelIdeal.Run.mem_uc Cert.KernelIdeal.main_arg1 (by decide))).trans (Cert.KernelIdeal.Run.W3_main_arg1 m ρ c),
       (h c _ (Cert.KernelIdeal.Run.mem_uc Cert.KernelIdeal.main_arg2 (by decide))).trans (Cert.KernelIdeal.Run.W3_main_arg2 m ρ c),
       (h c _ (Cert.KernelIdeal.Run.mem_uc Cert.KernelIdeal.main_arg3 (by decide))).trans (Cert.KernelIdeal.Run.W3_main_arg3 m ρ c)⟩)
      (Cert.KernelIdeal.Run.run m ρ)
  · refine (θ_run Cert.ReferenceIdeal.defs _ _).mono (fun _ h c => ⟨(h c).1.trans ?_, (h c).2⟩)
      (Cert.ReferenceIdeal.Value.run (F := Ideal) m' ρ')
    refine (Cert.ReferenceIdeal.Read.val_main_v20_eq (F := Ideal) _ _ _ _).trans ?_
    rw [(hagree c).1, (hagree c).2.1, (hagree c).2.2.1, (hagree c).2.2.2]
    funext idx
    obtain ⟨i, u, rfl⟩ : ∃ (i : Fin 8192) (u : Fin 128), idx = ix2 i u := ⟨idx 0, idx 1, eq_ix2 idx⟩
    have hf := Cert.Gcn.Pre.facts _ _ _ _ (hpre c)
    refine (Cert.Gcn.Ref.ref_eq _ _ _ _ i u).trans ?_
    refine Eq.trans ?_ (Cert.KernelIdeal.Host.kernel_value m ρ c i u).symm
    exact (congrFun (congrFun (Cert.Gcn.law _ _ _ _ hf.1 hf.2.1 hf.2.2) i) u).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
